-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S500000x256 : S_.BroadcastsInDim S500000x256 (![] : Fin 0 → Fin S500000x256.rank)
  reducesTo_S500000x256_S_d0_1 : S500000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256x256 .f32) (main_arg6 : FVec F S256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S100000x256 .f32) (main_arg1 : FVec F S500000x256 .f32) (main_arg2 : FVec F S256x256 .f32) (main_arg3 : FVec F S256x256 .f32) (main_arg4 : FVec F S256x256 .f32) (main_arg5 : FVec F S256x256 .f32) (main_arg6 : FVec F S256 .f32) (main_arg7 : FVec F S256 .f32) (main_arg8 : IVec S2x500000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S500000x256 .f32 := Host.absf main_arg1
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S100000x256 : Shape := ⟨2, ![100000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S1x500000 : Shape := ⟨2, ![1, 500000]⟩
abbrev S500000 : Shape := ⟨1, ![500000]⟩
abbrev S256x768 : Shape := ⟨2, ![256, 768]⟩
abbrev S100000x768 : Shape := ⟨2, ![100000, 768]⟩
abbrev S2000x256 : Shape := ⟨2, ![2000, 256]⟩
abbrev S2000x768 : Shape := ⟨2, ![2000, 768]⟩
abbrev S100000x8x32 : Shape := ⟨3, ![100000, 8, 32]⟩
abbrev S4000x256 : Shape := ⟨2, ![4000, 256]⟩
abbrev S500000x8x32 : Shape := ⟨3, ![500000, 8, 32]⟩
abbrev S_ : Shape := ⟨0, ![]⟩
abbrev S500000x1 : Shape := ⟨2, ![500000, 1]⟩
abbrev S500000x8 : Shape := ⟨2, ![500000, 8]⟩
abbrev S500000x8x1 : Shape := ⟨3, ![500000, 8, 1]⟩
abbrev S100000x8x1 : Shape := ⟨3, ![100000, 8, 1]⟩
abbrev S1x256 : Shape := ⟨2, ![1, 256]⟩

abbrev nBuf : Space → Nat
  | .hbm => 97
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S500000x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S2x500000, .i32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S256x768, .f32⟩
  | .hbm, ⟨14, _⟩ => ⟨S100000x768, .f32⟩
  | .hbm, ⟨15, _⟩ => ⟨S100000x256, .f32⟩
  | .hbm, ⟨16, _⟩ => ⟨S100000x8x32, .f32⟩
  | .hbm, ⟨17, _⟩ => ⟨S100000x256, .f32⟩
  | .hbm, ⟨18, _⟩ => ⟨S100000x8x32, .f32⟩
  | .hbm, ⟨19, _⟩ => ⟨S100000x256, .f32⟩
  | .hbm, ⟨20, _⟩ => ⟨S100000x8x32, .f32⟩
  | .hbm, ⟨21, _⟩ => ⟨S500000x256, .f32⟩
  | .hbm, ⟨22, _⟩ => ⟨S500000x8x32, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x8x32, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x8x32, .f32⟩
  | .hbm, ⟨41, _⟩ => ⟨S500000x8x32, .f32⟩
  | .hbm, ⟨42, _⟩ => ⟨S_, .f32⟩
  | .hbm, ⟨43, _⟩ => ⟨S500000x8x32, .f32⟩
  | .hbm, ⟨44, _⟩ => ⟨S500000x8x32, .f32⟩
  | .hbm, ⟨45, _⟩ => ⟨S500000x8x32, .f32⟩
  | .hbm, ⟨46, _⟩ => ⟨S_, .f32⟩
  | .hbm, ⟨47, _⟩ => ⟨S500000x8, .f32⟩
  | .hbm, ⟨48, _⟩ => ⟨S500000x8x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S500000x8x1, .f32⟩
  | .hbm, ⟨53, _⟩ => ⟨S500000x8x1, .f32⟩
  | .hbm, ⟨54, _⟩ => ⟨S_, .f32⟩
  | .hbm, ⟨55, _⟩ => ⟨S500000x8x1, .f32⟩
  | .hbm, ⟨56, _⟩ => ⟨S500000x8x1, .f32⟩
  | .hbm, ⟨57, _⟩ => ⟨S500000x8x1, .f32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x8x32, .f32⟩
  | .hbm, ⟨67, _⟩ => ⟨S500000x8x32, .f32⟩
  | .hbm, ⟨68, _⟩ => ⟨S500000x8x32, .f32⟩
  | .hbm, ⟨69, _⟩ => ⟨S_, .f32⟩
  | .hbm, ⟨70, _⟩ => ⟨S100000x8x32, .f32⟩
  | .hbm, ⟨71, _⟩ => ⟨S500000x1, .i32⟩
  | .hbm, ⟨72, _⟩ => ⟨S100000x8x32, .f32⟩
  | .hbm, ⟨73, _⟩ => ⟨S_, .f32⟩
  | .hbm, ⟨74, _⟩ => ⟨S100000x8x1, .f32⟩
  | .hbm, ⟨75, _⟩ => ⟨S500000x1, .i32⟩
  | .hbm, ⟨76, _⟩ => ⟨S100000x8x1, .f32⟩
  | .hbm, ⟨77, _⟩ => ⟨S_, .f32⟩
  | .hbm, ⟨78, _⟩ => ⟨S100000x8x1, .f32⟩
  | .hbm, ⟨79, _⟩ => ⟨S100000x8x1, .f32⟩
  | .hbm, ⟨80, _⟩ => ⟨S100000x8x32, .f32⟩
  | .hbm, ⟨81, _⟩ => ⟨S100000x8x32, .f32⟩
  | .hbm, ⟨82, _⟩ => ⟨S100000x256, .f32⟩
  | .hbm, ⟨83, _⟩ => ⟨S100000x256, .f32⟩
  | .hbm, ⟨84, _⟩ => ⟨S1x256, .f32⟩
  | .hbm, ⟨85, _⟩ => ⟨S1x256, .f32⟩
  | .hbm, ⟨86, _⟩ => ⟨S_, .f32⟩
  | .hbm, ⟨87, _⟩ => ⟨S1x256, .f32⟩
  | .hbm, ⟨88, _⟩ => ⟨S1x256, .f32⟩
  | .hbm, ⟨89, _⟩ => ⟨S_, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S1x256, .f32⟩
  | .hbm, ⟨96, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x768, .f32⟩
  | .local _ .vmem, ⟨3, _⟩ => ⟨S2000x768, .f32⟩
  | .local _ .vmem, ⟨4, _⟩ => ⟨S2000x768, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S4000x256, .f32⟩
  | .local _ .vmem, ⟨9, _⟩ => ⟨S4000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57_0 : Ref sig .tc := ⟨.hbm, 84, rfl⟩
abbrev main_v57_1 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_scratch0 : Ref sig .tc := ⟨.vmem, 14, rfl⟩
abbrev cc2_scratch1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem5_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S256x256_S256x256_S256x256_S256x768_d1 : Shape.Concatenates [S256x256, S256x256, S256x256] S256x768 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S2000x768_S2000x768_0_0 : ∀ a, (![0, 0] : Fin 2 → Nat) a + S2000x768.size a ≤ S2000x768.size a
  h_S2000x768 : 0 < S2000x768.numel
  slices_S100000x768_S100000x256_0_0 : S100000x768.Slices ![0, 0] S100000x256
  shapeCasts_S100000x256_S100000x8x32 : S100000x256.ShapeCasts S100000x8x32
  slices_S100000x768_S100000x256_0_256 : S100000x768.Slices ![0, 256] S100000x256
  slices_S100000x768_S100000x256_0_512 : S100000x768.Slices ![0, 512] S100000x256
  inb_S4000x256_S4000x256_0_0 : ∀ a, (![0, 0] : Fin 2 → Nat) a + S4000x256.size a ≤ S4000x256.size a
  h_S4000x256 : 0 < S4000x256.numel
  inb_S256x256_S256x256_0_0 : ∀ a, (![0, 0] : Fin 2 → Nat) a + S256x256.size a ≤ S256x256.size a
  h_S256x256 : 0 < S256x256.numel
  shapeCasts_S500000x256_S500000x8x32 : S500000x256.ShapeCasts S500000x8x32
  bcast_S_S500000 : S_.BroadcastsInDim S500000 (![] : Fin 0 → Fin S500000.rank)
  bcast_S500000_S500000x1_0 : S500000.BroadcastsInDim S500000x1 (![0] : Fin 1 → Fin S500000x1.rank)
  bcast_S_S500000x8x32 : S_.BroadcastsInDim S500000x8x32 (![] : Fin 0 → Fin S500000x8x32.rank)
  reducesTo_S500000x8x32_S500000x8_d2 : S500000x8x32.ReducesTo [2] S500000x8
  h_S_ : 0 < S_.numel
  bcast_S500000x8_S500000x8x1_0_1 : S500000x8.BroadcastsInDim S500000x8x1 (![0, 1] : Fin 2 → Fin S500000x8x1.rank)
  bcast_S_S500000x8x1 : S_.BroadcastsInDim S500000x8x1 (![] : Fin 0 → Fin S500000x8x1.rank)
  bcast_S500000x8x1_S500000x8x32_0_1_2 : S500000x8x1.BroadcastsInDim S500000x8x32 (![0, 1, 2] : Fin 3 → Fin S500000x8x32.rank)
  bcast_S_S100000x8x32 : S_.BroadcastsInDim S100000x8x32 (![] : Fin 0 → Fin S100000x8x32.rank)
  bcast_S_S100000x8x1 : S_.BroadcastsInDim S100000x8x1 (![] : Fin 0 → Fin S100000x8x1.rank)
  bcast_S100000x8x1_S100000x8x32_0_1_2 : S100000x8x1.BroadcastsInDim S100000x8x32 (![0, 1, 2] : Fin 3 → Fin S100000x8x32.rank)
  shapeCasts_S100000x8x32_S100000x256 : S100000x8x32.ShapeCasts S100000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S2000x256_S2000x256 : S2000x256.ShapeCasts S2000x256
  reduces_S2000x256_S256 : S2000x256.Reduces [0] S256
  shapeCasts_S256_S1x256 : S256.ShapeCasts S1x256
  bcast_S_S1x256 : S_.BroadcastsInDim S1x256 (![] : Fin 0 → Fin S1x256.rank)
  broadcasts_S1x256_S2000x256 : S1x256.Broadcasts S2000x256
  dot_S2000x256_S256x768_S2000x768_1_0_0_1_n_n_wf : DotDims.WF S2000x256 S256x768 S2000x768 [1] [0] [0] [1] [] []
  dot_S4000x256_S256x256_S4000x256_1_0_0_1_n_n_wf : DotDims.WF S4000x256 S256x256 S4000x256 [1] [0] [0] [1] [] []
  gather_S100000x8x32_S500000x1_S500000x8x32_12_0_n_n_0_1_1832_wf : GatherDims.WF S100000x8x32 S500000x1 S500000x8x32 [1, 2] [0] [] [0] [] 1 ![1, 8, 32]
  scatter_S100000x8x32_S500000x1_S500000x8x32_12_0_0_1_wf : ScatterDims.WF S100000x8x32 S500000x1 S500000x8x32 [1, 2] [0] [0] 1
  scatter_S100000x8x1_S500000x1_S500000x8x1_12_0_0_1_wf : ScatterDims.WF S100000x8x1 S500000x1 S500000x8x1 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x768.size a ≤ S100000x768.size a
  hwx0_2 : ∀ i : grid0.Coords, EltTy.bits .f32 = 32 ∨ (Rect.block (s := S100000x768) S2000x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S500000x256.size a
  hwx1_0 : ∀ i : grid1.Coords, EltTy.bits .f32 = 32 ∨ (Rect.block (s := S500000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S500000x256.size a
  hwx1_2 : ∀ i : grid1.Coords, EltTy.bits .f32 = 32 ∨ (Rect.block (s := S500000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)

variable [Facts₀]

def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S100000x8x32_S500000x1_S500000x8x32_12_0_n_n_0_1_1832 : GatherDims S100000x8x32 S500000x1 S500000x8x32 where
  offsetDims := [1, 2]
  collapsedSliceDims := [0]
  operandBatchingDims := []
  startIndicesBatchingDims := []
  startIndexMap := [0]
  indexVectorDim := 1
  sliceSizes := ![1, 8, 32]
  wf := gather_S100000x8x32_S500000x1_S500000x8x32_12_0_n_n_0_1_1832_wf
def scatter_S100000x8x32_S500000x1_S500000x8x32_12_0_0_1 : ScatterDims S100000x8x32 S500000x1 S500000x8x32 where
  updateWindowDims := [1, 2]
  insertedWindowDims := [0]
  scatterDimsToOperandDims := [0]
  indexVectorDim := 1
  wf := scatter_S100000x8x32_S500000x1_S500000x8x32_12_0_0_1_wf
def scatter_S100000x8x1_S500000x1_S500000x8x1_12_0_0_1 : ScatterDims S100000x8x1 S500000x1 S500000x8x1 where
  updateWindowDims := [1, 2]
  insertedWindowDims := [0]
  scatterDimsToOperandDims := [0]
  indexVectorDim := 1
  wf := scatter_S100000x8x1_S500000x1_S500000x8x1_12_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57_0) S1x256.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57_1) S1x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v56) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x256 : Shape := ⟨2, ![100000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S1x500000 : Shape := ⟨2, ![1, 500000]⟩
abbrev S500000 : Shape := ⟨1, ![500000]⟩
abbrev S100000x8x32 : Shape := ⟨3, ![100000, 8, 32]⟩
abbrev S500000x8x32 : Shape := ⟨3, ![500000, 8, 32]⟩
abbrev S_ : Shape := ⟨0, ![]⟩
abbrev S500000x1 : Shape := ⟨2, ![500000, 1]⟩
abbrev S500000x8 : Shape := ⟨2, ![500000, 8]⟩
abbrev S500000x8x1 : Shape := ⟨3, ![500000, 8, 1]⟩
abbrev S100000x8x1 : Shape := ⟨3, ![100000, 8, 1]⟩
abbrev S1x256 : Shape := ⟨2, ![1, 256]⟩

abbrev nBuf : Space → Nat
  | .hbm => 112
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S500000x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S2x500000, .i32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S100000x256, .f32⟩
  | .hbm, ⟨14, _⟩ => ⟨S100000x8x32, .f32⟩
  | .hbm, ⟨15, _⟩ => ⟨S100000x256, .f32⟩
  | .hbm, ⟨16, _⟩ => ⟨S100000x8x32, .f32⟩
  | .hbm, ⟨17, _⟩ => ⟨S100000x256, .f32⟩
  | .hbm, ⟨18, _⟩ => ⟨S100000x8x32, .f32⟩
  | .hbm, ⟨19, _⟩ => ⟨S500000x256, .f32⟩
  | .hbm, ⟨20, _⟩ => ⟨S500000x8x32, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x8x32, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x8x32, .f32⟩
  | .hbm, ⟨39, _⟩ => ⟨S500000x8x32, .f32⟩
  | .hbm, ⟨40, _⟩ => ⟨S_, .f32⟩
  | .hbm, ⟨41, _⟩ => ⟨S500000x8x32, .f32⟩
  | .hbm, ⟨42, _⟩ => ⟨S500000x8x32, .f32⟩
  | .hbm, ⟨43, _⟩ => ⟨S500000x8x32, .f32⟩
  | .hbm, ⟨44, _⟩ => ⟨S_, .f32⟩
  | .hbm, ⟨45, _⟩ => ⟨S500000x8, .f32⟩
  | .hbm, ⟨46, _⟩ => ⟨S500000x8x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S500000x8x1, .f32⟩
  | .hbm, ⟨51, _⟩ => ⟨S500000x8x1, .f32⟩
  | .hbm, ⟨52, _⟩ => ⟨S_, .f32⟩
  | .hbm, ⟨53, _⟩ => ⟨S500000x8x1, .f32⟩
  | .hbm, ⟨54, _⟩ => ⟨S500000x8x1, .f32⟩
  | .hbm, ⟨55, _⟩ => ⟨S500000x8x1, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x8x32, .f32⟩
  | .hbm, ⟨65, _⟩ => ⟨S500000x8x32, .f32⟩
  | .hbm, ⟨66, _⟩ => ⟨S500000x8x32, .f32⟩
  | .hbm, ⟨67, _⟩ => ⟨S_, .f32⟩
  | .hbm, ⟨68, _⟩ => ⟨S100000x8x32, .f32⟩
  | .hbm, ⟨69, _⟩ => ⟨S500000x1, .i32⟩
  | .hbm, ⟨70, _⟩ => ⟨S100000x8x32, .f32⟩
  | .hbm, ⟨71, _⟩ => ⟨S_, .f32⟩
  | .hbm, ⟨72, _⟩ => ⟨S100000x8x1, .f32⟩
  | .hbm, ⟨73, _⟩ => ⟨S500000x1, .i32⟩
  | .hbm, ⟨74, _⟩ => ⟨S100000x8x1, .f32⟩
  | .hbm, ⟨75, _⟩ => ⟨S_, .f32⟩
  | .hbm, ⟨76, _⟩ => ⟨S100000x8x1, .f32⟩
  | .hbm, ⟨77, _⟩ => ⟨S100000x8x1, .f32⟩
  | .hbm, ⟨78, _⟩ => ⟨S100000x8x32, .f32⟩
  | .hbm, ⟨79, _⟩ => ⟨S100000x8x32, .f32⟩
  | .hbm, ⟨80, _⟩ => ⟨S100000x256, .f32⟩
  | .hbm, ⟨81, _⟩ => ⟨S100000x256, .f32⟩
  | .hbm, ⟨82, _⟩ => ⟨S_, .f32⟩
  | .hbm, ⟨83, _⟩ => ⟨S256, .f32⟩
  | .hbm, ⟨84, _⟩ => ⟨S_, .f32⟩
  | .hbm, ⟨85, _⟩ => ⟨S256, .f32⟩
  | .hbm, ⟨86, _⟩ => ⟨S256, .f32⟩
  | .hbm, ⟨87, _⟩ => ⟨S1x256, .f32⟩
  | .hbm, ⟨88, _⟩ => ⟨S100000x256, .f32⟩
  | .hbm, ⟨89, _⟩ => ⟨S100000x256, .f32⟩
  | .hbm, ⟨90, _⟩ => ⟨S100000x256, .f32⟩
  | .hbm, ⟨91, _⟩ => ⟨S_, .f32⟩
  | .hbm, ⟨92, _⟩ => ⟨S256, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S1x256, .f32⟩
  | .hbm, ⟨97, _⟩ => ⟨S100000x256, .f32⟩
  | .hbm, ⟨98, _⟩ => ⟨S100000x256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256, .f32⟩
  | .hbm, ⟨103, _⟩ => ⟨S1x256, .f32⟩
  | .hbm, ⟨104, _⟩ => ⟨S100000x256, .f32⟩
  | .hbm, ⟨105, _⟩ => ⟨S100000x256, .f32⟩
  | .hbm, ⟨106, _⟩ => ⟨S1x256, .f32⟩
  | .hbm, ⟨107, _⟩ => ⟨S100000x256, .f32⟩
  | .hbm, ⟨108, _⟩ => ⟨S100000x256, .f32⟩
  | .hbm, ⟨109, _⟩ => ⟨S1x256, .f32⟩
  | .hbm, ⟨110, _⟩ => ⟨S100000x256, .f32⟩
  | .hbm, ⟨111, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S100000x256_S100000x8x32 : S100000x256.ShapeCasts S100000x8x32
  shapeCasts_S500000x256_S500000x8x32 : S500000x256.ShapeCasts S500000x8x32
  bcast_S_S500000 : S_.BroadcastsInDim S500000 (![] : Fin 0 → Fin S500000.rank)
  bcast_S500000_S500000x1_0 : S500000.BroadcastsInDim S500000x1 (![0] : Fin 1 → Fin S500000x1.rank)
  bcast_S_S500000x8x32 : S_.BroadcastsInDim S500000x8x32 (![] : Fin 0 → Fin S500000x8x32.rank)
  reducesTo_S500000x8x32_S500000x8_d2 : S500000x8x32.ReducesTo [2] S500000x8
  h_S_ : 0 < S_.numel
  bcast_S500000x8_S500000x8x1_0_1 : S500000x8.BroadcastsInDim S500000x8x1 (![0, 1] : Fin 2 → Fin S500000x8x1.rank)
  bcast_S_S500000x8x1 : S_.BroadcastsInDim S500000x8x1 (![] : Fin 0 → Fin S500000x8x1.rank)
  bcast_S500000x8x1_S500000x8x32_0_1_2 : S500000x8x1.BroadcastsInDim S500000x8x32 (![0, 1, 2] : Fin 3 → Fin S500000x8x32.rank)
  bcast_S_S100000x8x32 : S_.BroadcastsInDim S100000x8x32 (![] : Fin 0 → Fin S100000x8x32.rank)
  bcast_S_S100000x8x1 : S_.BroadcastsInDim S100000x8x1 (![] : Fin 0 → Fin S100000x8x1.rank)
  bcast_S100000x8x1_S100000x8x32_0_1_2 : S100000x8x1.BroadcastsInDim S100000x8x32 (![0, 1, 2] : Fin 3 → Fin S100000x8x32.rank)
  shapeCasts_S100000x8x32_S100000x256 : S100000x8x32.ShapeCasts S100000x256
  reducesTo_S100000x256_S256_d0 : S100000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x256_S100000x256_1_0_0_1_n_n_wf : DotDims.WF S100000x256 S256x256 S100000x256 [1] [0] [0] [1] [] []
  dot_S500000x256_S256x256_S500000x256_1_0_0_1_n_n_wf : DotDims.WF S500000x256 S256x256 S500000x256 [1] [0] [0] [1] [] []
  gather_S100000x8x32_S500000x1_S500000x8x32_12_0_n_n_0_1_1832_wf : GatherDims.WF S100000x8x32 S500000x1 S500000x8x32 [1, 2] [0] [] [0] [] 1 ![1, 8, 32]
  scatter_S100000x8x32_S500000x1_S500000x8x32_12_0_0_1_wf : ScatterDims.WF S100000x8x32 S500000x1 S500000x8x32 [1, 2] [0] [0] 1
  scatter_S100000x8x1_S500000x1_S500000x8x1_12_0_0_1_wf : ScatterDims.WF S100000x8x1 S500000x1 S500000x8x1 [1, 2] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def gather_S100000x8x32_S500000x1_S500000x8x32_12_0_n_n_0_1_1832 : GatherDims S100000x8x32 S500000x1 S500000x8x32 where
  offsetDims := [1, 2]
  collapsedSliceDims := [0]
  operandBatchingDims := []
  startIndicesBatchingDims := []
  startIndexMap := [0]
  indexVectorDim := 1
  sliceSizes := ![1, 8, 32]
  wf := gather_S100000x8x32_S500000x1_S500000x8x32_12_0_n_n_0_1_1832_wf
def scatter_S100000x8x32_S500000x1_S500000x8x32_12_0_0_1 : ScatterDims S100000x8x32 S500000x1 S500000x8x32 where
  updateWindowDims := [1, 2]
  insertedWindowDims := [0]
  scatterDimsToOperandDims := [0]
  indexVectorDim := 1
  wf := scatter_S100000x8x32_S500000x1_S500000x8x32_12_0_0_1_wf
def scatter_S100000x8x1_S500000x1_S500000x8x1_12_0_0_1 : ScatterDims S100000x8x1 S500000x1 S500000x8x1 where
  updateWindowDims := [1, 2]
  insertedWindowDims := [0]
  scatterDimsToOperandDims := [0]
  indexVectorDim := 1
  wf := scatter_S100000x8x1_S500000x1_S500000x8x1_12_0_0_1_wf

class Facts : Prop extends Facts₀ where

variable [Facts]
-- ==== Proof.KB.Region0.lean ====
import proofs.«143867_j79774722555996_1_alg».proof.Proof.Gen.Kernel.Launch
import proofs.«143867_j79774722555996_1_alg».proof.Proof.Gen.Kernel.Skeleton
import proofs.«143867_j79774722555996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the node features times the three projections side by side

Every grid point multiplies one tile of rows of the left operand by the whole right operand. The left operand's
window moves with the point, the right operand's window stays on the one block there is (it is fetched once), and
the product is stored over the whole output tile, which is written back at every point. All of it is stated at a
parameter `V`: what the core's buffers hold when the region is entered. -/

/-! ## The windows' blocks -/

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The moving tile of rows sits in its staging buffer at every point: it is fetched at each of them. Stated for any
    proof data over the entry contents whose body leaves that buffer alone. -/
theorem tileHeld0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched at the first point only, and is still in its staging buffer at every later one: its
    block index never moves, and the body leaves the buffer alone. -/
theorem weightHeld0 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev lhsAll0 : Rect S2000x256 := Rect.unit (s := S2000x256) ![0, 0] S2000x256.size inb_S2000x256_S2000x256_0_0
abbrev rhsAll0 : Rect S256x768 := Rect.unit (s := S256x768) ![0, 0] S256x768.size inb_S256x768_S256x768_0_0
abbrev prodAll0 : Rect S2000x768 := Rect.unit (s := S2000x768) ![0, 0] S2000x768.size inb_S2000x768_S2000x768_0_0

/-! ## What the body leaves in the output window's buffer -/

/-- The output tile after the body, from the two input blocks: one store, of the product, over the whole tile. -/
def prodTile0 (a : Vec F S2000x256 .f32) (b : Vec F S256x768 .f32) : Vec F S2000x768 .f32 :=
  View.canon [⟨prodAll0, k0_pay1 (View.ld a lhsAll0) (View.ld b rhsAll0)⟩]

/-- The one store covers the tile. -/
theorem prodCover0 (p : Vec F S2000x768 .f32) (y : S2000x768.Idx) :
    ∃ pc ∈ ([⟨prodAll0, p⟩] : List (View.Piece (Elt F) S2000x768 .f32)), y ∈ pc.1.set :=
  View.cover_of_tiled [⟨prodAll0, p⟩] S2000x768.size (by rfl) y

/-! ## The body's triple -/

set_option maxHeartbeats 1000000 in
/-- The body on whole staging memrefs, the inputs' at contents `a`, `b` and the output's at anything, runs to the
    continuation with the inputs as they were and the output at `prodTile0 a b`. The body also loads the output
    buffer before it stores; nothing reads what that load returns. -/
theorem matmulBody0 (c : Dev nD) (E : Set ℕ) (i : grid0.Coords)
    (arg1 : Memref sig .tc .vmem S2000x256 .f32) (harg1 : arg1.IsWhole)
    (arg2 : Memref sig .tc .vmem S256x768 .f32) (harg2 : arg2.IsWhole)
    (arg3 : Memref sig .tc .vmem S2000x768 .f32) (harg3 : arg3.IsWhole)
    (a : Vec F S2000x256 .f32) (b : Vec F S256x768 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (prodTile0 a b)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prodCover0 _)

/-! ## The pipeline's proof data -/

/-- The proof data of this pipeline on core `c`: the arrays as the region finds them; after the body at point `t` each
    input's buffer still at its block and the output's at the product of the two blocks; the invariant that of a
    pipeline whose body touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodTile0 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = prodTile0 (iblk0 V c 0 t) (iblk0 V c 1 t) := by dsimp only [dat0]

/-- The invariant is the same at every point. -/
theorem Φ_eq0 (c : Dev nD) (t : Fin (cfg0.N + 1)) : (dat0 V c).Φ t = Pipeline.ΦA spec0 c := rfl

/-- Each input's current staging buffer holds its block at every point. -/
theorem before0_0 (c : Dev nD) (t : Fin cfg0.N) (d) : (dat0 V c).before 0 t d = iblk0 V c 0 t :=
  tileHeld0 V (dat0 V c) (A_eq0 V c 0) (after0_0 V c) t d
theorem before0_1 (c : Dev nD) (t : Fin cfg0.N) (d) : (dat0 V c).before 1 t d = iblk0 V c 1 t :=
  weightHeld0 V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (matmulBody0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
import proofs.«143867_j79774722555996_1_alg».proof.Proof.Gen.Kernel.Launch
import proofs.«143867_j79774722555996_1_alg».proof.Proof.Gen.Kernel.Skeleton
import proofs.«143867_j79774722555996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the edge features times the edge projection

Every grid point multiplies one tile of rows of the left operand by the whole right operand. The left operand's
window moves with the point, the right operand's window stays on the one block there is (it is fetched once), and
the product is stored over the whole output tile, which is written back at every point. All of it is stated at a
parameter `V`: what the core's buffers hold when the region is entered. -/

/-! ## The windows' blocks -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The moving tile of rows sits in its staging buffer at every point: it is fetched at each of them. Stated for any
    proof data over the entry contents whose body leaves that buffer alone. -/
theorem tileHeld1 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand is fetched at the first point only, and is still in its staging buffer at every later one: its
    block index never moves, and the body leaves the buffer alone. -/
theorem weightHeld1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev lhsAll1 : Rect S4000x256 := Rect.unit (s := S4000x256) ![0, 0] S4000x256.size inb_S4000x256_S4000x256_0_0
abbrev rhsAll1 : Rect S256x256 := Rect.unit (s := S256x256) ![0, 0] S256x256.size inb_S256x256_S256x256_0_0
abbrev prodAll1 : Rect S4000x256 := Rect.unit (s := S4000x256) ![0, 0] S4000x256.size inb_S4000x256_S4000x256_0_0

/-! ## What the body leaves in the output window's buffer -/

/-- The output tile after the body, from the two input blocks: one store, of the product, over the whole tile. -/
def prodTile1 (a : Vec F S4000x256 .f32) (b : Vec F S256x256 .f32) : Vec F S4000x256 .f32 :=
  View.canon [⟨prodAll1, k1_pay1 (View.ld a lhsAll1) (View.ld b rhsAll1)⟩]

/-- The one store covers the tile. -/
theorem prodCover1 (p : Vec F S4000x256 .f32) (y : S4000x256.Idx) :
    ∃ pc ∈ ([⟨prodAll1, p⟩] : List (View.Piece (Elt F) S4000x256 .f32)), y ∈ pc.1.set :=
  View.cover_of_tiled [⟨prodAll1, p⟩] S4000x256.size (by rfl) y

/-! ## The body's triple -/

set_option maxHeartbeats 1000000 in
/-- The body on whole staging memrefs, the inputs' at contents `a`, `b` and the output's at anything, runs to the
    continuation with the inputs as they were and the output at `prodTile1 a b`. The body also loads the output
    buffer before it stores; nothing reads what that load returns. -/
theorem matmulBody1 (c : Dev nD) (E : Set ℕ) (i : grid1.Coords)
    (arg1 : Memref sig .tc .vmem S4000x256 .f32) (harg1 : arg1.IsWhole)
    (arg2 : Memref sig .tc .vmem S256x256 .f32) (harg2 : arg2.IsWhole)
    (arg3 : Memref sig .tc .vmem S4000x256 .f32) (harg3 : arg3.IsWhole)
    (a : Vec F S4000x256 .f32) (b : Vec F S256x256 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (prodTile1 a b)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prodCover1 _)

/-! ## The pipeline's proof data -/

/-- The proof data of this pipeline on core `c`: the arrays as the region finds them; after the body at point `t` each
    input's buffer still at its block and the output's at the product of the two blocks; the invariant that of a
    pipeline whose body touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => prodTile1 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = prodTile1 (iblk1 V c 0 t) (iblk1 V c 1 t) := by dsimp only [dat1]

/-- The invariant is the same at every point. -/
theorem Φ_eq1 (c : Dev nD) (t : Fin (cfg1.N + 1)) : (dat1 V c).Φ t = Pipeline.ΦA spec1 c := rfl

/-- Each input's current staging buffer holds its block at every point. -/
theorem before1_0 (c : Dev nD) (t : Fin cfg1.N) (d) : (dat1 V c).before 0 t d = iblk1 V c 0 t :=
  tileHeld1 V (dat1 V c) (A_eq1 V c 0) (after1_0 V c) t d
theorem before1_1 (c : Dev nD) (t : Fin cfg1.N) (d) : (dat1 V c).before 1 t d = iblk1 V c 1 t :=
  weightHeld1 V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (matmulBody1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
import proofs.«143867_j79774722555996_1_alg».proof.Proof.Gen.Kernel.Launch
import proofs.«143867_j79774722555996_1_alg».proof.Proof.Gen.Kernel.Skeleton
import proofs.«143867_j79774722555996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the column statistics of the activation matrix

The region walks the 100000 × 256 activation matrix in 50 row tiles of 2000 rows. Two single-row scratch buffers carry,
from one grid point to the next, the running column sums and the running column sums of squares: the first point zeroes
them before it adds its tile, every point adds its tile's column sums (of squares), and the last point copies the two
rows into the two output windows, which are written back there and nowhere else. -/

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its row tile at every point, for any proof data whose array is
    V's and whose body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The two running rows -/

/-- The running column sums before position n (after position n - 1): the zero row, then one tile's column sums
    added per point. Position 0 stands for the zero row the first point stores before it adds. -/
def accSum (c : Dev nD) : (n : ℕ) → n ≤ cfg2.N → Vec F S1x256 .f32
  | 0, _ => k2_pay1
  | n + 1, h => k2_pay4 (iblk2 V c 0 ⟨n, h⟩) (accSum c n (Nat.le_of_succ_le h))

/-- The running column sums of squares, likewise. -/
def accSq (c : Dev nD) : (n : ℕ) → n ≤ cfg2.N → Vec F S1x256 .f32
  | 0, _ => k2_pay2
  | n + 1, h => k2_pay5 (iblk2 V c 0 ⟨n, h⟩) (accSq c n (Nat.le_of_succ_le h))

theorem accSum_succ (c : Dev nD) (n : ℕ) (h : n + 1 ≤ cfg2.N) :
    accSum V c (n + 1) h = k2_pay4 (iblk2 V c 0 ⟨n, h⟩) (accSum V c n (Nat.le_of_succ_le h)) := rfl
theorem accSq_succ (c : Dev nD) (n : ℕ) (h : n + 1 ≤ cfg2.N) :
    accSq V c (n + 1) h = k2_pay5 (iblk2 V c 0 ⟨n, h⟩) (accSq V c n (Nat.le_of_succ_le h)) := rfl

/-! ## The invariant -/

/-- The two scratch rows as memrefs. -/
abbrev scr0 : Memref sig .tc .vmem S1x256 .f32 := Memref.whole cc2_scratch0
abbrev scr1 : Memref sig .tc .vmem S1x256 .f32 := Memref.whole cc2_scratch1

/-- The scoped buffers the region does not stage, the two running rows taken out: what gives them all back once the
    two rows return at any contents. -/
def rest2 (c : Dev nD) : sProp 𝕄 :=
  iprop(iprop((∃ d, owns (c : Thread nD τ) scr0 fullShare d) ∗ (∃ d, owns (c : Thread nD τ) scr1 fullShare d))
    -∗ Pipeline.scopedRest (Ix := Unit) (Name := ℕ) (U := UR sig nD τ) (Lvl := ℕ) (Val := Elt F) spec2 c)

/-- The invariant before position n: the two scratch rows — at anything before the first point, at the running sums
    afterwards —, the other scoped buffers, the generator register at some state. -/
def Phi2 (c : Dev nD) (n : ℕ) (h : n ≤ cfg2.N) : sProp 𝕄 :=
  iprop(∃ (x0 x1 : Vec F S1x256 .f32), ⌜n ≠ 0 → x0 = accSum V c n h ∧ x1 = accSq V c n h⌝
    ∗ owns (c : Thread nD τ) scr0 fullShare x0 ∗ owns (c : Thread nD τ) scr1 fullShare x1
    ∗ rest2 (F := F) c ∗ ∃ r, prngReg c r)

/-! ## The pipeline's proof data -/

/-- The proof data of the region on core c: the arrays as the region finds them; after the body the input's buffer at
    its tile, the two outputs' buffers at the running rows after the point (read only at the last point, where the body
    copies the rows into them); the invariant Phi2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => accSum V c (t.val + 1) t.isLt
    | ⟨2, _⟩ => accSq V c (t.val + 1) t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = accSum V c (t.val + 1) t.isLt := by dsimp only [dat2]
theorem after2_2 (c : Dev nD) (t : Fin cfg2.N) : (dat2 V c).after 2 t = accSq V c (t.val + 1) t.isLt := by dsimp only [dat2]

theorem before2_0 (c : Dev nD) (t : Fin cfg2.N) (d) : (dat2 V c).before 0 t d = iblk2 V c 0 t :=
  before2_0_of V (dat2 V c) (A_eq2 V c 0) (after2_0 V c) t d

theorem Phi2_castSucc (c : Dev nD) (t : Fin cfg2.N) :
    (dat2 V c).Φ t.castSucc = Phi2 V c t.val (Nat.le_of_lt t.isLt) := by
  dsimp only [dat2]; simp only [Fin.coe_castSucc]

theorem Phi2_succ (c : Dev nD) (t : Fin cfg2.N) :
    (dat2 V c).Φ t.succ = Phi2 V c (t.val + 1) t.isLt := rfl

/-! ## The two branches on the grid coordinate, and the schedule -/

/-- The condition of the body's first branch (zero the two rows), from the grid coordinate. -/
abbrev cond2_first (i : grid2.Coords) : Prop :=
  Scalar.cmpi .ne (Scalar.extui (Scalar.cmpi .eq (BitVec.ofNat 32 (i 0).val) 0#32)) 0#32 = 1#1
/-- The condition of its second branch (copy the two rows out). -/
abbrev cond2_last (i : grid2.Coords) : Prop := k2_cond2 i = 1#1

/-- The first branch is taken at the first point only, -/
theorem hcond2_first : ∀ t : Fin cfg2.N, cond2_first (grid2.coords t) ↔ t.val = 0 :=
  (by decide +kernel : ∀ t : Fin grid2.N, cond2_first (grid2.coords t) ↔ t.val = 0)
/-- the second at the last point only. -/
theorem hcond2_last : ∀ t : Fin cfg2.N, cond2_last (grid2.coords t) ↔ t.val = 49 :=
  (by decide +kernel : ∀ t : Fin grid2.N, cond2_last (grid2.coords t) ↔ t.val = 49)

/-- The input window is never idle; -/
theorem live2_0 : ∀ t : Fin cfg2.N, cfg2.idle 0 (grid2.coords t) = false := by decide +kernel
/-- the two output windows are idle at every point but the last, -/
theorem idle2_1 : ∀ t : Fin cfg2.N, ¬ t.val = 49 → cfg2.idle 1 (grid2.coords t) = true := by decide +kernel
theorem idle2_2 : ∀ t : Fin cfg2.N, ¬ t.val = 49 → cfg2.idle 2 (grid2.coords t) = true := by decide +kernel
/-- where they are live, -/
theorem live2_1 : ∀ t : Fin cfg2.N, t.val = 49 → cfg2.idle 1 (grid2.coords t) = false := by decide +kernel
theorem live2_2 : ∀ t : Fin cfg2.N, t.val = 49 → cfg2.idle 2 (grid2.coords t) = false := by decide +kernel
/-- and are not written back before it. -/
theorem noflush2_1 : ∀ t : Fin cfg2.N, ¬ t.val = 49 → (cfg2.win 1).flush t = false := by decide +kernel
theorem noflush2_2 : ∀ t : Fin cfg2.N, ¬ t.val = 49 → (cfg2.win 2).flush t = false := by decide +kernel

/-! ## The body's triples, one per control case -/

/-- The offsets of every access of the body: zero on both axes. -/
theorem off_zero2 : (![0, 0] : Fin 2 → ℕ) = fun _ => 0 := by funext a; fin_cases a <;> rfl

/-- A store through the whole-shape rectangle at zero offsets, made last, leaves its payload, whatever the buffer held
    and whatever was stored before. -/
theorem read_writes_unit_zero {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-- A load through that rectangle reads the contents. -/
theorem readAt_unit_zero {κ : Kind} {sp : Space} {S : Shape} {e : EltTy} (v : View sig κ sp S e)
    (f : v.ty.Contents (Elt F)) {off : Fin S.rank → Nat} (h : off = fun _ => 0) (inb : ∀ a, off a + S.size a ≤ S.size a) :
    View.readAt (Elt F) v (Rect.unit off S.size inb).toLoadRect f = v.read (Elt F) f :=
  View.ld_unit_zero h inb (v.read (Elt F) f)

/-- A covered load through it of what a store through it left reads the stored payload. -/
theorem readCov_unit_zero {κ : Kind} {sp : Space} {S : Shape} {e : EltTy} (v : View sig κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon', View.canon_cons_unit_zero h inb w L]
  exact View.ld_unit_zero h inb w

set_option maxHeartbeats 2000000 in
theorem sound_kernel2_mid (c : Dev nD) (E : Set ℕ) (i : grid2.Coords) (hc0 : ¬cond2_first i) (hc1 : ¬cond2_last i)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (a0 a1 : Vec F S1x256 .f32) (K : PUnit → sProp 𝕄) :
    iprop(owns (c : Thread nD τ) arg1 fullShare x ∗ owns (c : Thread nD τ) arg4 fullShare a0 ∗ owns (c : Thread nD τ) arg5 fullShare a1
        ∗ (iprop(owns (c : Thread nD τ) arg1 fullShare x ∗ owns (c : Thread nD τ) arg4 fullShare (k2_pay4 x a0) ∗ owns (c : Thread nD τ) arg5 fullShare (k2_pay5 x a1)) -∗ K ⟨⟩))
      ⊢ wp frame (wpE (defs₀ (F := F)) Variants.none c none) E
          (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f1, %hf1, H1⟩, ⟨%f4, %hf4, H4⟩, ⟨%f5, %hf5, H5⟩, Hk⟩
  subst hf1; subst hf4; subst hf5
  sl_exec (disch := first | exact hc0 | exact hc1)
  sl_step
  iapply Hk
  isplitl [H1]
  · iexists f1; isplitr; · ipureintro; rfl
    iexact H1
  isplitl [H4]
  · iexists _; isplitr
    swap; · iexact H4
    ipureintro
    rw [read_writes_unit_zero _ _ off_zero2, readAt_unit_zero _ _ off_zero2, readAt_unit_zero _ _ off_zero2]
  iexists _; isplitr
  swap; · iexact H5
  ipureintro
  rw [read_writes_unit_zero _ _ off_zero2, readAt_unit_zero _ _ off_zero2, readAt_unit_zero _ _ off_zero2]

set_option maxHeartbeats 2000000 in
theorem sound_kernel2_first (c : Dev nD) (E : Set ℕ) (i : grid2.Coords) (hc0 : cond2_first i) (hc1 : ¬cond2_last i)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (K : PUnit → sProp 𝕄) :
    iprop(owns (c : Thread nD τ) arg1 fullShare x ∗ (∃ d, owns (c : Thread nD τ) arg4 fullShare d) ∗ (∃ d, owns (c : Thread nD τ) arg5 fullShare d)
        ∗ (iprop(owns (c : Thread nD τ) arg1 fullShare x ∗ owns (c : Thread nD τ) arg4 fullShare (k2_pay4 x k2_pay1) ∗ owns (c : Thread nD τ) arg5 fullShare (k2_pay5 x k2_pay2)) -∗ K ⟨⟩))
      ⊢ wp frame (wpE (defs₀ (F := F)) Variants.none c none) E
          (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f1, %hf1, H1⟩, ⟨%d4, %f4, -, H4⟩, ⟨%d5, %f5, -, H5⟩, Hk⟩
  subst hf1
  sl_exec (disch := first | exact hc0 | exact hc1)
  sl_step
  iapply Hk
  sl_unfold_run_names
  isplitl [H1]
  · iexists f1; isplitr; · ipureintro; rfl
    iexact H1
  isplitl [H4]
  · iexists _; isplitr
    swap; · iexact H4
    ipureintro
    rw [read_writes_unit_zero _ _ off_zero2, readAt_unit_zero _ _ off_zero2, readCov_unit_zero _ off_zero2]
  iexists _; isplitr
  swap; · iexact H5
  ipureintro
  rw [read_writes_unit_zero _ _ off_zero2, readAt_unit_zero _ _ off_zero2, readCov_unit_zero _ off_zero2]

set_option maxHeartbeats 2000000 in
theorem sound_kernel2_last (c : Dev nD) (E : Set ℕ) (i : grid2.Coords) (hc0 : ¬cond2_first i) (hc1 : cond2_last i)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (a0 a1 : Vec F S1x256 .f32) (K : PUnit → sProp 𝕄) :
    iprop(owns (c : Thread nD τ) arg1 fullShare x ∗ (∃ d, owns (c : Thread nD τ) arg2 fullShare d) ∗ (∃ d, owns (c : Thread nD τ) arg3 fullShare d) ∗ owns (c : Thread nD τ) arg4 fullShare a0 ∗ owns (c : Thread nD τ) arg5 fullShare a1
        ∗ (iprop(owns (c : Thread nD τ) arg1 fullShare x ∗ owns (c : Thread nD τ) arg2 fullShare (k2_pay4 x a0) ∗ owns (c : Thread nD τ) arg3 fullShare (k2_pay5 x a1) ∗ owns (c : Thread nD τ) arg4 fullShare (k2_pay4 x a0) ∗ owns (c : Thread nD τ) arg5 fullShare (k2_pay5 x a1)) -∗ K ⟨⟩))
      ⊢ wp frame (wpE (defs₀ (F := F)) Variants.none c none) E
          (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc0 | exact hc1)
  sl_step
  iapply Hk
  sl_unfold_run_names
  isplitl [H1]
  · iexists f1; isplitr; · ipureintro; rfl
    iexact H1
  isplitl [H2]
  · iexists _; isplitr
    swap; · iexact H2
    ipureintro
    rw [read_writes_unit_zero _ _ off_zero2, readCov_unit_zero _ off_zero2, readAt_unit_zero _ _ off_zero2, readAt_unit_zero _ _ off_zero2]
  isplitl [H3]
  · iexists _; isplitr
    swap; · iexact H3
    ipureintro
    rw [read_writes_unit_zero _ _ off_zero2, readCov_unit_zero _ off_zero2, readAt_unit_zero _ _ off_zero2, readAt_unit_zero _ _ off_zero2]
  isplitl [H4]
  · iexists _; isplitr
    swap; · iexact H4
    ipureintro
    rw [read_writes_unit_zero _ _ off_zero2, readAt_unit_zero _ _ off_zero2, readAt_unit_zero _ _ off_zero2]
  iexists _; isplitr
  swap; · iexact H5
  ipureintro
  rw [read_writes_unit_zero _ _ off_zero2, readAt_unit_zero _ _ off_zero2, readAt_unit_zero _ _ off_zero2]

/-! ## The body obligation -/

theorem accSum_at_zero (c : Dev nD) (n : ℕ) (h : n ≤ cfg2.N) (hn : n = 0) : accSum V c n h = k2_pay1 := by subst hn; rfl
theorem accSq_at_zero (c : Dev nD) (n : ℕ) (h : n ≤ cfg2.N) (hn : n = 0) : accSq V c n h = k2_pay2 := by subst hn; rfl
theorem accSum_step (c : Dev nD) (t : Fin cfg2.N) :
    accSum V c (t.val + 1) t.isLt = k2_pay4 (iblk2 V c 0 t) (accSum V c t.val (Nat.le_of_lt t.isLt)) := rfl
theorem accSq_step (c : Dev nD) (t : Fin cfg2.N) :
    accSq V c (t.val + 1) t.isLt = k2_pay5 (iblk2 V c 0 t) (accSq V c t.val (Nat.le_of_lt t.isLt)) := rfl

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: an output window idle at a point that does not write it back is handed back as found. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4000000 in
/-- The body at any point, by the point's control case: the first point finds the two rows at anything and leaves them
    at the first tile's sums; a middle point adds its tile; the last point adds its tile and copies the rows out. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl, Phi2_succ, Phi2_castSucc]
  rw [show (dat2 V c).leavesExact 0 t = owns (c : Thread nD τ) (st2_0 t) fullShare ((dat2 V c).after 0 t) from by
    unfold Dat.leavesExact; rw [live2_0 t], after2_0]
  have hN : t.val < 50 := lt_of_lt_of_eq t.isLt (show cfg2.N = 50 from N_2)
  by_cases h49 : t.val = 49
  · have hf : ¬cond2_first (grid2.coords t) := fun h => by have := (hcond2_first t).mp h; omega
    have hl : cond2_last (grid2.coords t) := (hcond2_last t).mpr h49
    rw [show (dat2 V c).leavesExact 1 t = owns (c : Thread nD τ) (st2_1 t) fullShare ((dat2 V c).after 1 t) from by
      unfold Dat.leavesExact; rw [live2_1 t h49], after2_1]
    rw [show (dat2 V c).leavesExact 2 t = owns (c : Thread nD τ) (st2_2 t) fullShare ((dat2 V c).after 2 t) from by
      unfold Dat.leavesExact; rw [live2_2 t h49], after2_2]
    unfold Phi2
    rw [accSum_step, accSq_step]
    iintro ⟨⟨%x0, %x1, %hx, S0, S1, Hrest, Hg⟩, Ho, ⟨%d0, H0⟩, ⟨%d1, H1⟩, ⟨%d2, H2⟩⟩
    obtain ⟨rfl, rfl⟩ := hx (by omega)
    iapply (sound_kernel2_last c Set.univ (grid2.coords t) hf hl _ _ _ _ _ _ _ _ _ _ (iblk2 V c 0 t) _ _ _)
    isplitl [H0]; · iexact H0
    isplitl [H1]; · iexists _; iexact H1
    isplitl [H2]; · iexists _; iexact H2
    isplitl [S0]; · iexact S0
    isplitl [S1]; · iexact S1
    iintro ⟨H0, H1, H2, S0, S1⟩
    isplitl [S0 S1 Hrest Hg]
    · iexists _, _
      isplitr; · ipureintro; intro _; exact ⟨rfl, rfl⟩
      isplitl [S0]; · iexact S0
      isplitl [S1]; · iexact S1
      isplitl [Hrest]; · iexact Hrest
      iexact Hg
    isplitl [Ho]; · iexact Ho
    isplitl [H0]; · iexact H0
    isplitl [H1]; · iexact H1
    iexact H2
  · have hl : ¬cond2_last (grid2.coords t) := fun h => h49 ((hcond2_last t).mp h)
    rw [Dat.leavesExact_idle (dat2 V c) 1 t (idle2_1 t h49) (noflush2_1 t h49),
      Dat.leavesExact_idle (dat2 V c) 2 t (idle2_2 t h49) (noflush2_2 t h49)]
    unfold Phi2
    rw [accSum_step, accSq_step]
    by_cases h0 : t.val = 0
    · have hf : cond2_first (grid2.coords t) := (hcond2_first t).mpr h0
      rw [accSum_at_zero V c _ _ h0, accSq_at_zero V c _ _ h0]
      iintro ⟨⟨%x0, %x1, -, S0, S1, Hrest, Hg⟩, Ho, ⟨%d0, H0⟩, H1, H2⟩
      iapply (sound_kernel2_first c Set.univ (grid2.coords t) hf hl _ _ _ _ _ _ _ _ _ _ (iblk2 V c 0 t) _)
      isplitl [H0]; · iexact H0
      isplitl [S0]; · iexists _; iexact S0
      isplitl [S1]; · iexists _; iexact S1
      iintro ⟨H0, S0, S1⟩
      isplitl [S0 S1 Hrest Hg]
      · iexists _, _
        isplitr; · ipureintro; intro _; exact ⟨rfl, rfl⟩
        isplitl [S0]; · iexact S0
        isplitl [S1]; · iexact S1
        isplitl [Hrest]; · iexact Hrest
        iexact Hg
      isplitl [Ho]; · iexact Ho
      isplitl [H0]; · iexact H0
      isplitl [H1]; · iexact H1
      iexact H2
    · have hf : ¬cond2_first (grid2.coords t) := fun h => h0 ((hcond2_first t).mp h)
      iintro ⟨⟨%x0, %x1, %hx, S0, S1, Hrest, Hg⟩, Ho, ⟨%d0, H0⟩, H1, H2⟩
      obtain ⟨rfl, rfl⟩ := hx h0
      iapply (sound_kernel2_mid c Set.univ (grid2.coords t) hf hl _ _ _ _ _ _ _ _ _ _ (iblk2 V c 0 t) _ _ _)
      isplitl [H0]; · iexact H0
      isplitl [S0]; · iexact S0
      isplitl [S1]; · iexact S1
      iintro ⟨H0, S0, S1⟩
      isplitl [S0 S1 Hrest Hg]
      · iexists _, _
        isplitr; · ipureintro; intro _; exact ⟨rfl, rfl⟩
        isplitl [S0]; · iexact S0
        isplitl [S1]; · iexact S1
        isplitl [Hrest]; · iexact Hrest
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- The scoped buffers the region does not stage, the two running rows carved out of them. -/
theorem carve2 (c : Dev nD) :
    (Pipeline.scopedRest (Ix := Unit) (Name := ℕ) (U := UR sig nD τ) (Lvl := ℕ) (Val := Elt F) spec2 c : sProp 𝕄)
      ⊢ iprop((∃ d, owns (c : Thread nD τ) scr0 fullShare d) ∗ (∃ d, owns (c : Thread nD τ) scr1 fullShare d) ∗ rest2 (F := F) c) := by
  unfold rest2
  rw [scopedRest2_eq]
  simp only [scr0, scr1, owns_whole]
  iintro ⟨H0, H1, H2, H3, H4, H5, H6, H7, H8, H9, S0, S1, H12, H13, H14, H15, H16, H17, H18, H19⟩
  isplitl [S0]; · iexact S0
  isplitl [S1]; · iexact S1
  iintro ⟨S0, S1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- What the launch hands the region — the generator register, no prefetched table, the scoped buffers no window
    stages — is the invariant before the first point: the two scratch rows at whatever they hold. -/
theorem hin2 (c : Dev nD) (a : (pcfgs (F := F) 2).Adm) :
    iprop((∃ r, prngReg c r) ∗ Pipeline.prefHeld (pcfgs (F := F) 2).pre c (fun _ => fullShare) a.1
        ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 (Nat.zero_le _) from rfl]; unfold Phi2
  iintro ⟨Hp, -, Hr⟩
  ihave H := carve2 (F := F) c $$ Hr
  icases H with ⟨⟨%x0, S0⟩, ⟨%x1, S1⟩, Hrest⟩
  iexists x0, x1
  isplitr; · ipureintro; intro h; exact absurd rfl h
  isplitl [S0]; · iexact S0
  isplitl [S1]; · iexact S1
  isplitl [Hrest]; · iexact Hrest
  iexact Hp

/-- After the last point the invariant gives the register and the scoped buffers back, the two rows' contents
    forgotten; the kernel has no semaphore of its own. -/
theorem hout2 (c : Dev nD) :
    (dat2 V c).Φ (Fin.last cfg2.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Pipeline.ownSems0_none, show (dat2 V c).Φ (Fin.last cfg2.N) = Phi2 V c cfg2.N (Nat.le_refl _) from rfl]
  unfold Phi2 rest2
  iintro ⟨%x0, %x1, -, S0, S1, Hrest, Hp⟩
  isplitl [Hp]; · iexact Hp
  isplitr; · iempintro
  iapply Hrest
  isplitl [S0]; · iexists x0; iexact S0
  iexists x1; iexact S1

end Cert.Kernel.Hand
end
-- ==== Proof.KB.Region3.lean ====
import proofs.«143867_j79774722555996_1_alg».proof.Proof.Gen.Kernel.Launch
import proofs.«143867_j79774722555996_1_alg».proof.Proof.Gen.Kernel.Skeleton
import proofs.«143867_j79774722555996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalisation region (the fourth pipeline of @main), at the contents `V` it is entered with

Every point `t` of the grid of 50 reads a 2000-row tile of the activations `h` and the four statistics rows
(mean, variance, scale, shift — each a whole [1,256] array whose block never moves) and writes the tile
`(h − mean) · rsqrt(var + ε) · scale + shift` of the result. Nothing is carried from one point to the next. -/

/-- The block of window `w` at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The two rectangles the body touches: the whole tile and the whole statistics row -/

abbrev tileRect3 : Rect S2000x256 := Rect.unit (s := S2000x256) ![0, 0] S2000x256.size inb_S2000x256_S2000x256_0_0
abbrev rowRect3 : Rect S1x256 := Rect.unit (s := S1x256) ![0, 0] S1x256.size inb_S1x256_S1x256_0_0

/-- What the body leaves in the result window's buffer, as a function of the five input buffers' read contents: one
    store over the whole tile, of the normalised tile computed from the five loads. -/
def normOut3 (h : Vec F S2000x256 .f32) (mu vr ga be : Vec F S1x256 .f32) : Vec F S2000x256 .f32 :=
  View.canon [⟨tileRect3, k3_pay1 (View.ld h tileRect3) (View.ld mu rowRect3) (View.ld vr rowRect3) (View.ld ga rowRect3) (View.ld be rowRect3)⟩]

/-- The single store is over the whole tile, so every index of the buffer lies in it. -/
theorem normOut3_cover (p : Vec F S2000x256 .f32) (y : S2000x256.Idx) :
    ∃ pc ∈ ([⟨tileRect3, p⟩] : List (View.Piece (Elt F) S2000x256 .f32)), y ∈ pc.1.set :=
  View.cover_of_tiled [⟨tileRect3, p⟩] S2000x256.size (by rfl) y

/-! ## The body's triple -/

set_option maxHeartbeats 1600000 in
/-- The body on six whole staging memrefs — the five inputs holding contents that read `h`, `mu`, `vr`, `ga`, `be`, the
    result's holding anything — returns with the inputs unchanged and the result's buffer at `normOut3` of the inputs. -/
theorem kernel3_triple (c : Dev nD) (E : Set ℕ) (i : grid3.Coords)
    (a1 : Memref sig .tc .vmem S2000x256 .f32) (ha1 : a1.IsWhole) (a2 : Memref sig .tc .vmem S1x256 .f32) (ha2 : a2.IsWhole)
    (a3 : Memref sig .tc .vmem S1x256 .f32) (ha3 : a3.IsWhole) (a4 : Memref sig .tc .vmem S1x256 .f32) (ha4 : a4.IsWhole)
    (a5 : Memref sig .tc .vmem S1x256 .f32) (ha5 : a5.IsWhole) (a6 : Memref sig .tc .vmem S2000x256 .f32) (ha6 : a6.IsWhole)
    (h : Vec F S2000x256 .f32) (mu vr ga be : Vec F S1x256 .f32) (K : PUnit → sProp 𝕄) :
    iprop(owns (c : Thread nD τ) a1 fullShare h ∗ owns (c : Thread nD τ) a2 fullShare mu ∗ owns (c : Thread nD τ) a3 fullShare vr
        ∗ owns (c : Thread nD τ) a4 fullShare ga ∗ owns (c : Thread nD τ) a5 fullShare be ∗ (∃ d, owns (c : Thread nD τ) a6 fullShare d)
        ∗ (iprop(owns (c : Thread nD τ) a1 fullShare h ∗ owns (c : Thread nD τ) a2 fullShare mu ∗ owns (c : Thread nD τ) a3 fullShare vr
            ∗ owns (c : Thread nD τ) a4 fullShare ga ∗ owns (c : Thread nD τ) a5 fullShare be
            ∗ owns (c : Thread nD τ) a6 fullShare (normOut3 h mu vr ga be)) -∗ K ⟨⟩))
      ⊢ wp frame (wpE (defs₀ (F := F)) Variants.none c none) E (cc3__bn_norm_kernel i a1 ha1 a2 ha2 a3 ha3 a4 ha4 a5 ha5 a6 ha6) K := by
  simp only [cc3__bn_norm_kernel_eq_skeleton]; unfold cc3__bn_norm_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normOut3_cover _)

/-! ## The pipeline's proof data -/

/-- The proof data of the region on core `c`: the arrays as the region finds them; after the body at point `t`, each input
    buffer still at its block and the result buffer at `normOut3` of the five blocks; the invariant is the untouched rest
    (the scoped buffers of the other regions and the generator register); full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => normOut3 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = normOut3 (iblk3 V c 0 t) (iblk3 V c 1 t) (iblk3 V c 2 t) (iblk3 V c 3 t) (iblk3 V c 4 t) := by dsimp only [dat3]

/-! ## What the body finds in the input buffers

An input's current buffer holds the window's block at every point, whether the pipeline fetched it there or not: the
tile of `h` is fetched at every point; a statistics row is fetched at the first point only, and at a later point its
block index is the one it had before, so the buffer the body left in place still holds this point's block. -/

theorem holds3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem holds3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem holds3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem holds3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem holds3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation at a generic point -/

/-- What the body is called with at point `t`, the six windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it hands back. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the input buffers hold their blocks, so the kernel's triple applies; the invariant and the
    core's obligations pass through unread. -/
theorem body3_triple (c : Dev nD) (t : Fin cfg3.N) :
    pre3 V c t ⊢ wp frame (wpE (defs₀ (F := F)) Variants.none c none) Set.univ (bodyAt3 t) (fun _ => post3 V c t) := by
  unfold pre3 post3 bodyAt3
  simp only [holds3_0, holds3_1, holds3_2, holds3_3, holds3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (kernel3_triple c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact body3_triple V c t

end Cert.Kernel.Hand

end
-- ==== Proof.KB.Assembly.lean ====
import proofs.«143867_j79774722555996_1_alg».proof.Proof.KB.Region0
import proofs.«143867_j79774722555996_1_alg».proof.Proof.KB.Region1
import proofs.«143867_j79774722555996_1_alg».proof.Proof.KB.Region2
import proofs.«143867_j79774722555996_1_alg».proof.Proof.KB.Region3
import proofs.«143867_j79774722555996_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic
/-!
  The run of @main as ten segments: six stretches of host operations and the four kernel regions, each region
  entered from what the segment before it left. Between two segments the core holds every unscoped buffer whole at
  named contents `W j c`: the launch memory; after a host stretch, the stretch's operations applied; after a region,
  its windows' arrays at what the region's write-backs leave (the input arrays as entered) and every other buffer as
  entered. The final state therefore holds EVERY unscoped buffer at `W10`, the result array among them.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between segments -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- The same contents read at the TensorCore's references. -/
abbrev V1 : (c : Dev nD) → (b : Ref sig .tc) → Buf (Elt F) ((c : Thread nD τ).loc b) := fun c b => W1 m c b
/-- After region 0: its windows' arrays at what the region leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same contents read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The same contents read at the TensorCore's references. -/
abbrev V3 : (c : Dev nD) → (b : Ref sig .tc) → Buf (Elt F) ((c : Thread nD τ).loc b) := fun c b => W3 m c b
/-- After region 1: its windows' arrays at what the region leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same contents read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- After the host stretch `hostOps2_1`. -/
abbrev W6 : Dev nD → Valuation τ sig (Elt F) := fun c => StableHlo.after hostOps2_1 (W5 m c)
/-- After the host stretch `hostOps2_2`. -/
abbrev W7 : Dev nD → Valuation τ sig (Elt F) := fun c => StableHlo.after hostOps2_2 (W6 m c)
/-- The same contents read at the TensorCore's references. -/
abbrev V7 : (c : Dev nD) → (b : Ref sig .tc) → Buf (Elt F) ((c : Thread nD τ).loc b) := fun c b => W7 m c b
/-- After region 2: its windows' arrays at what the region leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same contents read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the host stretch `hostOps3`. -/
abbrev W9 : Dev nD → Valuation τ sig (Elt F) := fun c => StableHlo.after hostOps3 (W8 m c)
/-- The same contents read at the TensorCore's references. -/
abbrev V9 : (c : Dev nD) → (b : Ref sig .tc) → Buf (Elt F) ((c : Thread nD τ).loc b) := fun c b => W9 m c b
/-- After region 3: its windows' arrays at what the region leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same contents read at the TensorCore's references. -/
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents (a literal match on the pipeline's number). -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V7 m) c
  | ⟨3, _⟩ => fun c => dat3 (V9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W10`, the generator register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0: entered from every unscoped buffer at `W1`, left at `W2`. Its arrays are split out of the
    unscoped buffers at entry and put back at their final contents at exit; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the
    unscoped buffers at entry and put back at their final contents at exit; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W7`, left at `W8`. Its arrays are split out of the
    unscoped buffers at entry and put back at their final contents at exit; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (V7 m) c (adm 2)
  hout c := hout2 (V7 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W9`, left at `W10`. Its arrays are split out of the
    unscoped buffers at entry and put back at their final contents at exit; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (reg2 m),
    .host (hseg hostOps3 hostOps3_sub hostOps3_fresh (W8 m)),
    .region (reg3 m) ]

set_option backward.isDefEq.respectTransparency.types false in
/-- THE RUN. From any memory with zero counters every weakly fair execution of @main terminates, nothing faulting, and
    the final memory holds every unscoped buffer at `W10`: the launch over the ten segments, the last thread state read
    against the final state. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.KB.Kept.lean ====
import proofs.«143867_j79774722555996_1_alg».proof.Proof.KB.Assembly

/-!
  No segment of @main changes an argument array: a host stretch writes only its own results, and a region changes
  only its output windows' arrays (an argument it reads through an input window is handed back as entered). So each
  argument's buffer, followed back through the ten segments, holds at the end what the launch memory held.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := StableHlo.after_of_writes_sub hostOps3 _ hostOps3_writes (r := main_arg0) (by decide)
    _ = W7 m c (Proc.devRef .tc main_arg0) := W8_of_ne m c main_arg0 (by decide)
    _ = W6 m c (Proc.devRef .tc main_arg0) := StableHlo.after_of_writes_sub hostOps2_2 _ hostOps2_2_writes (r := main_arg0) (by decide)
    _ = W5 m c (Proc.devRef .tc main_arg0) := StableHlo.after_of_writes_sub hostOps2_1 _ hostOps2_1_writes (r := main_arg0) (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps3 _ hostOps3_writes (r := main_arg1) (by decide)
    _ = W7 m c (Proc.devRef .tc main_arg1) := W8_of_ne m c main_arg1 (by decide)
    _ = W6 m c (Proc.devRef .tc main_arg1) := StableHlo.after_of_writes_sub hostOps2_2 _ hostOps2_2_writes (r := main_arg1) (by decide)
    _ = W5 m c (Proc.devRef .tc main_arg1) := StableHlo.after_of_writes_sub hostOps2_1 _ hostOps2_1_writes (r := main_arg1) (by decide)
    _ = W4 m c (Proc.devRef .tc main_arg1) := StableHlo.after_of_writes_sub hostOps2 _ hostOps2_writes (r := main_arg1) (by decide)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps3 _ hostOps3_writes (r := main_arg2) (by decide)
    _ = W7 m c (Proc.devRef .tc main_arg2) := W8_of_ne m c main_arg2 (by decide)
    _ = W6 m c (Proc.devRef .tc main_arg2) := StableHlo.after_of_writes_sub hostOps2_2 _ hostOps2_2_writes (r := main_arg2) (by decide)
    _ = W5 m c (Proc.devRef .tc main_arg2) := StableHlo.after_of_writes_sub hostOps2_1 _ hostOps2_1_writes (r := main_arg2) (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps3 _ hostOps3_writes (r := main_arg3) (by decide)
    _ = W7 m c (Proc.devRef .tc main_arg3) := W8_of_ne m c main_arg3 (by decide)
    _ = W6 m c (Proc.devRef .tc main_arg3) := StableHlo.after_of_writes_sub hostOps2_2 _ hostOps2_2_writes (r := main_arg3) (by decide)
    _ = W5 m c (Proc.devRef .tc main_arg3) := StableHlo.after_of_writes_sub hostOps2_1 _ hostOps2_1_writes (r := main_arg3) (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps3 _ hostOps3_writes (r := main_arg4) (by decide)
    _ = W7 m c (Proc.devRef .tc main_arg4) := W8_of_ne m c main_arg4 (by decide)
    _ = W6 m c (Proc.devRef .tc main_arg4) := StableHlo.after_of_writes_sub hostOps2_2 _ hostOps2_2_writes (r := main_arg4) (by decide)
    _ = W5 m c (Proc.devRef .tc main_arg4) := StableHlo.after_of_writes_sub hostOps2_1 _ hostOps2_1_writes (r := main_arg4) (by decide)
    _ = W4 m c (Proc.devRef .tc main_arg4) := StableHlo.after_of_writes_sub hostOps2 _ hostOps2_writes (r := main_arg4) (by decide)
    _ = W3 m c (Proc.devRef .tc main_arg4) := (W4_arr m c 1).trans (((dat1 (V3 m) c).arrAt_in 1 rfl _).trans (A_eq1 (V3 m) c 1))
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps3 _ hostOps3_writes (r := main_arg5) (by decide)
    _ = W7 m c (Proc.devRef .tc main_arg5) := W8_of_ne m c main_arg5 (by decide)
    _ = W6 m c (Proc.devRef .tc main_arg5) := StableHlo.after_of_writes_sub hostOps2_2 _ hostOps2_2_writes (r := main_arg5) (by decide)
    _ = W5 m c (Proc.devRef .tc main_arg5) := StableHlo.after_of_writes_sub hostOps2_1 _ hostOps2_1_writes (r := main_arg5) (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := StableHlo.after_of_writes_sub hostOps3 _ hostOps3_writes (r := main_arg6) (by decide)
    _ = W7 m c (Proc.devRef .tc main_arg6) := W8_of_ne m c main_arg6 (by decide)
    _ = W6 m c (Proc.devRef .tc main_arg6) := StableHlo.after_of_writes_sub hostOps2_2 _ hostOps2_2_writes (r := main_arg6) (by decide)
    _ = W5 m c (Proc.devRef .tc main_arg6) := StableHlo.after_of_writes_sub hostOps2_1 _ hostOps2_1_writes (r := main_arg6) (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := StableHlo.after_of_writes_sub hostOps3 _ hostOps3_writes (r := main_arg7) (by decide)
    _ = W7 m c (Proc.devRef .tc main_arg7) := W8_of_ne m c main_arg7 (by decide)
    _ = W6 m c (Proc.devRef .tc main_arg7) := StableHlo.after_of_writes_sub hostOps2_2 _ hostOps2_2_writes (r := main_arg7) (by decide)
    _ = W5 m c (Proc.devRef .tc main_arg7) := StableHlo.after_of_writes_sub hostOps2_1 _ hostOps2_1_writes (r := main_arg7) (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := StableHlo.after_of_writes_sub hostOps3 _ hostOps3_writes (r := main_arg8) (by decide)
    _ = W7 m c (Proc.devRef .tc main_arg8) := W8_of_ne m c main_arg8 (by decide)
    _ = W6 m c (Proc.devRef .tc main_arg8) := StableHlo.after_of_writes_sub hostOps2_2 _ hostOps2_2_writes (r := main_arg8) (by decide)
    _ = W5 m c (Proc.devRef .tc main_arg8) := StableHlo.after_of_writes_sub hostOps2_1 _ hostOps2_1_writes (r := main_arg8) (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl

/-- The frame: every weakly fair execution of @main terminates, nothing faulting, and every argument array ends as
    launched. -/
theorem frame_run (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c)⟩)
    (run_all m ρ)

/-- The same run read once more: the result array ends at what `W10` holds there, and every argument array as launched. -/
theorem result_run (ρ : Dev nD → PrngReg) : θ_run defs (onTc (τ := τ) (main (F := F))) ⟨m, fun _ => 0, ρ⟩ (fun r => ∀ c : Dev nD,
      r.2.mem ((c.tc : Thread nD τ).loc main_v66) = W10 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v66 (by decide)),
     (h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c)⟩)
    (run_all m ρ)

end Cert.Kernel.Hand

end
-- ==== Proof.KI.Region0.lean ====
import proofs.«143867_j79774722555996_1_alg».proof.Proof.Gen.KernelIdeal.Launch
import proofs.«143867_j79774722555996_1_alg».proof.Proof.Gen.KernelIdeal.Skeleton
import proofs.«143867_j79774722555996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the node features times the three projections side by side

Every grid point multiplies one tile of rows of the left operand by the whole right operand. The left operand's
window moves with the point, the right operand's window stays on the one block there is (it is fetched once), and
the product is stored over the whole output tile, which is written back at every point. All of it is stated at a
parameter `V`: what the core's buffers hold when the region is entered. -/

/-! ## The windows' blocks -/

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The moving tile of rows sits in its staging buffer at every point: it is fetched at each of them. Stated for any
    proof data over the entry contents whose body leaves that buffer alone. -/
theorem tileHeld0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched at the first point only, and is still in its staging buffer at every later one: its
    block index never moves, and the body leaves the buffer alone. -/
theorem weightHeld0 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev lhsAll0 : Rect S2000x256 := Rect.unit (s := S2000x256) ![0, 0] S2000x256.size inb_S2000x256_S2000x256_0_0
abbrev rhsAll0 : Rect S256x768 := Rect.unit (s := S256x768) ![0, 0] S256x768.size inb_S256x768_S256x768_0_0
abbrev prodAll0 : Rect S2000x768 := Rect.unit (s := S2000x768) ![0, 0] S2000x768.size inb_S2000x768_S2000x768_0_0

/-! ## What the body leaves in the output window's buffer -/

/-- The output tile after the body, from the two input blocks: one store, of the product, over the whole tile. -/
def prodTile0 (a : Vec F S2000x256 .f32) (b : Vec F S256x768 .f32) : Vec F S2000x768 .f32 :=
  View.canon [⟨prodAll0, k0_pay1 (View.ld a lhsAll0) (View.ld b rhsAll0)⟩]

/-- The one store covers the tile. -/
theorem prodCover0 (p : Vec F S2000x768 .f32) (y : S2000x768.Idx) :
    ∃ pc ∈ ([⟨prodAll0, p⟩] : List (View.Piece (Elt F) S2000x768 .f32)), y ∈ pc.1.set :=
  View.cover_of_tiled [⟨prodAll0, p⟩] S2000x768.size (by rfl) y

/-! ## The body's triple -/

set_option maxHeartbeats 1000000 in
/-- The body on whole staging memrefs, the inputs' at contents `a`, `b` and the output's at anything, runs to the
    continuation with the inputs as they were and the output at `prodTile0 a b`. The body also loads the output
    buffer before it stores; nothing reads what that load returns. -/
theorem matmulBody0 (c : Dev nD) (E : Set ℕ) (i : grid0.Coords)
    (arg1 : Memref sig .tc .vmem S2000x256 .f32) (harg1 : arg1.IsWhole)
    (arg2 : Memref sig .tc .vmem S256x768 .f32) (harg2 : arg2.IsWhole)
    (arg3 : Memref sig .tc .vmem S2000x768 .f32) (harg3 : arg3.IsWhole)
    (a : Vec F S2000x256 .f32) (b : Vec F S256x768 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (prodTile0 a b)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prodCover0 _)

/-! ## The pipeline's proof data -/

/-- The proof data of this pipeline on core `c`: the arrays as the region finds them; after the body at point `t` each
    input's buffer still at its block and the output's at the product of the two blocks; the invariant that of a
    pipeline whose body touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodTile0 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = prodTile0 (iblk0 V c 0 t) (iblk0 V c 1 t) := by dsimp only [dat0]

/-- The invariant is the same at every point. -/
theorem Φ_eq0 (c : Dev nD) (t : Fin (cfg0.N + 1)) : (dat0 V c).Φ t = Pipeline.ΦA spec0 c := rfl

/-- Each input's current staging buffer holds its block at every point. -/
theorem before0_0 (c : Dev nD) (t : Fin cfg0.N) (d) : (dat0 V c).before 0 t d = iblk0 V c 0 t :=
  tileHeld0 V (dat0 V c) (A_eq0 V c 0) (after0_0 V c) t d
theorem before0_1 (c : Dev nD) (t : Fin cfg0.N) (d) : (dat0 V c).before 1 t d = iblk0 V c 1 t :=
  weightHeld0 V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (matmulBody0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«143867_j79774722555996_1_alg».proof.Proof.Gen.KernelIdeal.Launch
import proofs.«143867_j79774722555996_1_alg».proof.Proof.Gen.KernelIdeal.Skeleton
import proofs.«143867_j79774722555996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the edge features times the edge projection

Every grid point multiplies one tile of rows of the left operand by the whole right operand. The left operand's
window moves with the point, the right operand's window stays on the one block there is (it is fetched once), and
the product is stored over the whole output tile, which is written back at every point. All of it is stated at a
parameter `V`: what the core's buffers hold when the region is entered. -/

/-! ## The windows' blocks -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The moving tile of rows sits in its staging buffer at every point: it is fetched at each of them. Stated for any
    proof data over the entry contents whose body leaves that buffer alone. -/
theorem tileHeld1 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand is fetched at the first point only, and is still in its staging buffer at every later one: its
    block index never moves, and the body leaves the buffer alone. -/
theorem weightHeld1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev lhsAll1 : Rect S4000x256 := Rect.unit (s := S4000x256) ![0, 0] S4000x256.size inb_S4000x256_S4000x256_0_0
abbrev rhsAll1 : Rect S256x256 := Rect.unit (s := S256x256) ![0, 0] S256x256.size inb_S256x256_S256x256_0_0
abbrev prodAll1 : Rect S4000x256 := Rect.unit (s := S4000x256) ![0, 0] S4000x256.size inb_S4000x256_S4000x256_0_0

/-! ## What the body leaves in the output window's buffer -/

/-- The output tile after the body, from the two input blocks: one store, of the product, over the whole tile. -/
def prodTile1 (a : Vec F S4000x256 .f32) (b : Vec F S256x256 .f32) : Vec F S4000x256 .f32 :=
  View.canon [⟨prodAll1, k1_pay1 (View.ld a lhsAll1) (View.ld b rhsAll1)⟩]

/-- The one store covers the tile. -/
theorem prodCover1 (p : Vec F S4000x256 .f32) (y : S4000x256.Idx) :
    ∃ pc ∈ ([⟨prodAll1, p⟩] : List (View.Piece (Elt F) S4000x256 .f32)), y ∈ pc.1.set :=
  View.cover_of_tiled [⟨prodAll1, p⟩] S4000x256.size (by rfl) y

/-! ## The body's triple -/

set_option maxHeartbeats 1000000 in
/-- The body on whole staging memrefs, the inputs' at contents `a`, `b` and the output's at anything, runs to the
    continuation with the inputs as they were and the output at `prodTile1 a b`. The body also loads the output
    buffer before it stores; nothing reads what that load returns. -/
theorem matmulBody1 (c : Dev nD) (E : Set ℕ) (i : grid1.Coords)
    (arg1 : Memref sig .tc .vmem S4000x256 .f32) (harg1 : arg1.IsWhole)
    (arg2 : Memref sig .tc .vmem S256x256 .f32) (harg2 : arg2.IsWhole)
    (arg3 : Memref sig .tc .vmem S4000x256 .f32) (harg3 : arg3.IsWhole)
    (a : Vec F S4000x256 .f32) (b : Vec F S256x256 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (prodTile1 a b)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prodCover1 _)

/-! ## The pipeline's proof data -/

/-- The proof data of this pipeline on core `c`: the arrays as the region finds them; after the body at point `t` each
    input's buffer still at its block and the output's at the product of the two blocks; the invariant that of a
    pipeline whose body touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => prodTile1 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = prodTile1 (iblk1 V c 0 t) (iblk1 V c 1 t) := by dsimp only [dat1]

/-- The invariant is the same at every point. -/
theorem Φ_eq1 (c : Dev nD) (t : Fin (cfg1.N + 1)) : (dat1 V c).Φ t = Pipeline.ΦA spec1 c := rfl

/-- Each input's current staging buffer holds its block at every point. -/
theorem before1_0 (c : Dev nD) (t : Fin cfg1.N) (d) : (dat1 V c).before 0 t d = iblk1 V c 0 t :=
  tileHeld1 V (dat1 V c) (A_eq1 V c 0) (after1_0 V c) t d
theorem before1_1 (c : Dev nD) (t : Fin cfg1.N) (d) : (dat1 V c).before 1 t d = iblk1 V c 1 t :=
  weightHeld1 V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (matmulBody1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«143867_j79774722555996_1_alg».proof.Proof.Gen.KernelIdeal.Launch
import proofs.«143867_j79774722555996_1_alg».proof.Proof.Gen.KernelIdeal.Skeleton
import proofs.«143867_j79774722555996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the column statistics of the activation matrix

The region walks the 100000 × 256 activation matrix in 50 row tiles of 2000 rows. Two single-row scratch buffers carry,
from one grid point to the next, the running column sums and the running column sums of squares: the first point zeroes
them before it adds its tile, every point adds its tile's column sums (of squares), and the last point copies the two
rows into the two output windows, which are written back there and nowhere else. -/

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its row tile at every point, for any proof data whose array is
    V's and whose body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The two running rows -/

/-- The running column sums before position n (after position n - 1): the zero row, then one tile's column sums
    added per point. Position 0 stands for the zero row the first point stores before it adds. -/
def accSum (c : Dev nD) : (n : ℕ) → n ≤ cfg2.N → Vec F S1x256 .f32
  | 0, _ => k2_pay1
  | n + 1, h => k2_pay4 (iblk2 V c 0 ⟨n, h⟩) (accSum c n (Nat.le_of_succ_le h))

/-- The running column sums of squares, likewise. -/
def accSq (c : Dev nD) : (n : ℕ) → n ≤ cfg2.N → Vec F S1x256 .f32
  | 0, _ => k2_pay2
  | n + 1, h => k2_pay5 (iblk2 V c 0 ⟨n, h⟩) (accSq c n (Nat.le_of_succ_le h))

theorem accSum_succ (c : Dev nD) (n : ℕ) (h : n + 1 ≤ cfg2.N) :
    accSum V c (n + 1) h = k2_pay4 (iblk2 V c 0 ⟨n, h⟩) (accSum V c n (Nat.le_of_succ_le h)) := rfl
theorem accSq_succ (c : Dev nD) (n : ℕ) (h : n + 1 ≤ cfg2.N) :
    accSq V c (n + 1) h = k2_pay5 (iblk2 V c 0 ⟨n, h⟩) (accSq V c n (Nat.le_of_succ_le h)) := rfl

/-! ## The invariant -/

/-- The two scratch rows as memrefs. -/
abbrev scr0 : Memref sig .tc .vmem S1x256 .f32 := Memref.whole cc2_scratch0
abbrev scr1 : Memref sig .tc .vmem S1x256 .f32 := Memref.whole cc2_scratch1

/-- The scoped buffers the region does not stage, the two running rows taken out: what gives them all back once the
    two rows return at any contents. -/
def rest2 (c : Dev nD) : sProp 𝕄 :=
  iprop(iprop((∃ d, owns (c : Thread nD τ) scr0 fullShare d) ∗ (∃ d, owns (c : Thread nD τ) scr1 fullShare d))
    -∗ Pipeline.scopedRest (Ix := Unit) (Name := ℕ) (U := UR sig nD τ) (Lvl := ℕ) (Val := Elt F) spec2 c)

/-- The invariant before position n: the two scratch rows — at anything before the first point, at the running sums
    afterwards —, the other scoped buffers, the generator register at some state. -/
def Phi2 (c : Dev nD) (n : ℕ) (h : n ≤ cfg2.N) : sProp 𝕄 :=
  iprop(∃ (x0 x1 : Vec F S1x256 .f32), ⌜n ≠ 0 → x0 = accSum V c n h ∧ x1 = accSq V c n h⌝
    ∗ owns (c : Thread nD τ) scr0 fullShare x0 ∗ owns (c : Thread nD τ) scr1 fullShare x1
    ∗ rest2 (F := F) c ∗ ∃ r, prngReg c r)

/-! ## The pipeline's proof data -/

/-- The proof data of the region on core c: the arrays as the region finds them; after the body the input's buffer at
    its tile, the two outputs' buffers at the running rows after the point (read only at the last point, where the body
    copies the rows into them); the invariant Phi2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => accSum V c (t.val + 1) t.isLt
    | ⟨2, _⟩ => accSq V c (t.val + 1) t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = accSum V c (t.val + 1) t.isLt := by dsimp only [dat2]
theorem after2_2 (c : Dev nD) (t : Fin cfg2.N) : (dat2 V c).after 2 t = accSq V c (t.val + 1) t.isLt := by dsimp only [dat2]

theorem before2_0 (c : Dev nD) (t : Fin cfg2.N) (d) : (dat2 V c).before 0 t d = iblk2 V c 0 t :=
  before2_0_of V (dat2 V c) (A_eq2 V c 0) (after2_0 V c) t d

theorem Phi2_castSucc (c : Dev nD) (t : Fin cfg2.N) :
    (dat2 V c).Φ t.castSucc = Phi2 V c t.val (Nat.le_of_lt t.isLt) := by
  dsimp only [dat2]; simp only [Fin.coe_castSucc]

theorem Phi2_succ (c : Dev nD) (t : Fin cfg2.N) :
    (dat2 V c).Φ t.succ = Phi2 V c (t.val + 1) t.isLt := rfl

/-! ## The two branches on the grid coordinate, and the schedule -/

/-- The condition of the body's first branch (zero the two rows), from the grid coordinate. -/
abbrev cond2_first (i : grid2.Coords) : Prop :=
  Scalar.cmpi .ne (Scalar.extui (Scalar.cmpi .eq (BitVec.ofNat 32 (i 0).val) 0#32)) 0#32 = 1#1
/-- The condition of its second branch (copy the two rows out). -/
abbrev cond2_last (i : grid2.Coords) : Prop := k2_cond2 i = 1#1

/-- The first branch is taken at the first point only, -/
theorem hcond2_first : ∀ t : Fin cfg2.N, cond2_first (grid2.coords t) ↔ t.val = 0 :=
  (by decide +kernel : ∀ t : Fin grid2.N, cond2_first (grid2.coords t) ↔ t.val = 0)
/-- the second at the last point only. -/
theorem hcond2_last : ∀ t : Fin cfg2.N, cond2_last (grid2.coords t) ↔ t.val = 49 :=
  (by decide +kernel : ∀ t : Fin grid2.N, cond2_last (grid2.coords t) ↔ t.val = 49)

/-- The input window is never idle; -/
theorem live2_0 : ∀ t : Fin cfg2.N, cfg2.idle 0 (grid2.coords t) = false := by decide +kernel
/-- the two output windows are idle at every point but the last, -/
theorem idle2_1 : ∀ t : Fin cfg2.N, ¬ t.val = 49 → cfg2.idle 1 (grid2.coords t) = true := by decide +kernel
theorem idle2_2 : ∀ t : Fin cfg2.N, ¬ t.val = 49 → cfg2.idle 2 (grid2.coords t) = true := by decide +kernel
/-- where they are live, -/
theorem live2_1 : ∀ t : Fin cfg2.N, t.val = 49 → cfg2.idle 1 (grid2.coords t) = false := by decide +kernel
theorem live2_2 : ∀ t : Fin cfg2.N, t.val = 49 → cfg2.idle 2 (grid2.coords t) = false := by decide +kernel
/-- and are not written back before it. -/
theorem noflush2_1 : ∀ t : Fin cfg2.N, ¬ t.val = 49 → (cfg2.win 1).flush t = false := by decide +kernel
theorem noflush2_2 : ∀ t : Fin cfg2.N, ¬ t.val = 49 → (cfg2.win 2).flush t = false := by decide +kernel

/-! ## The body's triples, one per control case -/

/-- The offsets of every access of the body: zero on both axes. -/
theorem off_zero2 : (![0, 0] : Fin 2 → ℕ) = fun _ => 0 := by funext a; fin_cases a <;> rfl

/-- A store through the whole-shape rectangle at zero offsets, made last, leaves its payload, whatever the buffer held
    and whatever was stored before. -/
theorem read_writes_unit_zero {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-- A load through that rectangle reads the contents. -/
theorem readAt_unit_zero {κ : Kind} {sp : Space} {S : Shape} {e : EltTy} (v : View sig κ sp S e)
    (f : v.ty.Contents (Elt F)) {off : Fin S.rank → Nat} (h : off = fun _ => 0) (inb : ∀ a, off a + S.size a ≤ S.size a) :
    View.readAt (Elt F) v (Rect.unit off S.size inb).toLoadRect f = v.read (Elt F) f :=
  View.ld_unit_zero h inb (v.read (Elt F) f)

/-- A covered load through it of what a store through it left reads the stored payload. -/
theorem readCov_unit_zero {κ : Kind} {sp : Space} {S : Shape} {e : EltTy} (v : View sig κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon', View.canon_cons_unit_zero h inb w L]
  exact View.ld_unit_zero h inb w

set_option maxHeartbeats 2000000 in
theorem sound_kernel2_mid (c : Dev nD) (E : Set ℕ) (i : grid2.Coords) (hc0 : ¬cond2_first i) (hc1 : ¬cond2_last i)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (a0 a1 : Vec F S1x256 .f32) (K : PUnit → sProp 𝕄) :
    iprop(owns (c : Thread nD τ) arg1 fullShare x ∗ owns (c : Thread nD τ) arg4 fullShare a0 ∗ owns (c : Thread nD τ) arg5 fullShare a1
        ∗ (iprop(owns (c : Thread nD τ) arg1 fullShare x ∗ owns (c : Thread nD τ) arg4 fullShare (k2_pay4 x a0) ∗ owns (c : Thread nD τ) arg5 fullShare (k2_pay5 x a1)) -∗ K ⟨⟩))
      ⊢ wp frame (wpE (defs₀ (F := F)) Variants.none c none) E
          (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f1, %hf1, H1⟩, ⟨%f4, %hf4, H4⟩, ⟨%f5, %hf5, H5⟩, Hk⟩
  subst hf1; subst hf4; subst hf5
  sl_exec (disch := first | exact hc0 | exact hc1)
  sl_step
  iapply Hk
  isplitl [H1]
  · iexists f1; isplitr; · ipureintro; rfl
    iexact H1
  isplitl [H4]
  · iexists _; isplitr
    swap; · iexact H4
    ipureintro
    rw [read_writes_unit_zero _ _ off_zero2, readAt_unit_zero _ _ off_zero2, readAt_unit_zero _ _ off_zero2]
  iexists _; isplitr
  swap; · iexact H5
  ipureintro
  rw [read_writes_unit_zero _ _ off_zero2, readAt_unit_zero _ _ off_zero2, readAt_unit_zero _ _ off_zero2]

set_option maxHeartbeats 2000000 in
theorem sound_kernel2_first (c : Dev nD) (E : Set ℕ) (i : grid2.Coords) (hc0 : cond2_first i) (hc1 : ¬cond2_last i)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (K : PUnit → sProp 𝕄) :
    iprop(owns (c : Thread nD τ) arg1 fullShare x ∗ (∃ d, owns (c : Thread nD τ) arg4 fullShare d) ∗ (∃ d, owns (c : Thread nD τ) arg5 fullShare d)
        ∗ (iprop(owns (c : Thread nD τ) arg1 fullShare x ∗ owns (c : Thread nD τ) arg4 fullShare (k2_pay4 x k2_pay1) ∗ owns (c : Thread nD τ) arg5 fullShare (k2_pay5 x k2_pay2)) -∗ K ⟨⟩))
      ⊢ wp frame (wpE (defs₀ (F := F)) Variants.none c none) E
          (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f1, %hf1, H1⟩, ⟨%d4, %f4, -, H4⟩, ⟨%d5, %f5, -, H5⟩, Hk⟩
  subst hf1
  sl_exec (disch := first | exact hc0 | exact hc1)
  sl_step
  iapply Hk
  sl_unfold_run_names
  isplitl [H1]
  · iexists f1; isplitr; · ipureintro; rfl
    iexact H1
  isplitl [H4]
  · iexists _; isplitr
    swap; · iexact H4
    ipureintro
    rw [read_writes_unit_zero _ _ off_zero2, readAt_unit_zero _ _ off_zero2, readCov_unit_zero _ off_zero2]
  iexists _; isplitr
  swap; · iexact H5
  ipureintro
  rw [read_writes_unit_zero _ _ off_zero2, readAt_unit_zero _ _ off_zero2, readCov_unit_zero _ off_zero2]

set_option maxHeartbeats 2000000 in
theorem sound_kernel2_last (c : Dev nD) (E : Set ℕ) (i : grid2.Coords) (hc0 : ¬cond2_first i) (hc1 : cond2_last i)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (a0 a1 : Vec F S1x256 .f32) (K : PUnit → sProp 𝕄) :
    iprop(owns (c : Thread nD τ) arg1 fullShare x ∗ (∃ d, owns (c : Thread nD τ) arg2 fullShare d) ∗ (∃ d, owns (c : Thread nD τ) arg3 fullShare d) ∗ owns (c : Thread nD τ) arg4 fullShare a0 ∗ owns (c : Thread nD τ) arg5 fullShare a1
        ∗ (iprop(owns (c : Thread nD τ) arg1 fullShare x ∗ owns (c : Thread nD τ) arg2 fullShare (k2_pay4 x a0) ∗ owns (c : Thread nD τ) arg3 fullShare (k2_pay5 x a1) ∗ owns (c : Thread nD τ) arg4 fullShare (k2_pay4 x a0) ∗ owns (c : Thread nD τ) arg5 fullShare (k2_pay5 x a1)) -∗ K ⟨⟩))
      ⊢ wp frame (wpE (defs₀ (F := F)) Variants.none c none) E
          (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc0 | exact hc1)
  sl_step
  iapply Hk
  sl_unfold_run_names
  isplitl [H1]
  · iexists f1; isplitr; · ipureintro; rfl
    iexact H1
  isplitl [H2]
  · iexists _; isplitr
    swap; · iexact H2
    ipureintro
    rw [read_writes_unit_zero _ _ off_zero2, readCov_unit_zero _ off_zero2, readAt_unit_zero _ _ off_zero2, readAt_unit_zero _ _ off_zero2]
  isplitl [H3]
  · iexists _; isplitr
    swap; · iexact H3
    ipureintro
    rw [read_writes_unit_zero _ _ off_zero2, readCov_unit_zero _ off_zero2, readAt_unit_zero _ _ off_zero2, readAt_unit_zero _ _ off_zero2]
  isplitl [H4]
  · iexists _; isplitr
    swap; · iexact H4
    ipureintro
    rw [read_writes_unit_zero _ _ off_zero2, readAt_unit_zero _ _ off_zero2, readAt_unit_zero _ _ off_zero2]
  iexists _; isplitr
  swap; · iexact H5
  ipureintro
  rw [read_writes_unit_zero _ _ off_zero2, readAt_unit_zero _ _ off_zero2, readAt_unit_zero _ _ off_zero2]

/-! ## The body obligation -/

theorem accSum_at_zero (c : Dev nD) (n : ℕ) (h : n ≤ cfg2.N) (hn : n = 0) : accSum V c n h = k2_pay1 := by subst hn; rfl
theorem accSq_at_zero (c : Dev nD) (n : ℕ) (h : n ≤ cfg2.N) (hn : n = 0) : accSq V c n h = k2_pay2 := by subst hn; rfl
theorem accSum_step (c : Dev nD) (t : Fin cfg2.N) :
    accSum V c (t.val + 1) t.isLt = k2_pay4 (iblk2 V c 0 t) (accSum V c t.val (Nat.le_of_lt t.isLt)) := rfl
theorem accSq_step (c : Dev nD) (t : Fin cfg2.N) :
    accSq V c (t.val + 1) t.isLt = k2_pay5 (iblk2 V c 0 t) (accSq V c t.val (Nat.le_of_lt t.isLt)) := rfl

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: an output window idle at a point that does not write it back is handed back as found. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4000000 in
/-- The body at any point, by the point's control case: the first point finds the two rows at anything and leaves them
    at the first tile's sums; a middle point adds its tile; the last point adds its tile and copies the rows out. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl, Phi2_succ, Phi2_castSucc]
  rw [show (dat2 V c).leavesExact 0 t = owns (c : Thread nD τ) (st2_0 t) fullShare ((dat2 V c).after 0 t) from by
    unfold Dat.leavesExact; rw [live2_0 t], after2_0]
  have hN : t.val < 50 := lt_of_lt_of_eq t.isLt (show cfg2.N = 50 from N_2)
  by_cases h49 : t.val = 49
  · have hf : ¬cond2_first (grid2.coords t) := fun h => by have := (hcond2_first t).mp h; omega
    have hl : cond2_last (grid2.coords t) := (hcond2_last t).mpr h49
    rw [show (dat2 V c).leavesExact 1 t = owns (c : Thread nD τ) (st2_1 t) fullShare ((dat2 V c).after 1 t) from by
      unfold Dat.leavesExact; rw [live2_1 t h49], after2_1]
    rw [show (dat2 V c).leavesExact 2 t = owns (c : Thread nD τ) (st2_2 t) fullShare ((dat2 V c).after 2 t) from by
      unfold Dat.leavesExact; rw [live2_2 t h49], after2_2]
    unfold Phi2
    rw [accSum_step, accSq_step]
    iintro ⟨⟨%x0, %x1, %hx, S0, S1, Hrest, Hg⟩, Ho, ⟨%d0, H0⟩, ⟨%d1, H1⟩, ⟨%d2, H2⟩⟩
    obtain ⟨rfl, rfl⟩ := hx (by omega)
    iapply (sound_kernel2_last c Set.univ (grid2.coords t) hf hl _ _ _ _ _ _ _ _ _ _ (iblk2 V c 0 t) _ _ _)
    isplitl [H0]; · iexact H0
    isplitl [H1]; · iexists _; iexact H1
    isplitl [H2]; · iexists _; iexact H2
    isplitl [S0]; · iexact S0
    isplitl [S1]; · iexact S1
    iintro ⟨H0, H1, H2, S0, S1⟩
    isplitl [S0 S1 Hrest Hg]
    · iexists _, _
      isplitr; · ipureintro; intro _; exact ⟨rfl, rfl⟩
      isplitl [S0]; · iexact S0
      isplitl [S1]; · iexact S1
      isplitl [Hrest]; · iexact Hrest
      iexact Hg
    isplitl [Ho]; · iexact Ho
    isplitl [H0]; · iexact H0
    isplitl [H1]; · iexact H1
    iexact H2
  · have hl : ¬cond2_last (grid2.coords t) := fun h => h49 ((hcond2_last t).mp h)
    rw [Dat.leavesExact_idle (dat2 V c) 1 t (idle2_1 t h49) (noflush2_1 t h49),
      Dat.leavesExact_idle (dat2 V c) 2 t (idle2_2 t h49) (noflush2_2 t h49)]
    unfold Phi2
    rw [accSum_step, accSq_step]
    by_cases h0 : t.val = 0
    · have hf : cond2_first (grid2.coords t) := (hcond2_first t).mpr h0
      rw [accSum_at_zero V c _ _ h0, accSq_at_zero V c _ _ h0]
      iintro ⟨⟨%x0, %x1, -, S0, S1, Hrest, Hg⟩, Ho, ⟨%d0, H0⟩, H1, H2⟩
      iapply (sound_kernel2_first c Set.univ (grid2.coords t) hf hl _ _ _ _ _ _ _ _ _ _ (iblk2 V c 0 t) _)
      isplitl [H0]; · iexact H0
      isplitl [S0]; · iexists _; iexact S0
      isplitl [S1]; · iexists _; iexact S1
      iintro ⟨H0, S0, S1⟩
      isplitl [S0 S1 Hrest Hg]
      · iexists _, _
        isplitr; · ipureintro; intro _; exact ⟨rfl, rfl⟩
        isplitl [S0]; · iexact S0
        isplitl [S1]; · iexact S1
        isplitl [Hrest]; · iexact Hrest
        iexact Hg
      isplitl [Ho]; · iexact Ho
      isplitl [H0]; · iexact H0
      isplitl [H1]; · iexact H1
      iexact H2
    · have hf : ¬cond2_first (grid2.coords t) := fun h => h0 ((hcond2_first t).mp h)
      iintro ⟨⟨%x0, %x1, %hx, S0, S1, Hrest, Hg⟩, Ho, ⟨%d0, H0⟩, H1, H2⟩
      obtain ⟨rfl, rfl⟩ := hx h0
      iapply (sound_kernel2_mid c Set.univ (grid2.coords t) hf hl _ _ _ _ _ _ _ _ _ _ (iblk2 V c 0 t) _ _ _)
      isplitl [H0]; · iexact H0
      isplitl [S0]; · iexact S0
      isplitl [S1]; · iexact S1
      iintro ⟨H0, S0, S1⟩
      isplitl [S0 S1 Hrest Hg]
      · iexists _, _
        isplitr; · ipureintro; intro _; exact ⟨rfl, rfl⟩
        isplitl [S0]; · iexact S0
        isplitl [S1]; · iexact S1
        isplitl [Hrest]; · iexact Hrest
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- The scoped buffers the region does not stage, the two running rows carved out of them. -/
theorem carve2 (c : Dev nD) :
    (Pipeline.scopedRest (Ix := Unit) (Name := ℕ) (U := UR sig nD τ) (Lvl := ℕ) (Val := Elt F) spec2 c : sProp 𝕄)
      ⊢ iprop((∃ d, owns (c : Thread nD τ) scr0 fullShare d) ∗ (∃ d, owns (c : Thread nD τ) scr1 fullShare d) ∗ rest2 (F := F) c) := by
  unfold rest2
  rw [scopedRest2_eq]
  simp only [scr0, scr1, owns_whole]
  iintro ⟨H0, H1, H2, H3, H4, H5, H6, H7, H8, H9, S0, S1, H12, H13, H14, H15, H16, H17, H18, H19⟩
  isplitl [S0]; · iexact S0
  isplitl [S1]; · iexact S1
  iintro ⟨S0, S1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- What the launch hands the region — the generator register, no prefetched table, the scoped buffers no window
    stages — is the invariant before the first point: the two scratch rows at whatever they hold. -/
theorem hin2 (c : Dev nD) (a : (pcfgs (F := F) 2).Adm) :
    iprop((∃ r, prngReg c r) ∗ Pipeline.prefHeld (pcfgs (F := F) 2).pre c (fun _ => fullShare) a.1
        ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 (Nat.zero_le _) from rfl]; unfold Phi2
  iintro ⟨Hp, -, Hr⟩
  ihave H := carve2 (F := F) c $$ Hr
  icases H with ⟨⟨%x0, S0⟩, ⟨%x1, S1⟩, Hrest⟩
  iexists x0, x1
  isplitr; · ipureintro; intro h; exact absurd rfl h
  isplitl [S0]; · iexact S0
  isplitl [S1]; · iexact S1
  isplitl [Hrest]; · iexact Hrest
  iexact Hp

/-- After the last point the invariant gives the register and the scoped buffers back, the two rows' contents
    forgotten; the kernel has no semaphore of its own. -/
theorem hout2 (c : Dev nD) :
    (dat2 V c).Φ (Fin.last cfg2.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Pipeline.ownSems0_none, show (dat2 V c).Φ (Fin.last cfg2.N) = Phi2 V c cfg2.N (Nat.le_refl _) from rfl]
  unfold Phi2 rest2
  iintro ⟨%x0, %x1, -, S0, S1, Hrest, Hp⟩
  isplitl [Hp]; · iexact Hp
  isplitr; · iempintro
  iapply Hrest
  isplitl [S0]; · iexists x0; iexact S0
  iexists x1; iexact S1

end Cert.KernelIdeal.Hand
end
-- ==== Proof.KI.Region3.lean ====
import proofs.«143867_j79774722555996_1_alg».proof.Proof.Gen.KernelIdeal.Launch
import proofs.«143867_j79774722555996_1_alg».proof.Proof.Gen.KernelIdeal.Skeleton
import proofs.«143867_j79774722555996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalisation region (the fourth pipeline of @main), at the contents `V` it is entered with

Every point `t` of the grid of 50 reads a 2000-row tile of the activations `h` and the four statistics rows
(mean, variance, scale, shift — each a whole [1,256] array whose block never moves) and writes the tile
`(h − mean) · rsqrt(var + ε) · scale + shift` of the result. Nothing is carried from one point to the next. -/

/-- The block of window `w` at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The two rectangles the body touches: the whole tile and the whole statistics row -/

abbrev tileRect3 : Rect S2000x256 := Rect.unit (s := S2000x256) ![0, 0] S2000x256.size inb_S2000x256_S2000x256_0_0
abbrev rowRect3 : Rect S1x256 := Rect.unit (s := S1x256) ![0, 0] S1x256.size inb_S1x256_S1x256_0_0

/-- What the body leaves in the result window's buffer, as a function of the five input buffers' read contents: one
    store over the whole tile, of the normalised tile computed from the five loads. -/
def normOut3 (h : Vec F S2000x256 .f32) (mu vr ga be : Vec F S1x256 .f32) : Vec F S2000x256 .f32 :=
  View.canon [⟨tileRect3, k3_pay1 (View.ld h tileRect3) (View.ld mu rowRect3) (View.ld vr rowRect3) (View.ld ga rowRect3) (View.ld be rowRect3)⟩]

/-- The single store is over the whole tile, so every index of the buffer lies in it. -/
theorem normOut3_cover (p : Vec F S2000x256 .f32) (y : S2000x256.Idx) :
    ∃ pc ∈ ([⟨tileRect3, p⟩] : List (View.Piece (Elt F) S2000x256 .f32)), y ∈ pc.1.set :=
  View.cover_of_tiled [⟨tileRect3, p⟩] S2000x256.size (by rfl) y

/-! ## The body's triple -/

set_option maxHeartbeats 1600000 in
/-- The body on six whole staging memrefs — the five inputs holding contents that read `h`, `mu`, `vr`, `ga`, `be`, the
    result's holding anything — returns with the inputs unchanged and the result's buffer at `normOut3` of the inputs. -/
theorem kernel3_triple (c : Dev nD) (E : Set ℕ) (i : grid3.Coords)
    (a1 : Memref sig .tc .vmem S2000x256 .f32) (ha1 : a1.IsWhole) (a2 : Memref sig .tc .vmem S1x256 .f32) (ha2 : a2.IsWhole)
    (a3 : Memref sig .tc .vmem S1x256 .f32) (ha3 : a3.IsWhole) (a4 : Memref sig .tc .vmem S1x256 .f32) (ha4 : a4.IsWhole)
    (a5 : Memref sig .tc .vmem S1x256 .f32) (ha5 : a5.IsWhole) (a6 : Memref sig .tc .vmem S2000x256 .f32) (ha6 : a6.IsWhole)
    (h : Vec F S2000x256 .f32) (mu vr ga be : Vec F S1x256 .f32) (K : PUnit → sProp 𝕄) :
    iprop(owns (c : Thread nD τ) a1 fullShare h ∗ owns (c : Thread nD τ) a2 fullShare mu ∗ owns (c : Thread nD τ) a3 fullShare vr
        ∗ owns (c : Thread nD τ) a4 fullShare ga ∗ owns (c : Thread nD τ) a5 fullShare be ∗ (∃ d, owns (c : Thread nD τ) a6 fullShare d)
        ∗ (iprop(owns (c : Thread nD τ) a1 fullShare h ∗ owns (c : Thread nD τ) a2 fullShare mu ∗ owns (c : Thread nD τ) a3 fullShare vr
            ∗ owns (c : Thread nD τ) a4 fullShare ga ∗ owns (c : Thread nD τ) a5 fullShare be
            ∗ owns (c : Thread nD τ) a6 fullShare (normOut3 h mu vr ga be)) -∗ K ⟨⟩))
      ⊢ wp frame (wpE (defs₀ (F := F)) Variants.none c none) E (cc3__bn_norm_kernel i a1 ha1 a2 ha2 a3 ha3 a4 ha4 a5 ha5 a6 ha6) K := by
  simp only [cc3__bn_norm_kernel_eq_skeleton]; unfold cc3__bn_norm_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normOut3_cover _)

/-! ## The pipeline's proof data -/

/-- The proof data of the region on core `c`: the arrays as the region finds them; after the body at point `t`, each input
    buffer still at its block and the result buffer at `normOut3` of the five blocks; the invariant is the untouched rest
    (the scoped buffers of the other regions and the generator register); full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => normOut3 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = normOut3 (iblk3 V c 0 t) (iblk3 V c 1 t) (iblk3 V c 2 t) (iblk3 V c 3 t) (iblk3 V c 4 t) := by dsimp only [dat3]

/-! ## What the body finds in the input buffers

An input's current buffer holds the window's block at every point, whether the pipeline fetched it there or not: the
tile of `h` is fetched at every point; a statistics row is fetched at the first point only, and at a later point its
block index is the one it had before, so the buffer the body left in place still holds this point's block. -/

theorem holds3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem holds3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem holds3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem holds3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem holds3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation at a generic point -/

/-- What the body is called with at point `t`, the six windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it hands back. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the input buffers hold their blocks, so the kernel's triple applies; the invariant and the
    core's obligations pass through unread. -/
theorem body3_triple (c : Dev nD) (t : Fin cfg3.N) :
    pre3 V c t ⊢ wp frame (wpE (defs₀ (F := F)) Variants.none c none) Set.univ (bodyAt3 t) (fun _ => post3 V c t) := by
  unfold pre3 post3 bodyAt3
  simp only [holds3_0, holds3_1, holds3_2, holds3_3, holds3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (kernel3_triple c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact body3_triple V c t

end Cert.KernelIdeal.Hand

end
-- ==== Proof.KI.Assembly.lean ====
import proofs.«143867_j79774722555996_1_alg».proof.Proof.KI.Region0
import proofs.«143867_j79774722555996_1_alg».proof.Proof.KI.Region1
import proofs.«143867_j79774722555996_1_alg».proof.Proof.KI.Region2
import proofs.«143867_j79774722555996_1_alg».proof.Proof.KI.Region3
import proofs.«143867_j79774722555996_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic
/-!
  The run of @main as ten segments: six stretches of host operations and the four kernel regions, each region
  entered from what the segment before it left. Between two segments the core holds every unscoped buffer whole at
  named contents `W j c`: the launch memory; after a host stretch, the stretch's operations applied; after a region,
  its windows' arrays at what the region's write-backs leave (the input arrays as entered) and every other buffer as
  entered. The final state therefore holds EVERY unscoped buffer at `W10`, the result array among them.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between segments -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- The same contents read at the TensorCore's references. -/
abbrev V1 : (c : Dev nD) → (b : Ref sig .tc) → Buf (Elt F) ((c : Thread nD τ).loc b) := fun c b => W1 m c b
/-- After region 0: its windows' arrays at what the region leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same contents read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The same contents read at the TensorCore's references. -/
abbrev V3 : (c : Dev nD) → (b : Ref sig .tc) → Buf (Elt F) ((c : Thread nD τ).loc b) := fun c b => W3 m c b
/-- After region 1: its windows' arrays at what the region leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same contents read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- After the host stretch `hostOps2_1`. -/
abbrev W6 : Dev nD → Valuation τ sig (Elt F) := fun c => StableHlo.after hostOps2_1 (W5 m c)
/-- After the host stretch `hostOps2_2`. -/
abbrev W7 : Dev nD → Valuation τ sig (Elt F) := fun c => StableHlo.after hostOps2_2 (W6 m c)
/-- The same contents read at the TensorCore's references. -/
abbrev V7 : (c : Dev nD) → (b : Ref sig .tc) → Buf (Elt F) ((c : Thread nD τ).loc b) := fun c b => W7 m c b
/-- After region 2: its windows' arrays at what the region leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same contents read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the host stretch `hostOps3`. -/
abbrev W9 : Dev nD → Valuation τ sig (Elt F) := fun c => StableHlo.after hostOps3 (W8 m c)
/-- The same contents read at the TensorCore's references. -/
abbrev V9 : (c : Dev nD) → (b : Ref sig .tc) → Buf (Elt F) ((c : Thread nD τ).loc b) := fun c b => W9 m c b
/-- After region 3: its windows' arrays at what the region leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same contents read at the TensorCore's references. -/
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents (a literal match on the pipeline's number). -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V7 m) c
  | ⟨3, _⟩ => fun c => dat3 (V9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W10`, the generator register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0: entered from every unscoped buffer at `W1`, left at `W2`. Its arrays are split out of the
    unscoped buffers at entry and put back at their final contents at exit; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the
    unscoped buffers at entry and put back at their final contents at exit; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W7`, left at `W8`. Its arrays are split out of the
    unscoped buffers at entry and put back at their final contents at exit; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (V7 m) c (adm 2)
  hout c := hout2 (V7 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W9`, left at `W10`. Its arrays are split out of the
    unscoped buffers at entry and put back at their final contents at exit; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (reg2 m),
    .host (hseg hostOps3 hostOps3_sub hostOps3_fresh (W8 m)),
    .region (reg3 m) ]

set_option backward.isDefEq.respectTransparency.types false in
/-- THE RUN. From any memory with zero counters every weakly fair execution of @main terminates, nothing faulting, and
    the final memory holds every unscoped buffer at `W10`: the launch over the ten segments, the last thread state read
    against the final state. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KI.Kept.lean ====
import proofs.«143867_j79774722555996_1_alg».proof.Proof.KI.Assembly

/-!
  No segment of @main changes an argument array: a host stretch writes only its own results, and a region changes
  only its output windows' arrays (an argument it reads through an input window is handed back as entered). So each
  argument's buffer, followed back through the ten segments, holds at the end what the launch memory held.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := StableHlo.after_of_writes_sub hostOps3 _ hostOps3_writes (r := main_arg0) (by decide)
    _ = W7 m c (Proc.devRef .tc main_arg0) := W8_of_ne m c main_arg0 (by decide)
    _ = W6 m c (Proc.devRef .tc main_arg0) := StableHlo.after_of_writes_sub hostOps2_2 _ hostOps2_2_writes (r := main_arg0) (by decide)
    _ = W5 m c (Proc.devRef .tc main_arg0) := StableHlo.after_of_writes_sub hostOps2_1 _ hostOps2_1_writes (r := main_arg0) (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps3 _ hostOps3_writes (r := main_arg1) (by decide)
    _ = W7 m c (Proc.devRef .tc main_arg1) := W8_of_ne m c main_arg1 (by decide)
    _ = W6 m c (Proc.devRef .tc main_arg1) := StableHlo.after_of_writes_sub hostOps2_2 _ hostOps2_2_writes (r := main_arg1) (by decide)
    _ = W5 m c (Proc.devRef .tc main_arg1) := StableHlo.after_of_writes_sub hostOps2_1 _ hostOps2_1_writes (r := main_arg1) (by decide)
    _ = W4 m c (Proc.devRef .tc main_arg1) := StableHlo.after_of_writes_sub hostOps2 _ hostOps2_writes (r := main_arg1) (by decide)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps3 _ hostOps3_writes (r := main_arg2) (by decide)
    _ = W7 m c (Proc.devRef .tc main_arg2) := W8_of_ne m c main_arg2 (by decide)
    _ = W6 m c (Proc.devRef .tc main_arg2) := StableHlo.after_of_writes_sub hostOps2_2 _ hostOps2_2_writes (r := main_arg2) (by decide)
    _ = W5 m c (Proc.devRef .tc main_arg2) := StableHlo.after_of_writes_sub hostOps2_1 _ hostOps2_1_writes (r := main_arg2) (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps3 _ hostOps3_writes (r := main_arg3) (by decide)
    _ = W7 m c (Proc.devRef .tc main_arg3) := W8_of_ne m c main_arg3 (by decide)
    _ = W6 m c (Proc.devRef .tc main_arg3) := StableHlo.after_of_writes_sub hostOps2_2 _ hostOps2_2_writes (r := main_arg3) (by decide)
    _ = W5 m c (Proc.devRef .tc main_arg3) := StableHlo.after_of_writes_sub hostOps2_1 _ hostOps2_1_writes (r := main_arg3) (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps3 _ hostOps3_writes (r := main_arg4) (by decide)
    _ = W7 m c (Proc.devRef .tc main_arg4) := W8_of_ne m c main_arg4 (by decide)
    _ = W6 m c (Proc.devRef .tc main_arg4) := StableHlo.after_of_writes_sub hostOps2_2 _ hostOps2_2_writes (r := main_arg4) (by decide)
    _ = W5 m c (Proc.devRef .tc main_arg4) := StableHlo.after_of_writes_sub hostOps2_1 _ hostOps2_1_writes (r := main_arg4) (by decide)
    _ = W4 m c (Proc.devRef .tc main_arg4) := StableHlo.after_of_writes_sub hostOps2 _ hostOps2_writes (r := main_arg4) (by decide)
    _ = W3 m c (Proc.devRef .tc main_arg4) := (W4_arr m c 1).trans (((dat1 (V3 m) c).arrAt_in 1 rfl _).trans (A_eq1 (V3 m) c 1))
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps3 _ hostOps3_writes (r := main_arg5) (by decide)
    _ = W7 m c (Proc.devRef .tc main_arg5) := W8_of_ne m c main_arg5 (by decide)
    _ = W6 m c (Proc.devRef .tc main_arg5) := StableHlo.after_of_writes_sub hostOps2_2 _ hostOps2_2_writes (r := main_arg5) (by decide)
    _ = W5 m c (Proc.devRef .tc main_arg5) := StableHlo.after_of_writes_sub hostOps2_1 _ hostOps2_1_writes (r := main_arg5) (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := StableHlo.after_of_writes_sub hostOps3 _ hostOps3_writes (r := main_arg6) (by decide)
    _ = W7 m c (Proc.devRef .tc main_arg6) := W8_of_ne m c main_arg6 (by decide)
    _ = W6 m c (Proc.devRef .tc main_arg6) := StableHlo.after_of_writes_sub hostOps2_2 _ hostOps2_2_writes (r := main_arg6) (by decide)
    _ = W5 m c (Proc.devRef .tc main_arg6) := StableHlo.after_of_writes_sub hostOps2_1 _ hostOps2_1_writes (r := main_arg6) (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := StableHlo.after_of_writes_sub hostOps3 _ hostOps3_writes (r := main_arg7) (by decide)
    _ = W7 m c (Proc.devRef .tc main_arg7) := W8_of_ne m c main_arg7 (by decide)
    _ = W6 m c (Proc.devRef .tc main_arg7) := StableHlo.after_of_writes_sub hostOps2_2 _ hostOps2_2_writes (r := main_arg7) (by decide)
    _ = W5 m c (Proc.devRef .tc main_arg7) := StableHlo.after_of_writes_sub hostOps2_1 _ hostOps2_1_writes (r := main_arg7) (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := StableHlo.after_of_writes_sub hostOps3 _ hostOps3_writes (r := main_arg8) (by decide)
    _ = W7 m c (Proc.devRef .tc main_arg8) := W8_of_ne m c main_arg8 (by decide)
    _ = W6 m c (Proc.devRef .tc main_arg8) := StableHlo.after_of_writes_sub hostOps2_2 _ hostOps2_2_writes (r := main_arg8) (by decide)
    _ = W5 m c (Proc.devRef .tc main_arg8) := StableHlo.after_of_writes_sub hostOps2_1 _ hostOps2_1_writes (r := main_arg8) (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl

/-- The frame: every weakly fair execution of @main terminates, nothing faulting, and every argument array ends as
    launched. -/
theorem frame_run (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c)⟩)
    (run_all m ρ)

/-- The same run read once more: the result array ends at what `W10` holds there, and every argument array as launched. -/
theorem result_run (ρ : Dev nD → PrngReg) : θ_run defs (onTc (τ := τ) (main (F := F))) ⟨m, fun _ => 0, ρ⟩ (fun r => ∀ c : Dev nD,
      r.2.mem ((c.tc : Thread nD τ).loc main_v66) = W10 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v66 (by decide)),
     (h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c)⟩)
    (run_all m ρ)

end Cert.KernelIdeal.Hand

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.KI.Value0.lean ====
import proofs.«143867_j79774722555996_1_alg».proof.Proof.KI.Region0
import proofs.«143867_j79774722555996_1_alg».proof.Proof.LibMatmulNN
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! # Region 0 at the ideal values: the output array is the matrix product

With every float an extended real and every operation exact, narrowing the operands before the product changes nothing
and the product into a zero accumulator is the plain sum over the contracted coordinate. Each grid point writes back
the rows of its tile, the tiles partition the rows, so the whole output array ends as the product of the whole left
operand by the right operand. -/

/-- Both offsets of a whole-buffer rectangle are zero. -/
theorem zeroOff0 : (![0, 0] : Fin 2 → Nat) = fun _ => 0 := funext fun a => by fin_cases a <;> rfl

/-- The two operands as the region finds them, as arrays of extended reals. -/
abbrev lhsArr0 (c : Dev nD) : S100000x256.Idx → EReal := V c main_arg0
abbrev rhsArr0 (c : Dev nD) : S256x768.Idx → EReal := V c main_v4

/-- The product, entry by entry: what the output array ends holding. -/
def prodArr0 (c : Dev nD) : S100000x768.Idx → EReal := fun i =>
  ∑ k : Fin 256, lhsArr0 V c (ix2 (n0 := 100000) (n1 := 256) (i 0) k) * rhsArr0 V c (ix2 (n0 := 256) (n1 := 768) k (i 1))

/-- The product at row r, column q. -/
theorem prodArr0_at (c : Dev nD) (r : Fin 100000) (q : Fin 768) :
    prodArr0 V c (ix2 r q) = ∑ k : Fin 256, lhsArr0 V c (ix2 r k) * rhsArr0 V c (ix2 k q) := rfl

/-- The body's payload on a tile: row p, column q of the tile's product is the sum over the contracted coordinate.
    Narrowing an operand is the identity on extended reals, and so is recasting a vector to its own shape. -/
theorem tileEntry0 (a : Vec Ideal S2000x256 .f32) (b : Vec Ideal S256x768 .f32) (p : Fin 2000) (q : Fin 768) :
    k0_pay1 a b (ix2 p q) = ∑ k : Fin 256, a (ix2 p k) * b (ix2 k q) := by
  unfold k0_pay1
  refine (MatmulNN.matmul_zero_apply (M := 2000) (K := 256) (N := 768) none _ _ p q).trans
    (Finset.sum_congr rfl fun k _ => ?_)
  simp only [truncf_apply, shapeCast_self]

/-- The same at an index of the tile. -/
theorem tileAt0 (a : Vec Ideal S2000x256 .f32) (b : Vec Ideal S256x768 .f32) (j : S2000x768.Idx) :
    k0_pay1 a b j = ∑ k : Fin 256, a (ix2 (n0 := 2000) (n1 := 256) (j 0) k) * b (ix2 (n0 := 256) (n1 := 768) k (j 1)) :=
  (congrArg (k0_pay1 a b) (eq_ix2 j)).trans (tileEntry0 a b (j 0) (j 1))

/-- The printed index maps, decided once over the grid: the left operand's window and the output's move together down
    the rows, one tile per point; every other block index is zero. -/
theorem idxFacts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000·t …` of the array. -/
theorem lhsBlock0 (c : Dev nD) (t : Fin cfg0.N) (x : S2000x256.Idx) (i : S100000x256.Idx)
    (h0 : (i 0).val = 2000 * t.val + (x 0).val) (h1 : (i 1).val = (x 1).val) :
    (iblk0 V c 0 t : Vec Ideal S2000x256 .f32) x = (V c main_arg0 : S100000x256.Idx → EReal) i := by
  obtain ⟨e00, e01, -⟩ := idxFacts0 t
  unfold iblk0
  rw [View.read_apply]
  show V c main_arg0 _ = V c main_arg0 _
  congr 1
  funext a
  apply Fin.ext
  match a with
  | ⟨0, _⟩ => show win0_0.index t 0 * 2000 + 1 * (x 0).val = (i 0).val; rw [e00, h0]; omega
  | ⟨1, _⟩ => show win0_0.index t 1 * 256 + 1 * (x 1).val = (i 1).val; rw [e01, h1]; omega

/-- The right operand's one block is the whole array, at every point. -/
theorem rhsBlock0 (c : Dev nD) (t : Fin cfg0.N) (x : S256x768.Idx) :
    (iblk0 V c 1 t : Vec Ideal S256x768 .f32) x = (V c main_v4 : S256x768.Idx → EReal) x := by
  obtain ⟨-, -, e10, e11, -⟩ := idxFacts0 t
  unfold iblk0
  rw [View.read_apply]
  show V c main_v4 _ = V c main_v4 _
  congr 1
  funext a
  apply Fin.ext
  match a with
  | ⟨0, _⟩ => show win0_1.index t 0 * 256 + 1 * (x 0).val = (x 0).val; rw [e10]; omega
  | ⟨1, _⟩ => show win0_1.index t 1 * 768 + 1 * (x 1).val = (x 1).val; rw [e11]; omega

/-- What point `t` writes back is block `t` of the product. -/
theorem flushed0_eq (c : Dev nD) (t : Fin cfg0.N) :
    (dat0 V c).flushed 2 t = ((cfg0.win 2).blk t).view.read (Elt Ideal) (prodArr0 V c) := by
  show (cfg0.win 2).cut (grid0.coords t) ((dat0 V c).after 2 t) = _
  rw [after0_2]
  unfold prodTile0
  rw [View.canon_unit_zero zeroOff0]
  simp only [View.ld_unit_zero (S := S2000x256) zeroOff0, View.ld_unit_zero (S := S256x768) zeroOff0]
  obtain ⟨-, -, -, -, e20, e21⟩ := idxFacts0 t
  funext j
  show k0_pay1 (iblk0 V c 0 t) (iblk0 V c 1 t) j = prodArr0 V c (((cfg0.win 2).blk t).view.emb j)
  refine (tileAt0 _ _ j).trans ?_
  unfold prodArr0
  refine Finset.sum_congr rfl fun k _ => ?_
  have r0 : ((((cfg0.win 2).blk t).view.emb j) 0).val = win0_2.index t 0 * 2000 + 1 * (j 0).val := rfl
  have r1 : ((((cfg0.win 2).blk t).view.emb j) 1).val = win0_2.index t 1 * 768 + 1 * (j 1).val := rfl
  congr 1
  · refine lhsBlock0 V c t _ _ ?_ rfl
    show ((((cfg0.win 2).blk t).view.emb j) 0).val = 2000 * t.val + (j 0).val
    rw [r0, e20]; omega
  · refine (rhsBlock0 V c t _).trans ?_
    show V c main_v4 _ = V c main_v4 _
    congr 1
    funext a
    apply Fin.ext
    match a with
    | ⟨0, _⟩ => rfl
    | ⟨1, _⟩ => show (j 1).val = ((((cfg0.win 2).blk t).view.emb j) 1).val; rw [r1, e21]; omega

/-- An index of the output array is in point `t`'s block iff each coordinate is in the block's range on its axis. -/
theorem mem_blk0 (t : Fin cfg0.N) (i : S100000x768.Idx) :
    i ∈ ((cfg0.win 2).blk t).view.set ↔ ∀ a : Fin 2, win0_2.index t a * S2000x768.size a ≤ (i a).val ∧ (i a).val < win0_2.index t a * S2000x768.size a + S2000x768.size a := by
  show i ∈ ((View.whole main_v5).slice (win0_2.rect t)).set ↔ _
  rw [View.set_slice_whole, Rect.mem_set_unit]
  exact Iff.rfl

/-- Every index of the output array is written back by the point of its tile of rows. -/
theorem covered0 (i : S100000x768.Idx) :
    ∃ t : Fin cfg0.N, (cfg0.win 2).flush t = true ∧ i ∈ ((cfg0.win 2).blk t).view.set := by
  have hi0 : (i 0).val < 100000 := (i 0).isLt
  have hi1 : (i 1).val < 768 := (i 1).isLt
  have hN : cfg0.N = 50 := N_0
  refine ⟨⟨(i 0).val / 2000, by rw [hN]; omega⟩, flush0_2 _, ?_⟩
  rw [mem_blk0]
  obtain ⟨-, -, -, -, e20, e21⟩ := idxFacts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 768 ≤ (i 1).val ∧ (i 1).val < win0_2.index _ (1 : Fin 2) * 768 + 768
    rw [e21]; omega

/-- The output array after the region is the product, as one function of the entry contents. -/
theorem finalArr0 (c : Dev nD) : (dat0 V c).arrAt 2 cfg0.N = prodArr0 V c :=
  (dat0 V c).arrAt_eq_of_cover 2 (prodArr0 V c) (fun t _ => flushed0_eq V c t) (covered0)

/-- Index by index. -/
theorem final0 (c : Dev nD) (i : S100000x768.Idx) :
    (dat0 V c).arrAt 2 cfg0.N i
      = ∑ k : Fin 256, lhsArr0 V c (ix2 (n0 := 100000) (n1 := 256) (i 0) k) * rhsArr0 V c (ix2 (n0 := 256) (n1 := 768) k (i 1)) :=
  congrFun (finalArr0 V c) i

/-- The same over literal coordinates: row r, column q. -/
theorem final0_at (c : Dev nD) (r : Fin 100000) (q : Fin 768) :
    (dat0 V c).arrAt 2 cfg0.N (ix2 r q) = ∑ k : Fin 256, lhsArr0 V c (ix2 r k) * rhsArr0 V c (ix2 k q) :=
  final0 V c (ix2 r q)

end Cert.KernelIdeal.Hand

end
-- ==== Proof.KI.Value1.lean ====
import proofs.«143867_j79774722555996_1_alg».proof.Proof.KI.Region1
import proofs.«143867_j79774722555996_1_alg».proof.Proof.LibMatmulNN
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! # Region 1 at the ideal values: the output array is the matrix product

With every float an extended real and every operation exact, narrowing the operands before the product changes nothing
and the product into a zero accumulator is the plain sum over the contracted coordinate. Each grid point writes back
the rows of its tile, the tiles partition the rows, so the whole output array ends as the product of the whole left
operand by the right operand. -/

/-- Both offsets of a whole-buffer rectangle are zero. -/
theorem zeroOff1 : (![0, 0] : Fin 2 → Nat) = fun _ => 0 := funext fun a => by fin_cases a <;> rfl

/-- The two operands as the region finds them, as arrays of extended reals. -/
abbrev lhsArr1 (c : Dev nD) : S500000x256.Idx → EReal := V c main_arg1
abbrev rhsArr1 (c : Dev nD) : S256x256.Idx → EReal := V c main_arg4

/-- The product, entry by entry: what the output array ends holding. -/
def prodArr1 (c : Dev nD) : S500000x256.Idx → EReal := fun i =>
  ∑ k : Fin 256, lhsArr1 V c (ix2 (n0 := 500000) (n1 := 256) (i 0) k) * rhsArr1 V c (ix2 (n0 := 256) (n1 := 256) k (i 1))

/-- The product at row r, column q. -/
theorem prodArr1_at (c : Dev nD) (r : Fin 500000) (q : Fin 256) :
    prodArr1 V c (ix2 r q) = ∑ k : Fin 256, lhsArr1 V c (ix2 r k) * rhsArr1 V c (ix2 k q) := rfl

/-- The body's payload on a tile: row p, column q of the tile's product is the sum over the contracted coordinate.
    Narrowing an operand is the identity on extended reals, and so is recasting a vector to its own shape. -/
theorem tileEntry1 (a : Vec Ideal S4000x256 .f32) (b : Vec Ideal S256x256 .f32) (p : Fin 4000) (q : Fin 256) :
    k1_pay1 a b (ix2 p q) = ∑ k : Fin 256, a (ix2 p k) * b (ix2 k q) := by
  unfold k1_pay1
  refine (MatmulNN.matmul_zero_apply (M := 4000) (K := 256) (N := 256) none _ _ p q).trans
    (Finset.sum_congr rfl fun k _ => ?_)
  simp only [truncf_apply, shapeCast_self]

/-- The same at an index of the tile. -/
theorem tileAt1 (a : Vec Ideal S4000x256 .f32) (b : Vec Ideal S256x256 .f32) (j : S4000x256.Idx) :
    k1_pay1 a b j = ∑ k : Fin 256, a (ix2 (n0 := 4000) (n1 := 256) (j 0) k) * b (ix2 (n0 := 256) (n1 := 256) k (j 1)) :=
  (congrArg (k1_pay1 a b) (eq_ix2 j)).trans (tileEntry1 a b (j 0) (j 1))

/-- The printed index maps, decided once over the grid: the left operand's window and the output's move together down
    the rows, one tile per point; every other block index is zero. -/
theorem idxFacts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `4000·t …` of the array. -/
theorem lhsBlock1 (c : Dev nD) (t : Fin cfg1.N) (x : S4000x256.Idx) (i : S500000x256.Idx)
    (h0 : (i 0).val = 4000 * t.val + (x 0).val) (h1 : (i 1).val = (x 1).val) :
    (iblk1 V c 0 t : Vec Ideal S4000x256 .f32) x = (V c main_arg1 : S500000x256.Idx → EReal) i := by
  obtain ⟨e00, e01, -⟩ := idxFacts1 t
  unfold iblk1
  rw [View.read_apply]
  show V c main_arg1 _ = V c main_arg1 _
  congr 1
  funext a
  apply Fin.ext
  match a with
  | ⟨0, _⟩ => show win1_0.index t 0 * 4000 + 1 * (x 0).val = (i 0).val; rw [e00, h0]; omega
  | ⟨1, _⟩ => show win1_0.index t 1 * 256 + 1 * (x 1).val = (i 1).val; rw [e01, h1]; omega

/-- The right operand's one block is the whole array, at every point. -/
theorem rhsBlock1 (c : Dev nD) (t : Fin cfg1.N) (x : S256x256.Idx) :
    (iblk1 V c 1 t : Vec Ideal S256x256 .f32) x = (V c main_arg4 : S256x256.Idx → EReal) x := by
  obtain ⟨-, -, e10, e11, -⟩ := idxFacts1 t
  unfold iblk1
  rw [View.read_apply]
  show V c main_arg4 _ = V c main_arg4 _
  congr 1
  funext a
  apply Fin.ext
  match a with
  | ⟨0, _⟩ => show win1_1.index t 0 * 256 + 1 * (x 0).val = (x 0).val; rw [e10]; omega
  | ⟨1, _⟩ => show win1_1.index t 1 * 256 + 1 * (x 1).val = (x 1).val; rw [e11]; omega

/-- What point `t` writes back is block `t` of the product. -/
theorem flushed1_eq (c : Dev nD) (t : Fin cfg1.N) :
    (dat1 V c).flushed 2 t = ((cfg1.win 2).blk t).view.read (Elt Ideal) (prodArr1 V c) := by
  show (cfg1.win 2).cut (grid1.coords t) ((dat1 V c).after 2 t) = _
  rw [after1_2]
  unfold prodTile1
  rw [View.canon_unit_zero zeroOff1]
  simp only [View.ld_unit_zero (S := S4000x256) zeroOff1, View.ld_unit_zero (S := S256x256) zeroOff1]
  obtain ⟨-, -, -, -, e20, e21⟩ := idxFacts1 t
  funext j
  show k1_pay1 (iblk1 V c 0 t) (iblk1 V c 1 t) j = prodArr1 V c (((cfg1.win 2).blk t).view.emb j)
  refine (tileAt1 _ _ j).trans ?_
  unfold prodArr1
  refine Finset.sum_congr rfl fun k _ => ?_
  have r0 : ((((cfg1.win 2).blk t).view.emb j) 0).val = win1_2.index t 0 * 4000 + 1 * (j 0).val := rfl
  have r1 : ((((cfg1.win 2).blk t).view.emb j) 1).val = win1_2.index t 1 * 256 + 1 * (j 1).val := rfl
  congr 1
  · refine lhsBlock1 V c t _ _ ?_ rfl
    show ((((cfg1.win 2).blk t).view.emb j) 0).val = 4000 * t.val + (j 0).val
    rw [r0, e20]; omega
  · refine (rhsBlock1 V c t _).trans ?_
    show V c main_arg4 _ = V c main_arg4 _
    congr 1
    funext a
    apply Fin.ext
    match a with
    | ⟨0, _⟩ => rfl
    | ⟨1, _⟩ => show (j 1).val = ((((cfg1.win 2).blk t).view.emb j) 1).val; rw [r1, e21]; omega

/-- An index of the output array is in point `t`'s block iff each coordinate is in the block's range on its axis. -/
theorem mem_blk1 (t : Fin cfg1.N) (i : S500000x256.Idx) :
    i ∈ ((cfg1.win 2).blk t).view.set ↔ ∀ a : Fin 2, win1_2.index t a * S4000x256.size a ≤ (i a).val ∧ (i a).val < win1_2.index t a * S4000x256.size a + S4000x256.size a := by
  show i ∈ ((View.whole main_v12).slice (win1_2.rect t)).set ↔ _
  rw [View.set_slice_whole, Rect.mem_set_unit]
  exact Iff.rfl

/-- Every index of the output array is written back by the point of its tile of rows. -/
theorem covered1 (i : S500000x256.Idx) :
    ∃ t : Fin cfg1.N, (cfg1.win 2).flush t = true ∧ i ∈ ((cfg1.win 2).blk t).view.set := by
  have hi0 : (i 0).val < 500000 := (i 0).isLt
  have hi1 : (i 1).val < 256 := (i 1).isLt
  have hN : cfg1.N = 125 := N_1
  refine ⟨⟨(i 0).val / 4000, by rw [hN]; omega⟩, flush1_2 _, ?_⟩
  rw [mem_blk1]
  obtain ⟨-, -, -, -, e20, e21⟩ := idxFacts1 ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e20]; show (i 0).val / 4000 * 4000 ≤ (i 0).val ∧ (i 0).val < (i 0).val / 4000 * 4000 + 4000; omega
  | ⟨1, _⟩ =>
    show win1_2.index _ (1 : Fin 2) * 256 ≤ (i 1).val ∧ (i 1).val < win1_2.index _ (1 : Fin 2) * 256 + 256
    rw [e21]; omega

/-- The output array after the region is the product, as one function of the entry contents. -/
theorem finalArr1 (c : Dev nD) : (dat1 V c).arrAt 2 cfg1.N = prodArr1 V c :=
  (dat1 V c).arrAt_eq_of_cover 2 (prodArr1 V c) (fun t _ => flushed1_eq V c t) (covered1)

/-- Index by index. -/
theorem final1 (c : Dev nD) (i : S500000x256.Idx) :
    (dat1 V c).arrAt 2 cfg1.N i
      = ∑ k : Fin 256, lhsArr1 V c (ix2 (n0 := 500000) (n1 := 256) (i 0) k) * rhsArr1 V c (ix2 (n0 := 256) (n1 := 256) k (i 1)) :=
  congrFun (finalArr1 V c) i

/-- The same over literal coordinates: row r, column q. -/
theorem final1_at (c : Dev nD) (r : Fin 500000) (q : Fin 256) :
    (dat1 V c).arrAt 2 cfg1.N (ix2 r q) = ∑ k : Fin 256, lhsArr1 V c (ix2 r k) * rhsArr1 V c (ix2 k q) :=
  final1 V c (ix2 r q)

end Cert.KernelIdeal.Hand

end
-- ==== Proof.LibBnVariance.lean ====
/-
  The variance of a finite family as the mean of the squares minus the square of the mean.

  For a family h over a finite index set with n members (n not zero) and mean μ = (∑ h) / n,

      (∑ (h − μ)·(h − μ)) / n  =  (∑ h·h) / n − μ·μ,

  because ∑ (h − μ)² = ∑ h² − 2μ·∑ h + n·μ² and ∑ h = n·μ. The identity is proved on the reals, and then on the
  extended reals for a family all of whose values are real, where a quotient by the real n is the product with 1/n
  and every sum, difference and product of reals is again the real one.
-/
import Idealize.ShloMosaic.PureOps.Ideal

noncomputable section

open scoped BigOperators

namespace Cert.Bridge.BnVariance

open Idealize.ShloMosaic

variable {ι : Type*} [Fintype ι]

/-- On the reals: the mean of the squared deviations from the mean is the mean of the squares minus the squared mean.
    `n` is the number of members, as a real, and is not zero. -/
theorem variance_real (h : ι → ℝ) (n : ℝ) (hn : n ≠ 0) (hc : (Fintype.card ι : ℝ) = n) :
    (∑ i, (h i - (∑ j, h j) / n) * (h i - (∑ j, h j) / n)) / n
      = (∑ i, h i * h i) / n - ((∑ j, h j) / n) * ((∑ j, h j) / n) := by
  generalize hS : (∑ j, h j) = S
  have expand : ∀ i, (h i - S / n) * (h i - S / n) = h i * h i - 2 * (S / n) * h i + (S / n) * (S / n) :=
    fun i => by ring
  have total : ∑ i, (h i - S / n) * (h i - S / n)
      = (∑ i, h i * h i) - 2 * (S / n) * S + n * ((S / n) * (S / n)) := by
    simp only [expand, Finset.sum_add_distrib, Finset.sum_sub_distrib, ← Finset.mul_sum, hS,
      Finset.sum_const, Finset.card_univ, nsmul_eq_mul, hc]
    ring
  rw [total]
  field_simp
  ring

/-- A finite sum of real values, taken in the extended reals, is the real sum. -/
theorem coe_sum (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- On the extended reals, for a family whose values are all real and the divisor the real `n`: the same identity,
    with the quotient the ideal values' division. -/
theorem variance_ereal (h : ι → EReal) (hr : ∀ i, ∃ r : ℝ, h i = r) (n : ℝ) (hn : n ≠ 0)
    (hc : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
        - Ideal.div (∑ j, h j) (n : EReal) * Ideal.div (∑ j, h j) (n : EReal) := by
  choose g hg using hr
  obtain rfl : h = fun i => ((g i : ℝ) : EReal) := funext hg
  simp only [Ideal.div_coe hn, coe_sum, ← EReal.coe_mul, ← EReal.coe_sub]
  refine congrArg _ ?_
  have e := variance_real g n hn hc
  simp only [div_eq_mul_inv] at e
  simp only [one_div]
  exact e

end Cert.Bridge.BnVariance

end
-- ==== Proof.Spec.lean ====
/-
  What the two programs compute, as functions of the argument arrays on the extended reals.

  Sparse graph attention over 100000 nodes and 500000 edges with a residual connection, followed by a batch
  normalisation over the nodes. Four projections (`proj`, `projE`: plain matrix products) feed one stage, `chain`,
  that both programs spell with the very same operations: per edge and head a score exp(clip(⟨K[src]·Q[dst]·scale, E⟩)),
  the messages V[src]·score summed into their target node, the scores summed likewise into a normaliser, the quotient
  added to the input. The batch normalisation is written twice: `bnRef` takes the variance as the mean of the squared
  deviations from the mean, `bnKer` as the mean of the squares minus the squared mean; `bn_eq` says they are one
  function on arrays of real values.
-/
import Idealize.ShloMosaic.Lib.ValueIdx
import Idealize.ShloMosaic.Lib.IdealHost
import Idealize.ShloMosaic.Lib.Pipeline.Value
import Idealize.ShloMosaic.PureOps.Ideal.Laws
import proofs.«143867_j79774722555996_1_alg».proof.Proof.LibBnVariance

noncomputable section

open scoped BigOperators

namespace Cert.Bridge

open Idealize.ShloMosaic Idealize.ShloMosaic.ValueIdx

/-! ## Shapes -/

/-- Node features: 100000 nodes, 256 channels. -/
abbrev SNode : Shape := ⟨2, ![100000, 256]⟩
/-- Edge features: 500000 edges, 256 channels. -/
abbrev SEdge : Shape := ⟨2, ![500000, 256]⟩
/-- A weight matrix. -/
abbrev SWeight : Shape := ⟨2, ![256, 256]⟩
/-- A per-channel vector. -/
abbrev SChan : Shape := ⟨1, ![256]⟩
/-- The same as one row. -/
abbrev SChanRow : Shape := ⟨2, ![1, 256]⟩
/-- The two rows of edge endpoints. -/
abbrev SEnds : Shape := ⟨2, ![2, 500000]⟩
/-- One row of edge endpoints. -/
abbrev SEndRow : Shape := ⟨2, ![1, 500000]⟩
/-- One endpoint per edge. -/
abbrev SPerEdge : Shape := ⟨1, ![500000]⟩
/-- The same as a column of start indices. -/
abbrev SPerEdgeCol : Shape := ⟨2, ![500000, 1]⟩
/-- Node features split into 8 heads of 32 channels. -/
abbrev SNodeH : Shape := ⟨3, ![100000, 8, 32]⟩
/-- Edge features split into heads. -/
abbrev SEdgeH : Shape := ⟨3, ![500000, 8, 32]⟩
/-- One value per edge and head. -/
abbrev SEdgeHead : Shape := ⟨2, ![500000, 8]⟩
/-- The same with a unit channel axis. -/
abbrev SEdgeHead1 : Shape := ⟨3, ![500000, 8, 1]⟩
/-- One value per node and head, with a unit channel axis. -/
abbrev SNodeHead1 : Shape := ⟨3, ![100000, 8, 1]⟩
/-- A scalar. -/
abbrev SScalar : Shape := ⟨0, ![]⟩

/-! ## The shape relations the operations ask for (all decided) -/

theorem ends_row0 : SEnds.Slices ![0, 0] SEndRow := by decide
theorem ends_row1 : SEnds.Slices ![1, 0] SEndRow := by decide
theorem endRow_flat : SEndRow.ShapeCasts SPerEdge := by decide
theorem node_heads : SNode.ShapeCasts SNodeH := by decide
theorem edge_heads : SEdge.ShapeCasts SEdgeH := by decide
theorem heads_node : SNodeH.ShapeCasts SNode := by decide
theorem scalar_perEdge : SScalar.BroadcastsInDim SPerEdge (![] : Fin 0 → Fin SPerEdge.rank) := by decide
theorem perEdge_col : SPerEdge.BroadcastsInDim SPerEdgeCol (![0] : Fin 1 → Fin SPerEdgeCol.rank) := by decide
theorem scalar_edgeH : SScalar.BroadcastsInDim SEdgeH (![] : Fin 0 → Fin SEdgeH.rank) := by decide
theorem edgeH_sum : SEdgeH.ReducesTo [2] SEdgeHead := by decide
theorem scalar_pos : 0 < SScalar.numel := by decide
theorem edgeHead_unit : SEdgeHead.BroadcastsInDim SEdgeHead1 (![0, 1] : Fin 2 → Fin SEdgeHead1.rank) := by decide
theorem scalar_edgeHead1 : SScalar.BroadcastsInDim SEdgeHead1 (![] : Fin 0 → Fin SEdgeHead1.rank) := by decide
theorem edgeHead1_edgeH : SEdgeHead1.BroadcastsInDim SEdgeH (![0, 1, 2] : Fin 3 → Fin SEdgeH.rank) := by decide
theorem scalar_nodeH : SScalar.BroadcastsInDim SNodeH (![] : Fin 0 → Fin SNodeH.rank) := by decide
theorem scalar_nodeHead1 : SScalar.BroadcastsInDim SNodeHead1 (![] : Fin 0 → Fin SNodeHead1.rank) := by decide
theorem nodeHead1_nodeH : SNodeHead1.BroadcastsInDim SNodeH (![0, 1, 2] : Fin 3 → Fin SNodeH.rank) := by decide
theorem node_colSum : SNode.ReducesTo [0] SChan := by decide
theorem scalar_chan : SScalar.BroadcastsInDim SChan (![] : Fin 0 → Fin SChan.rank) := by decide
theorem chan_row : SChan.BroadcastsInDim SChanRow (![1] : Fin 1 → Fin SChanRow.rank) := by decide
theorem row_node : SChanRow.BroadcastsInDim SNode (![0, 1] : Fin 2 → Fin SNode.rank) := by decide
theorem rows_wf : GatherDims.WF SNodeH SPerEdgeCol SEdgeH [1, 2] [0] [] [0] [] 1 ![1, 8, 32] := by decide
theorem addRows_wf : ScatterDims.WF SNodeH SPerEdgeCol SEdgeH [1, 2] [0] [0] 1 := by decide
theorem addHeads_wf : ScatterDims.WF SNodeHead1 SPerEdgeCol SEdgeHead1 [1, 2] [0] [0] 1 := by decide

/-- Taking whole rows (8 heads × 32 channels) of a node array at a column of start indices. -/
def rowsDims : GatherDims SNodeH SPerEdgeCol SEdgeH where
  offsetDims := [1, 2]
  collapsedSliceDims := [0]
  operandBatchingDims := []
  startIndicesBatchingDims := []
  startIndexMap := [0]
  indexVectorDim := 1
  sliceSizes := ![1, 8, 32]
  wf := rows_wf

/-- Adding whole rows into a node array at a column of start indices. -/
def addRowsDims : ScatterDims SNodeH SPerEdgeCol SEdgeH where
  updateWindowDims := [1, 2]
  insertedWindowDims := [0]
  scatterDimsToOperandDims := [0]
  indexVectorDim := 1
  wf := addRows_wf

/-- Adding one value per head into a node array at a column of start indices. -/
def addHeadsDims : ScatterDims SNodeHead1 SPerEdgeCol SEdgeHead1 where
  updateWindowDims := [1, 2]
  insertedWindowDims := [0]
  scatterDimsToOperandDims := [0]
  indexVectorDim := 1
  wf := addHeads_wf

/-! ## The projections -/

/-- Node features times a weight matrix: entry (n, c) is ∑ k, x (n, k) · w (k, c). -/
def proj (x : FVec Ideal SNode .f32) (w : FVec Ideal SWeight .f32) : FVec Ideal SNode .f32 :=
  fun i => ∑ k : Fin 256, x (ix2 (i 0) k) * w (ix2 k (i 1))

/-- Edge features times a weight matrix: entry (e, c) is ∑ k, a (e, k) · w (k, c). -/
def projE (a : FVec Ideal SEdge .f32) (w : FVec Ideal SWeight .f32) : FVec Ideal SEdge .f32 :=
  fun i => ∑ k : Fin 256, a (ix2 (i 0) k) * w (ix2 k (i 1))

/-! ## The stage the two programs share -/

/-- The source node of every edge: row 0 of the endpoint array. -/
def srcOf (ei : IVec SEnds 32) : IVec SPerEdge 32 :=
  shapeCast SPerEdge (extractStridedSlice SEndRow ![0, 0] ei ends_row0) endRow_flat

/-- The target node of every edge: row 1 of the endpoint array. -/
def dstOf (ei : IVec SEnds 32) : IVec SPerEdge 32 :=
  shapeCast SPerEdge (extractStridedSlice SEndRow ![1, 0] ei ends_row1) endRow_flat

/-- Node numbers as a column of start indices, a negative number counted from the end (+100000). -/
def wrapNode (v : IVec SPerEdge 32) : IVec SPerEdgeCol 32 :=
  broadcastInDim SPerEdgeCol ![0] perEdge_col
    (select (cmpi .slt v (broadcastInDim SPerEdge ![] scalar_perEdge (constantI SScalar 32 0#32)))
      (addi v (broadcastInDim SPerEdge ![] scalar_perEdge (constantI SScalar 32 100000#32))) v)

/-- A node array split into heads. -/
def heads (M : FVec Ideal SNode .f32) : FVec Ideal SNodeH .f32 := shapeCast SNodeH M node_heads

/-- An edge array split into heads. -/
def headsE (M : FVec Ideal SEdge .f32) : FVec Ideal SEdgeH .f32 := shapeCast SEdgeH M edge_heads

/-- The rows of a node array at the given node of every edge. -/
def rowsAt (M : FVec Ideal SNode .f32) (v : IVec SPerEdge 32) : FVec Ideal SEdgeH .f32 :=
  Host.gather rowsDims (heads M) (wrapNode v)

/-- Per edge and head, the scaled sum over the head's channels of K[src] · Q[dst] · E. -/
def logit (Qm Km : FVec Ideal SNode .f32) (Ehm : FVec Ideal SEdge .f32) (ei : IVec SEnds 32) : FVec Ideal SEdgeHead .f32 :=
  Host.reduceAdd
    (mulf (mulf (mulf (rowsAt Km (srcOf ei)) (rowsAt Qm (dstOf ei)))
      (broadcastInDim SEdgeH ![] scalar_edgeH (constant (F := Ideal) SScalar .f32 0x3E3504F3#32))) (headsE Ehm))
    (constant (F := Ideal) SScalar .f32 0x00000000#32) edgeH_sum scalar_pos

/-- Per edge and head, exp of the logit clipped to [−5, 5]. -/
def score (Qm Km : FVec Ideal SNode .f32) (Ehm : FVec Ideal SEdge .f32) (ei : IVec SEnds 32) : FVec Ideal SEdgeHead1 .f32 :=
  Host.exp
    (minimumf (broadcastInDim SEdgeHead1 ![] scalar_edgeHead1 (id (constant (F := Ideal) SScalar .f32 0x40A00000#32)))
      (maximumf (broadcastInDim SEdgeHead1 ![] scalar_edgeHead1 (id (constant (F := Ideal) SScalar .f32 0xC0A00000#32)))
        (broadcastInDim SEdgeHead1 ![0, 1] edgeHead_unit (logit Qm Km Ehm ei))))

/-- The target nodes as a column of start indices, as the two accumulations take them (not wrapped). -/
def dstCol (ei : IVec SEnds 32) : IVec SPerEdgeCol 32 := broadcastInDim SPerEdgeCol ![0] perEdge_col (dstOf ei)

/-- Per node, head and channel: the sum over the edges into the node of V[src] · score. -/
def gathered (Qm Km Vm : FVec Ideal SNode .f32) (Ehm : FVec Ideal SEdge .f32) (ei : IVec SEnds 32) : FVec Ideal SNodeH .f32 :=
  Host.scatterAdd addRowsDims
    (broadcastInDim SNodeH ![] scalar_nodeH (constant (F := Ideal) SScalar .f32 0x00000000#32))
    (dstCol ei)
    (mulf (rowsAt Vm (srcOf ei)) (broadcastInDim SEdgeH ![0, 1, 2] edgeHead1_edgeH (score Qm Km Ehm ei)))

/-- Per node and head: the sum over the edges into the node of the scores. -/
def normaliser (Qm Km : FVec Ideal SNode .f32) (Ehm : FVec Ideal SEdge .f32) (ei : IVec SEnds 32) : FVec Ideal SNodeHead1 .f32 :=
  Host.scatterAdd addHeadsDims
    (broadcastInDim SNodeHead1 ![] scalar_nodeHead1 (constant (F := Ideal) SScalar .f32 0x00000000#32))
    (dstCol ei)
    (score Qm Km Ehm ei)

/-- The shared stage: the input plus, per node, the gathered messages over (the normaliser plus a small constant). -/
def chain (x Qm Km Vm : FVec Ideal SNode .f32) (Ehm : FVec Ideal SEdge .f32) (ei : IVec SEnds 32) : FVec Ideal SNode .f32 :=
  addf x
    (shapeCast SNode
      (Host.divf (gathered Qm Km Vm Ehm ei)
        (broadcastInDim SNodeH ![0, 1, 2] nodeHead1_nodeH
          (addf (normaliser Qm Km Ehm ei)
            (broadcastInDim SNodeHead1 ![] scalar_nodeHead1 (constant (F := Ideal) SScalar .f32 0x358637BD#32)))))
      heads_node)

/-! ## The batch normalisation, twice -/

/-- A per-channel vector repeated on every node. -/
def spread (v : FVec Ideal SChan .f32) : FVec Ideal SNode .f32 :=
  broadcastInDim SNode ![0, 1] row_node (broadcastInDim SChanRow ![1] chan_row v)

/-- Per channel, the sum over the nodes divided by 100000. -/
def colMean (h : FVec Ideal SNode .f32) : FVec Ideal SChan .f32 :=
  Host.divf (Host.reduceAdd h (constant (F := Ideal) SScalar .f32 0x00000000#32) node_colSum scalar_pos)
    (broadcastInDim SChan ![] scalar_chan (constant (F := Ideal) SScalar .f32 0x47C35000#32))

/-- Per channel, the mean of the squared deviations from the mean. -/
def colVar (h : FVec Ideal SNode .f32) : FVec Ideal SChan .f32 :=
  Host.divf
    (Host.reduceAdd (mulf (subf h (spread (colMean h))) (subf h (spread (colMean h))))
      (constant (F := Ideal) SScalar .f32 0x00000000#32) node_colSum scalar_pos)
    (broadcastInDim SChan ![] scalar_chan (constant (F := Ideal) SScalar .f32 0x47C35000#32))

/-- The reference's normalisation: (h − mean) · rsqrt(var + ε) · γ + β with the variance as the mean squared deviation. -/
def bnRef (h : FVec Ideal SNode .f32) (γ β : FVec Ideal SChan .f32) : FVec Ideal SNode .f32 :=
  addf
    (mulf
      (mulf (subf h (spread (colMean h)))
        (spread (Host.rsqrt (addf (colVar h)
          (broadcastInDim SChan ![] scalar_chan (constant (F := Ideal) SScalar .f32 0x3727C5AC#32))))))
      (spread γ))
    (spread β)

/-- The kernel's normalisation at node n and channel c: with S = ∑ h (·, c) and Q = ∑ h (·, c)² over the nodes,
    mean = S / 100000 and var = Q / 100000 − mean², the value ((h − mean) · rsqrt(var + ε)) · γ c + β c. -/
def bnKer (h : FVec Ideal SNode .f32) (γ β : FVec Ideal SChan .f32) : FVec Ideal SNode .f32 :=
  fun i =>
    ((h i - Ideal.div (∑ r : Fin 100000, h (ix2 r (i 1))) (Ideal.ofBits .f32 0x47C35000#32))
      * Ideal.rsqrt
          ((Ideal.div (∑ r : Fin 100000, h (ix2 r (i 1)) * h (ix2 r (i 1))) (Ideal.ofBits .f32 0x47C35000#32)
            - Ideal.div (∑ r : Fin 100000, h (ix2 r (i 1))) (Ideal.ofBits .f32 0x47C35000#32)
              * Ideal.div (∑ r : Fin 100000, h (ix2 r (i 1))) (Ideal.ofBits .f32 0x47C35000#32))
            + Ideal.ofBits .f32 0x3727C5AC#32))
      * γ (ix1 (i 1))
    + β (ix1 (i 1))

/-! ## The two normalisations agree on arrays of reals -/

/-- The divisor both programs spell, `1.0e5` as an f32 pattern, denotes the real 100000. -/
theorem ofBits_nodes : Ideal.ofBits .f32 0x47C35000#32 = ((100000 : ℝ) : EReal) := by
  simp [Ideal.ofBits, Ideal.ieee, -EReal.coe_mul]; norm_num

/-- A per-channel vector repeated on every node reads, at node n and channel c, the vector at c. -/
theorem spread_apply (v : FVec Ideal SChan .f32) (i : SNode.Idx) : spread v i = v (ix1 (i 1)) := by
  unfold spread
  have e1 : ∀ y : FVec Ideal SChanRow .f32,
      broadcastInDim SNode ![0, 1] row_node y i = y (ix2 (⟨0, Nat.one_pos⟩ : Fin 1) (i 1)) := fun y =>
    broadcastInDim_apply _ row_node y i (ix2 (⟨0, Nat.one_pos⟩ : Fin 1) (i 1)) (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)])
  have e2 : ∀ j : SChanRow.Idx, broadcastInDim SChanRow ![1] chan_row v j = v (ix1 (j 1)) := fun j =>
    broadcastInDim_apply _ chan_row v j (ix1 (j 1)) (fun a => match a with
      | ⟨0, _⟩ => by show (j 1).val = if (256 : Nat) = 1 then 0 else (j 1).val; rw [if_neg (by decide)])
  rw [e1, e2]

/-- The host's sum over the nodes from the zero pattern, at channel c: the sum over the 100000 rows of column c. -/
theorem colSum_apply (h : FVec Ideal SNode .f32) (c : Fin 256) :
    Host.reduceAdd h (constant (F := Ideal) SScalar .f32 0x00000000#32) node_colSum scalar_pos (ix1 c)
      = ∑ r : Fin 100000, h (ix2 r c) := by
  simp only [Host.reduceAdd, Ideal.hostReduceAdd_def]
  rw [Ideal.hostReduceAdd_single node_colSum (by decide)]
  show Ideal.ofBits .f32 0x00000000#32 + _ = _
  rw [Ideal.ofBits_zero_f32, zero_add]
  refine Finset.sum_congr rfl fun r _ => ?_
  exact congrArg h (funext fun a => Fin.ext (by match a with | ⟨0, _⟩ => rfl | ⟨1, _⟩ => rfl))

/-- The mean of channel c: the column's sum over 100000. -/
theorem colMean_apply (h : FVec Ideal SNode .f32) (c : Fin 256) :
    colMean h (ix1 c) = Ideal.div (∑ r : Fin 100000, h (ix2 r c)) (Ideal.ofBits .f32 0x47C35000#32) := by
  unfold colMean
  rw [hostDivf_apply, colSum_apply, broadcastInDim_scalar_apply]
  rfl

/-- The reference's variance of channel c: the sum of the column's squared deviations from its mean, over 100000. -/
theorem colVar_apply (h : FVec Ideal SNode .f32) (c : Fin 256) :
    colVar h (ix1 c)
      = Ideal.div (∑ r : Fin 100000, (h (ix2 r c) - colMean h (ix1 c)) * (h (ix2 r c) - colMean h (ix1 c)))
          (Ideal.ofBits .f32 0x47C35000#32) := by
  unfold colVar
  rw [hostDivf_apply, colSum_apply, broadcastInDim_scalar_apply]
  refine congrArg₂ Ideal.div (Finset.sum_congr rfl fun r _ => ?_) rfl
  rw [mulf_apply, subf_apply, spread_apply]

/-- The reference's normalisation at node n and channel c, its two statistics still by name. -/
theorem bnRef_apply (h : FVec Ideal SNode .f32) (γ β : FVec Ideal SChan .f32) (n : Fin 100000) (c : Fin 256) :
    bnRef h γ β (ix2 n c)
      = ((h (ix2 n c) - colMean h (ix1 c))
          * Ideal.rsqrt (colVar h (ix1 c) + Ideal.ofBits .f32 0x3727C5AC#32)) * γ (ix1 c) + β (ix1 c) := by
  unfold bnRef
  rw [addf_apply, mulf_apply, mulf_apply, subf_apply, spread_apply, spread_apply, spread_apply, spread_apply]
  rfl

/-- On an array of real values the kernel's normalisation is the reference's: the two variances are one number
    (`BnVariance.variance_ereal`), and everything else is spelt alike. -/
theorem bn_eq (h : FVec Ideal SNode .f32) (γ β : FVec Ideal SChan .f32) (hr : ∀ i, ∃ r : ℝ, h i = r) :
    bnKer h γ β = bnRef h γ β := by
  funext i
  obtain ⟨n, c, rfl⟩ : ∃ (n : Fin 100000) (c : Fin 256), i = ix2 n c := ⟨i 0, i 1, eq_ix2 i⟩
  have hv := BnVariance.variance_ereal (fun r : Fin 100000 => h (ix2 r c)) (fun r => hr _) 100000
    (by norm_num) (by simp)
  rw [← ofBits_nodes] at hv
  beta_reduce at hv
  rw [bnRef_apply, colVar_apply, colMean_apply, hv]
  rfl

end Cert.Bridge

end
-- ==== Proof.LibNaryThree.lean ====
/-
  A host operation with three operands, read at its own result.

  The result of an operation over a literal family of three operand references is its function applied to the three
  operands' contents, each taken at its own reference, so that whatever earlier operations of the same line wrote into
  those operands can still be read off, one literal reference at a time. A concatenation of three arrays is such an
  operation.
-/
import Idealize.ShloMosaic.Lib.StableHlo.Run

namespace Cert.Lib.NaryThree

open Idealize.ShloMosaic Idealize.ShloMosaic.StableHlo

variable {τ : Topo} {sig : RefSig} {Val : EltTy → Type} {x a b y : Ref sig .tc}

/-- The result of a three-operand operation at its own result reference: its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

/-- The same with the result reference kept out of the rewriting index, for a single pass of rewriting. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b))
          (fun i => i.elim0)))) :=
  nary3_result f hxs hy F

end Cert.Lib.NaryThree
-- ==== Proof.LibPieces.lean ====
/-
  One piece of a concatenation, read at an index the caller names.

  Arrays laid end to end along an axis: the entry whose coordinate on that axis is  pre + q,  where pre is the total
  extent of the pieces before piece k and q a coordinate inside piece k, is piece k's entry at q, the other
  coordinates unchanged. Three shapes of this are written out: matrices side by side (joined along the columns),
  matrices stacked (joined along the rows), and vectors end to end. The caller supplies the target coordinate c
  together with the equation  c = pre + q,  so no subtraction appears in the statement.
-/
import Idealize.ShloMosaic.Lib.ValueIdx
import Idealize.ShloMosaic.Lib.Pipeline.Value

namespace Cert.Lib.Pieces

open Idealize.ShloMosaic Idealize.ShloMosaic.ValueIdx

variable {α : Type}

/-- Matrices with B rows side by side: column pre + q of the whole is column q of piece k. -/
theorem cols_piece {B W w : ℕ} (xs : List ((s : Shape) × (s.Idx → α)))
    (h : Shape.Concatenates (xs.map (·.1)) ⟨2, ![B, W]⟩ 1)
    (k : ℕ) (hk : k < xs.length) (x : (⟨2, ![B, w]⟩ : Shape).Idx → α)
    (hxk : xs[k] = ⟨⟨2, ![B, w]⟩, x⟩) (pre : ℕ)
    (hpre : (((xs.take k).map (·.1)).map fun s => if h : s.rank = (⟨2, ![B, W]⟩ : Shape).rank
      then s.size ((1 : Fin (⟨2, ![B, W]⟩ : Shape).rank).cast h.symm) else 0).sum = pre)
    (p : Fin B) (q : Fin w) (c : Fin W) (hc : c.val = pre + q.val) :
    concatenate ⟨2, ![B, W]⟩ 1 xs h (ix2 p c) = x (ix2 p q) :=
  concatenate_apply_piece 1 xs h _ k hk _ x hxk rfl pre hpre (ix2 p q) (fun b hb => by
    match b with
    | ⟨0, _⟩ => rfl
    | ⟨1, _⟩ => exact absurd rfl hb) (by show pre + q.val = c.val; omega)

/-- Matrices with W columns stacked: row pre + p of the whole is row p of piece k. -/
theorem rows_piece {B W n : ℕ} (xs : List ((s : Shape) × (s.Idx → α)))
    (h : Shape.Concatenates (xs.map (·.1)) ⟨2, ![B, W]⟩ 0)
    (k : ℕ) (hk : k < xs.length) (x : (⟨2, ![n, W]⟩ : Shape).Idx → α)
    (hxk : xs[k] = ⟨⟨2, ![n, W]⟩, x⟩) (pre : ℕ)
    (hpre : (((xs.take k).map (·.1)).map fun s => if h : s.rank = (⟨2, ![B, W]⟩ : Shape).rank
      then s.size ((0 : Fin (⟨2, ![B, W]⟩ : Shape).rank).cast h.symm) else 0).sum = pre)
    (p : Fin n) (q : Fin W) (c : Fin B) (hc : c.val = pre + p.val) :
    concatenate ⟨2, ![B, W]⟩ 0 xs h (ix2 c q) = x (ix2 p q) :=
  concatenate_apply_piece 0 xs h _ k hk _ x hxk rfl pre hpre (ix2 p q) (fun b hb => by
    match b with
    | ⟨0, _⟩ => exact absurd rfl hb
    | ⟨1, _⟩ => rfl) (by show pre + p.val = c.val; omega)

/-- Vectors end to end: entry pre + q of the whole is entry q of piece k. -/
theorem vec_piece {N n : ℕ} (xs : List ((s : Shape) × (s.Idx → α)))
    (h : Shape.Concatenates (xs.map (·.1)) ⟨1, ![N]⟩ 0)
    (k : ℕ) (hk : k < xs.length) (x : (⟨1, ![n]⟩ : Shape).Idx → α)
    (hxk : xs[k] = ⟨⟨1, ![n]⟩, x⟩) (pre : ℕ)
    (hpre : (((xs.take k).map (·.1)).map fun s => if h : s.rank = (⟨1, ![N]⟩ : Shape).rank
      then s.size ((0 : Fin (⟨1, ![N]⟩ : Shape).rank).cast h.symm) else 0).sum = pre)
    (q : Fin n) (c : Fin N) (hc : c.val = pre + q.val) :
    concatenate ⟨1, ![N]⟩ 0 xs h (ix1 c) = x (ix1 q) :=
  concatenate_apply_piece 0 xs h _ k hk _ x hxk rfl pre hpre (ix1 q) (fun b hb => by
    match b with
    | ⟨0, _⟩ => exact absurd rfl hb) (by show pre + q.val = c.val; omega)

end Cert.Lib.Pieces
-- ==== Proof.KI.HostRead2.lean ====
import proofs.«143867_j79774722555996_1_alg».proof.Proof.Gen.KernelIdeal.Launch
import proofs.«143867_j79774722555996_1_alg».proof.Proof.Spec
import proofs.«143867_j79774722555996_1_alg».proof.Proof.LibNaryThree
import proofs.«143867_j79774722555996_1_alg».proof.Proof.LibPieces
import Idealize.ShloMosaic.Lib.StableHlo.Run
import Idealize.ShloMosaic.PureOps.Ideal
import Idealize.ShloMosaic.PureOps.Ideal.Laws

/-!
  The kernel program's short stretches of host operations, each read as a function of the buffers it starts from:
  before the first region, the two rows of edge endpoints and the three weight matrices laid side by side; between the
  first two regions, the three 256-column slabs of the fused projection, each split into heads; between the last two
  regions, the column sums turned into a mean row and a variance row, and the two affine parameters re-laid as rows.
-/

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

/-! ## Before the first region -/

theorem read_src (Vv : Valuation τ sig (Elt Ideal)) (ei : IVec Cert.Bridge.SEnds 32) (h8 : Vv (Proc.devRef .tc main_arg8) = ei) :
    StableHlo.after hostOps0 Vv (Proc.devRef .tc main_v1) = Cert.Bridge.srcOf ei := by
  after_results_simp
  rw [h8]; rfl

theorem read_dst (Vv : Valuation τ sig (Elt Ideal)) (ei : IVec Cert.Bridge.SEnds 32) (h8 : Vv (Proc.devRef .tc main_arg8) = ei) :
    StableHlo.after hostOps0 Vv (Proc.devRef .tc main_v3) = Cert.Bridge.dstOf ei := by
  after_results_simp
  rw [h8]; rfl

/-- The fused weight matrix: the three 256 × 256 matrices side by side. -/
theorem read_weights (Vv : Valuation τ sig (Elt Ideal)) :
    StableHlo.after hostOps0 Vv (Proc.devRef .tc main_v4)
      = concatenate S256x768 1 [⟨S256x256, Vv (Proc.devRef .tc main_arg2)⟩, ⟨S256x256, Vv (Proc.devRef .tc main_arg3)⟩,
          ⟨S256x256, Vv (Proc.devRef .tc main_arg5)⟩] concatenates_S256x256_S256x256_S256x256_S256x768_d1 := by
  simp (disch := decide) only [after_cons, after_nil, Cert.Lib.NaryThree.nary3_result', unary_result_ne', reshape_result_ne']
  rfl

/-! ## Between the first two regions -/

theorem read_headsQ (Vv : Valuation τ sig (Elt Ideal)) :
    StableHlo.after hostOps1 Vv (Proc.devRef .tc main_v7)
      = Cert.Bridge.heads (extractStridedSlice S100000x256 ![0, 0] (Vv (Proc.devRef .tc main_v5)) slices_S100000x768_S100000x256_0_0) := by
  after_results_simp
  rfl

theorem read_headsK (Vv : Valuation τ sig (Elt Ideal)) :
    StableHlo.after hostOps1 Vv (Proc.devRef .tc main_v9)
      = Cert.Bridge.heads (extractStridedSlice S100000x256 ![0, 256] (Vv (Proc.devRef .tc main_v5)) slices_S100000x768_S100000x256_0_256) := by
  after_results_simp
  rfl

theorem read_headsV (Vv : Valuation τ sig (Elt Ideal)) :
    StableHlo.after hostOps1 Vv (Proc.devRef .tc main_v11)
      = Cert.Bridge.heads (extractStridedSlice S100000x256 ![0, 512] (Vv (Proc.devRef .tc main_v5)) slices_S100000x768_S100000x256_0_512) := by
  after_results_simp
  rfl

/-! ## Between the last two regions -/

theorem read_mean (Vv : Valuation τ sig (Elt Ideal)) :
    StableHlo.after hostOps3 Vv (Proc.devRef .tc main_v59)
      = Host.divf (Vv (Proc.devRef .tc main_v57_0)) (broadcastInDim S1x256 ![] bcast_S_S1x256 (constant (F := Ideal) S_ .f32 0x47C35000#32)) := by
  after_results_simp

theorem read_var (Vv : Valuation τ sig (Elt Ideal)) :
    StableHlo.after hostOps3 Vv (Proc.devRef .tc main_v63)
      = subf (Host.divf (Vv (Proc.devRef .tc main_v57_1)) (broadcastInDim S1x256 ![] bcast_S_S1x256 (constant (F := Ideal) S_ .f32 0x47C35000#32)))
          (mulf (Host.divf (Vv (Proc.devRef .tc main_v57_0)) (broadcastInDim S1x256 ![] bcast_S_S1x256 (constant (F := Ideal) S_ .f32 0x47C35000#32)))
            (Host.divf (Vv (Proc.devRef .tc main_v57_0)) (broadcastInDim S1x256 ![] bcast_S_S1x256 (constant (F := Ideal) S_ .f32 0x47C35000#32)))) := by
  after_results_simp

theorem read_gamma (Vv : Valuation τ sig (Elt Ideal)) :
    StableHlo.after hostOps3 Vv (Proc.devRef .tc main_v64)
      = shapeCast S1x256 (Vv (Proc.devRef .tc main_arg6)) shapeCasts_S256_S1x256 := by
  after_results_simp
  rfl

theorem read_beta (Vv : Valuation τ sig (Elt Ideal)) :
    StableHlo.after hostOps3 Vv (Proc.devRef .tc main_v65)
      = shapeCast S1x256 (Vv (Proc.devRef .tc main_arg7)) shapeCasts_S256_S1x256 := by
  after_results_simp
  rfl

end Cert.KernelIdeal.Hand

end
-- ==== Proof.SlabProj.lean ====
import proofs.«143867_j79774722555996_1_alg».proof.Proof.Spec
import proofs.«143867_j79774722555996_1_alg».proof.Proof.LibPieces
import Idealize.ShloMosaic.Lib.Pipeline.Value
import Idealize.ShloMosaic.Lib.ValueIdx

/-!
  One matrix product against three weight matrices laid side by side computes the three products at once: the
  256-column slab number j of  x · [W₀ | W₁ | W₂]  is  x · Wⱼ.  Entry (n, 256·j + q) of the fused product is the sum
  over k of x (n, k) times the fused weight's entry (k, 256·j + q), and that entry is Wⱼ's entry (k, q).
-/

noncomputable section

open scoped BigOperators

namespace Cert.Bridge

open Idealize.ShloMosaic Idealize.ShloMosaic.ValueIdx

/-- The fused projection: 100000 nodes, 3 × 256 channels. -/
abbrev SFused : Shape := ⟨2, ![100000, 768]⟩
/-- The three weight matrices side by side. -/
abbrev SFusedW : Shape := ⟨2, ![256, 768]⟩

variable {α : Type} [Mul α] [AddCommMonoid α]

/-- Slab j (columns pre … pre + 255, pre = 256·j) of the fused product is the product with the j-th weight matrix. -/
theorem slab_eq (x : SNode.Idx → α) (ws : List ((s : Shape) × (s.Idx → α)))
    (hcat : Shape.Concatenates (ws.map (·.1)) SFusedW 1) (P : SFused.Idx → α)
    (hP : ∀ i : SFused.Idx, P i = ∑ k : Fin 256, x (ix2 (i 0) k) * concatenate SFusedW 1 ws hcat (ix2 k (i 1)))
    (j : ℕ) (hj : j < ws.length) (w : SWeight.Idx → α) (hw : ws[j] = ⟨SWeight, w⟩) (pre : ℕ)
    (hpre : (((ws.take j).map (·.1)).map fun s => if h : s.rank = SFusedW.rank
      then s.size ((1 : Fin SFusedW.rank).cast h.symm) else 0).sum = pre)
    (hle : pre + 256 ≤ 768) (hs : SFused.Slices ![0, pre] SNode) :
    extractStridedSlice SNode ![0, pre] P hs = fun i => ∑ k : Fin 256, x (ix2 (i 0) k) * w (ix2 k (i 1)) := by
  funext i
  have h1 : (i 1).val < 256 := (i 1).isLt
  rw [extractStridedSlice_apply ![0, pre] P hs i (ix2 (i 0) ⟨pre + (i 1).val, by omega⟩) (fun a => by
    match a with
    | ⟨0, _⟩ => show (i 0).val = 0 + (i 0).val; omega
    | ⟨1, _⟩ => rfl)]
  rw [hP]
  refine Finset.sum_congr rfl fun k _ => ?_
  congr 1
  exact Cert.Lib.Pieces.cols_piece ws hcat j hj w hw pre hpre k (i 1) ⟨pre + (i 1).val, by omega⟩ rfl

end Cert.Bridge

end
-- ==== Proof.KI.KernelProj.lean ====
import proofs.«143867_j79774722555996_1_alg».proof.Proof.KI.Assembly
import proofs.«143867_j79774722555996_1_alg».proof.Proof.KI.Value0
import proofs.«143867_j79774722555996_1_alg».proof.Proof.KI.Value1
import proofs.«143867_j79774722555996_1_alg».proof.Proof.KI.HostRead2
import proofs.«143867_j79774722555996_1_alg».proof.Proof.SlabProj
import proofs.«143867_j79774722555996_1_alg».proof.Proof.Spec

/-!
  What the buffers hold when the second region has ended, as functions of the argument arrays, at the ideal values.

  The first region multiplies the node features by the three projection matrices laid side by side; each 256-column
  slab of that product is the product with one matrix, and the host operations between the two regions split each slab
  into heads. The second region multiplies the edge features by the edge projection. No segment up to there changes an
  argument array, and the rows of edge endpoints are cut out of their argument before the first region.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD)

/-! ## The argument arrays at launch -/

/-- The node features. -/
abbrev inX : FVec Ideal Cert.Bridge.SNode .f32 := m ((c : Thread nD τ).loc main_arg0)
/-- The edge features. -/
abbrev inE : FVec Ideal Cert.Bridge.SEdge .f32 := m ((c : Thread nD τ).loc main_arg1)
/-- The query, key, edge and value projection matrices. -/
abbrev inWq : FVec Ideal Cert.Bridge.SWeight .f32 := m ((c : Thread nD τ).loc main_arg2)
abbrev inWk : FVec Ideal Cert.Bridge.SWeight .f32 := m ((c : Thread nD τ).loc main_arg3)
abbrev inWe : FVec Ideal Cert.Bridge.SWeight .f32 := m ((c : Thread nD τ).loc main_arg4)
abbrev inWv : FVec Ideal Cert.Bridge.SWeight .f32 := m ((c : Thread nD τ).loc main_arg5)
/-- The two rows of edge endpoints. -/
abbrev inEnds : IVec Cert.Bridge.SEnds 32 := m ((c : Thread nD τ).loc main_arg8)

/-! ## Arguments and endpoint rows, carried to the end of the second region -/

/-- The node features are where they were. -/
theorem W4_x : W4 m c (Proc.devRef .tc main_arg0) = inX m c :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = inX m c := rfl

/-- The source node of every edge, cut out before the first region and untouched since. -/
theorem W4_src : W4 m c (Proc.devRef .tc main_v1) = Cert.Bridge.srcOf (inEnds m c) :=
  calc W4 m c (Proc.devRef .tc main_v1)
    _ = W3 m c (Proc.devRef .tc main_v1) := W4_of_ne m c main_v1 (by decide)
    _ = W2 m c (Proc.devRef .tc main_v1) := StableHlo.after_of_writes_sub hostOps1 _ hostOps1_writes (r := main_v1) (by decide)
    _ = W1 m c (Proc.devRef .tc main_v1) := W2_of_ne m c main_v1 (by decide)
    _ = Cert.Bridge.srcOf (inEnds m c) := read_src (W0 m c) (inEnds m c) rfl

/-- The target node of every edge, likewise. -/
theorem W4_dst : W4 m c (Proc.devRef .tc main_v3) = Cert.Bridge.dstOf (inEnds m c) :=
  calc W4 m c (Proc.devRef .tc main_v3)
    _ = W3 m c (Proc.devRef .tc main_v3) := W4_of_ne m c main_v3 (by decide)
    _ = W2 m c (Proc.devRef .tc main_v3) := StableHlo.after_of_writes_sub hostOps1 _ hostOps1_writes (r := main_v3) (by decide)
    _ = W1 m c (Proc.devRef .tc main_v3) := W2_of_ne m c main_v3 (by decide)
    _ = Cert.Bridge.dstOf (inEnds m c) := read_dst (W0 m c) (inEnds m c) rfl

/-! ## The fused projection -/

/-- The three node projection matrices side by side, as the first region finds them. -/
abbrev fusedW : List ((s : Shape) × (s.Idx → EReal)) :=
  [⟨S256x256, inWq m c⟩, ⟨S256x256, inWk m c⟩, ⟨S256x256, inWv m c⟩]

/-- When the first region is entered the node features are the argument's -/
theorem W1_x : W1 m c (Proc.devRef .tc main_arg0) = inX m c :=
  StableHlo.after_of_writes_sub hostOps0 _ hostOps0_writes (r := main_arg0) (by decide)

/-- and its right operand is the three matrices side by side. -/
theorem W1_fused : W1 m c (Proc.devRef .tc main_v4)
    = concatenate S256x768 1 (fusedW m c) concatenates_S256x256_S256x256_S256x256_S256x768_d1 :=
  read_weights (W0 m c)

/-- The first region's output is the product of what it found in its two operands, -/
theorem fused_fn : @Eq (Cert.Bridge.SFused.Idx → EReal) (W2 m c (Proc.devRef .tc main_v5)) (prodArr0 (V1 m) c) :=
  (W2_arr m c 2).trans (finalArr0 (V1 m) c)

/-- so it is, entry by entry, the node features times the fused matrix. -/
theorem fused_at (i : Cert.Bridge.SFused.Idx) :
    (W2 m c (Proc.devRef .tc main_v5) : Cert.Bridge.SFused.Idx → EReal) i
      = ∑ k : Fin 256, inX m c (ix2 (i 0) k)
          * concatenate Cert.Bridge.SFusedW 1 (fusedW m c) concatenates_S256x256_S256x256_S256x256_S256x768_d1 (ix2 k (i 1)) := by
  refine (congrFun (fused_fn m c) i).trans ?_
  show prodArr0 (V1 m) c i = _
  unfold prodArr0
  refine Finset.sum_congr rfl fun k _ => ?_
  exact congrArg₂ (· * ·) (congrFun (W1_x m c) _) (congrFun (W1_fused m c) _)

/-- Slab j of the first region's output is the node features times the j-th matrix. -/
theorem slabQ : extractStridedSlice S100000x256 ![0, 0] (W2 m c (Proc.devRef .tc main_v5)) slices_S100000x768_S100000x256_0_0
    = Cert.Bridge.proj (inX m c) (inWq m c) :=
  Cert.Bridge.slab_eq (inX m c) (fusedW m c) concatenates_S256x256_S256x256_S256x256_S256x768_d1 _ (fused_at m c)
    0 (by show (0 : ℕ) < 3; decide) (inWq m c) rfl 0 rfl (by decide) slices_S100000x768_S100000x256_0_0

theorem slabK : extractStridedSlice S100000x256 ![0, 256] (W2 m c (Proc.devRef .tc main_v5)) slices_S100000x768_S100000x256_0_256
    = Cert.Bridge.proj (inX m c) (inWk m c) :=
  Cert.Bridge.slab_eq (inX m c) (fusedW m c) concatenates_S256x256_S256x256_S256x256_S256x768_d1 _ (fused_at m c)
    1 (by show (1 : ℕ) < 3; decide) (inWk m c) rfl 256 rfl (by decide) slices_S100000x768_S100000x256_0_256

theorem slabV : extractStridedSlice S100000x256 ![0, 512] (W2 m c (Proc.devRef .tc main_v5)) slices_S100000x768_S100000x256_0_512
    = Cert.Bridge.proj (inX m c) (inWv m c) :=
  Cert.Bridge.slab_eq (inX m c) (fusedW m c) concatenates_S256x256_S256x256_S256x256_S256x768_d1 _ (fused_at m c)
    2 (by show (2 : ℕ) < 3; decide) (inWv m c) rfl 512 rfl (by decide) slices_S100000x768_S100000x256_0_512

/-- The queries, split into heads. -/
theorem W4_Q : W4 m c (Proc.devRef .tc main_v7) = Cert.Bridge.heads (Cert.Bridge.proj (inX m c) (inWq m c)) :=
  calc W4 m c (Proc.devRef .tc main_v7)
    _ = W3 m c (Proc.devRef .tc main_v7) := W4_of_ne m c main_v7 (by decide)
    _ = Cert.Bridge.heads (extractStridedSlice S100000x256 ![0, 0] (W2 m c (Proc.devRef .tc main_v5)) slices_S100000x768_S100000x256_0_0) :=
        read_headsQ (W2 m c)
    _ = Cert.Bridge.heads (Cert.Bridge.proj (inX m c) (inWq m c)) := congrArg Cert.Bridge.heads (slabQ m c)

/-- The keys, split into heads. -/
theorem W4_K : W4 m c (Proc.devRef .tc main_v9) = Cert.Bridge.heads (Cert.Bridge.proj (inX m c) (inWk m c)) :=
  calc W4 m c (Proc.devRef .tc main_v9)
    _ = W3 m c (Proc.devRef .tc main_v9) := W4_of_ne m c main_v9 (by decide)
    _ = Cert.Bridge.heads (extractStridedSlice S100000x256 ![0, 256] (W2 m c (Proc.devRef .tc main_v5)) slices_S100000x768_S100000x256_0_256) :=
        read_headsK (W2 m c)
    _ = Cert.Bridge.heads (Cert.Bridge.proj (inX m c) (inWk m c)) := congrArg Cert.Bridge.heads (slabK m c)

/-- The values, split into heads. -/
theorem W4_V : W4 m c (Proc.devRef .tc main_v11) = Cert.Bridge.heads (Cert.Bridge.proj (inX m c) (inWv m c)) :=
  calc W4 m c (Proc.devRef .tc main_v11)
    _ = W3 m c (Proc.devRef .tc main_v11) := W4_of_ne m c main_v11 (by decide)
    _ = Cert.Bridge.heads (extractStridedSlice S100000x256 ![0, 512] (W2 m c (Proc.devRef .tc main_v5)) slices_S100000x768_S100000x256_0_512) :=
        read_headsV (W2 m c)
    _ = Cert.Bridge.heads (Cert.Bridge.proj (inX m c) (inWv m c)) := congrArg Cert.Bridge.heads (slabV m c)

/-! ## The edge projection -/

/-- When the second region is entered the edge features and the edge projection matrix are the arguments'. -/
theorem W3_e : W3 m c (Proc.devRef .tc main_arg1) = inE m c :=
  calc W3 m c (Proc.devRef .tc main_arg1)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = inE m c := rfl

theorem W3_we : W3 m c (Proc.devRef .tc main_arg4) = inWe m c :=
  calc W3 m c (Proc.devRef .tc main_arg4)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = inWe m c := rfl

/-- The second region's output is the edge features times the edge projection matrix. -/
theorem W4_E : W4 m c (Proc.devRef .tc main_v12) = Cert.Bridge.projE (inE m c) (inWe m c) := by
  refine (W4_arr m c 2).trans ((finalArr1 (V3 m) c).trans ?_)
  funext i
  show prodArr1 (V3 m) c i = Cert.Bridge.projE (inE m c) (inWe m c) i
  unfold prodArr1 Cert.Bridge.projE
  refine Finset.sum_congr rfl fun k _ => ?_
  exact congrArg₂ (· * ·) (congrFun (W3_e m c) _) (congrFun (W3_we m c) _)

end Cert.KernelIdeal.Hand

end
-- ==== Proof.LibTypedRef.lean ====
/-
  A typed reference at the buffer's own type transports nothing.

  A module-local function's operations name their buffers through typed references: a reference together with the
  fact that its buffer's type is the value's type, and contents pass to and from the buffer along that fact. When
  the value's type is stated as the buffer's own type the passage is the identity in both directions. Rewriting
  with these two facts, one buffer at a time, removes the passages a called function's operations leave around
  their operands and results.
-/
import Idealize.ShloMosaic.Lib.StableHlo

noncomputable section

namespace Idealize.ShloMosaic.StableHlo.TRef

variable {sig : RefSig} {Val : EltTy → Type}

/-- Contents written to a buffer through a typed reference at the buffer's own type are the contents. -/
theorem toBuf_self (r : Ref sig .tc) (h : r.ty = r.ty) (h2 : r.space ≠ .host) (h3 : r.isScoped = false) (v : r.ty.Contents Val) :
    (TRef.of (T := r.ty) r h h2 h3).toBuf v = v := rfl

/-- Contents read from a buffer through a typed reference at the buffer's own type are the contents. -/
theorem ofBuf_self (r : Ref sig .tc) (h : r.ty = r.ty) (h2 : r.space ≠ .host) (h3 : r.isScoped = false) (v : r.ty.Contents Val) :
    (TRef.of (T := r.ty) r h h2 h3).ofBuf v = v := rfl

end Idealize.ShloMosaic.StableHlo.TRef

end
-- ==== Proof.LibTypedPassage.lean ====
/-
  A value written to a buffer through a typed reference and read back through the same reference is the value.

  A module-local function's operations pass contents to and from their buffers along the fact that the buffer's type
  is the value's type. Whatever that fact's proof is, going there and back (in either order) is the identity: once
  the value's type is taken to BE the buffer's type, both passages are the identity. These two facts remove, by
  rewriting, every write-then-read pair that reading a called function's operations leaves behind.
-/
import Idealize.ShloMosaic.Lib.StableHlo

noncomputable section

namespace Idealize.ShloMosaic.StableHlo.TRef

variable {sig : RefSig} {Val : EltTy → Type} {T : BufTy}

/-- Written through a typed reference, then read through it: the value. -/
theorem ofBuf_toBuf (x : TRef sig T) (v : T.Contents Val) : x.ofBuf (x.toBuf v) = v := by
  obtain ⟨r, h, h2, h3⟩ := x
  subst h
  rfl

/-- Read through a typed reference, then written through it: the contents. -/
theorem toBuf_ofBuf (x : TRef sig T) (v : x.ref.ty.Contents Val) : x.toBuf (x.ofBuf v) = v := by
  obtain ⟨r, h, h2, h3⟩ := x
  subst h
  rfl

end Idealize.ShloMosaic.StableHlo.TRef

end
-- ==== Proof.KI.HostRead.lean ====
import proofs.«143867_j79774722555996_1_alg».proof.Proof.Gen.KernelIdeal.Launch
import proofs.«143867_j79774722555996_1_alg».proof.Proof.Spec
import proofs.«143867_j79774722555996_1_alg».proof.Proof.LibTypedRef
import proofs.«143867_j79774722555996_1_alg».proof.Proof.LibTypedPassage
import Idealize.ShloMosaic.Lib.StableHlo.Run
import Idealize.ShloMosaic.PureOps.Ideal
import Idealize.ShloMosaic.PureOps.Ideal.Laws

/-!
  The kernel program's host operations between the second and the third region, read as one function.

  From the buffers the two projection regions leave — the three node projections split into heads, the edge
  projection, the two rows of edge endpoints and the input itself — these operations compute the attention stage:
  per edge and head a clipped, exponentiated score; the messages and the scores summed into their target nodes; the
  quotient added to the input. They are, operation for operation, the stage `Cert.Bridge.chain` names.
-/

set_option maxRecDepth 16384

noncomputable section

namespace Cert.KernelIdeal.Hand

open Cert.KernelIdeal Cert.KernelIdeal.Gen
open Idealize.ShloMosaic Idealize.ShloMosaic.TcCoe Idealize.ShloMosaic.StableHlo

/-- After the three stretches of host operations that follow the edge projection, the buffer `main_v56` holds the
    attention stage of the buffers they start from. -/
theorem read_attention (Vv : Valuation τ sig (Elt Ideal))
    (x Qm Km Vm : FVec Ideal Cert.Bridge.SNode .f32) (Ehm : FVec Ideal Cert.Bridge.SEdge .f32) (ei : IVec Cert.Bridge.SEnds 32)
    (hx : Vv (Proc.devRef .tc main_arg0) = x)
    (h1 : Vv (Proc.devRef .tc main_v1) = Cert.Bridge.srcOf ei) (h3 : Vv (Proc.devRef .tc main_v3) = Cert.Bridge.dstOf ei)
    (h7 : Vv (Proc.devRef .tc main_v7) = Cert.Bridge.heads Qm) (h9 : Vv (Proc.devRef .tc main_v9) = Cert.Bridge.heads Km)
    (h11 : Vv (Proc.devRef .tc main_v11) = Cert.Bridge.heads Vm) (h12 : Vv (Proc.devRef .tc main_v12) = Ehm) :
    StableHlo.after hostOps2_2 (StableHlo.after hostOps2_1 (StableHlo.after hostOps2 Vv)) (Proc.devRef .tc main_v56)
      = Cert.Bridge.chain x Qm Km Vm Ehm ei := by
  after_results_simp
  simp only [TRef.ofBuf_toBuf]
  rw [hx, h1, h3, h7, h9, h11, h12]
  rfl

end Cert.KernelIdeal.Hand

end
-- ==== Proof.LibBlockSum50.lean ====
/-
  A sum over 100000 rows taken in fifty consecutive tiles of 2000 rows: row r of tile t is row 2000·t + r, and every
  row is exactly one of these, so the double sum over the tiles and over the rows within a tile is the single sum over
  all the rows. Nothing is asked of the summands but that they live in a commutative additive monoid: no finiteness,
  no order.
-/
import Idealize.ShloMosaic.Lib.ValueIdx

open scoped BigOperators

namespace Cert.Hand.BlockSum50

/-- Row r of tile t is row t·2000 + r; row k is row k % 2000 of tile k / 2000. -/
def tileEquiv : Fin 50 × Fin 2000 ≃ Fin 100000 where
  toFun p := ⟨p.1.val * 2000 + p.2.val, by have := p.1.isLt; have := p.2.isLt; omega⟩
  invFun k := (⟨k.val / 2000, by have := k.isLt; omega⟩, ⟨k.val % 2000, Nat.mod_lt _ (by decide)⟩)
  left_inv p := by
    rcases p with ⟨t, r⟩
    refine Prod.ext (Fin.ext ?_) (Fin.ext ?_)
    · show (t.val * 2000 + r.val) / 2000 = t.val
      have := r.isLt; omega
    · show (t.val * 2000 + r.val) % 2000 = r.val
      have := r.isLt; omega
  right_inv k := Fin.ext (by
    show k.val / 2000 * 2000 + k.val % 2000 = k.val
    omega)

/-- The sum over all 100000 rows is the sum over the fifty tiles of the sums over each tile's 2000 rows. -/
theorem sum_tiles {M : Type*} [AddCommMonoid M] (f : Fin 100000 → M) :
    ∑ t : Fin 50, ∑ r : Fin 2000, f ⟨t.val * 2000 + r.val, by have := t.isLt; have := r.isLt; omega⟩ = ∑ k : Fin 100000, f k := by
  rw [← Equiv.sum_comp tileEquiv f, Fintype.sum_prod_type]
  rfl

/-- The same with the tiles counted by a prefix: the first n tiles' rows are the rows below n·2000. Used at n = 50. -/
theorem sum_tiles_fin {M : Type*} [AddCommMonoid M] (f : Fin 100000 → M) (g : Fin 50 → Fin 2000 → M)
    (hg : ∀ t r, g t r = f ⟨t.val * 2000 + r.val, by have := t.isLt; have := r.isLt; omega⟩) :
    ∑ t : Fin 50, ∑ r : Fin 2000, g t r = ∑ k : Fin 100000, f k := by
  rw [← sum_tiles f]
  exact Finset.sum_congr rfl fun t _ => Finset.sum_congr rfl fun r _ => hg t r

end Cert.Hand.BlockSum50
-- ==== Proof.KI.Value2.lean ====
import proofs.«143867_j79774722555996_1_alg».proof.Proof.KI.Region2
import proofs.«143867_j79774722555996_1_alg».proof.Proof.LibBlockSum50
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! # Region 2 at the ideal values: the two rows the region writes are the column sums and the column sums of squares -/

/-! ## The payloads at an index -/

/-- The row the first point stores is zero everywhere. -/
theorem pay1_apply (j : S1x256.Idx) : (k2_pay1 (F := Ideal)) j = 0 := by
  unfold k2_pay1
  simp only [shapeCast_self]
  exact Ideal.ofBits_zero_f32
theorem pay2_apply (j : S1x256.Idx) : (k2_pay2 (F := Ideal)) j = 0 := by
  unfold k2_pay2
  simp only [shapeCast_self]
  exact Ideal.ofBits_zero_f32

/-- A point's new running sum at column j: the old one plus the sum of the tile's column j over its 2000 rows. -/
theorem pay4_apply (x : Vec Ideal S2000x256 .f32) (a : Vec Ideal S1x256 .f32) (j : S1x256.Idx) :
    k2_pay4 x a j = a j + ∑ r : Fin 2000, x (ix2 r (j 1)) := by
  unfold k2_pay4 k2_pay3
  simp only [shapeCast_self]
  rw [addf_apply]
  congr 1
  rw [shapeCast_addUnit_apply ![256]]
  refine (Ideal.multiReduction_add_single _ _ _ _ _ _).trans ?_
  refine Finset.sum_congr rfl fun r _ => congrArg x ?_
  funext b; match b with | ⟨0, _⟩ => rfl | ⟨1, _⟩ => rfl

/-- Its new running sum of squares likewise. -/
theorem pay5_apply (x : Vec Ideal S2000x256 .f32) (a : Vec Ideal S1x256 .f32) (j : S1x256.Idx) :
    k2_pay5 x a j = a j + ∑ r : Fin 2000, x (ix2 r (j 1)) * x (ix2 r (j 1)) := by
  unfold k2_pay5 k2_pay3
  simp only [shapeCast_self]
  rw [addf_apply]
  congr 1
  rw [shapeCast_addUnit_apply ![256]]
  refine (Ideal.multiReduction_add_single _ _ _ _ _ _).trans ?_
  refine Finset.sum_congr rfl fun r _ => ?_
  rw [mulf_apply]
  have e : (reduces_S2000x256_S256.lift (fun b => j b.succ) r) = ix2 r (j 1) := by
    funext b; match b with | ⟨0, _⟩ => rfl | ⟨1, _⟩ => rfl
  rw [e]
  rfl

/-! ## A tile's element in the matrix -/

/-- The activation matrix as the region finds it, read as 100000 rows of 256 columns. -/
abbrev mat56 (c : Dev nD) : Vec Ideal S100000x256 .f32 := V c main_v56

/-- The input window's block index at point t: tile t on the rows, 0 on the columns. -/
theorem index2_0 : ∀ t : Fin cfg2.N, win2_0.index t 0 = t.val ∧ win2_0.index t 1 = 0 :=
  (by decide +kernel : ∀ t : Fin grid2.N, win2_0.index t 0 = t.val ∧ win2_0.index t 1 = 0)

/-- Row r, column q of the tile at point t is row t·2000 + r, column q of the matrix. -/
theorem iblk2_apply (c : Dev nD) (t : Fin cfg2.N) (x : S2000x256.Idx) (k : S100000x256.Idx)
    (hk0 : (k 0).val = t.val * 2000 + (x 0).val) (hk1 : (k 1).val = (x 1).val) :
    (iblk2 V c 0 t : Vec Ideal S2000x256 .f32) x = mat56 V c k := by
  obtain ⟨h0, h1⟩ := index2_0 t
  unfold iblk2
  rw [View.read_apply]
  show V c main_v56 _ = V c main_v56 _
  congr 1
  funext a
  apply Fin.ext
  match a with
  | ⟨0, _⟩ => show win2_0.index t 0 * 2000 + 1 * (x 0).val = (k 0).val; rw [h0, hk0]; omega
  | ⟨1, _⟩ => show win2_0.index t 1 * 256 + 1 * (x 1).val = (k 1).val; rw [h1, hk1]; omega

/-! ## The running rows as sums over the rows seen so far -/

/-- Before position n the running sum at column q is the sum of column q over the first n tiles' rows. -/
theorem accSum_apply (c : Dev nD) : ∀ (n : ℕ) (h : n ≤ cfg2.N) (j : S1x256.Idx),
    accSum V c n h j = ∑ t : Fin n, ∑ r : Fin 2000,
      mat56 V c (ix2 (⟨t.val * 2000 + r.val, by have := t.isLt; have := r.isLt; have : cfg2.N = 50 := N_2; omega⟩ : Fin 100000) (j 1))
  | 0, _, j => by rw [accSum_at_zero V c 0 _ rfl, pay1_apply]; simp
  | n + 1, h, j => by
    rw [accSum_succ, pay4_apply, accSum_apply c n _ j, Fin.sum_univ_castSucc (n := n)]
    refine congrArg₂ (· + ·) rfl (Finset.sum_congr rfl fun r _ => ?_)
    exact iblk2_apply V c ⟨n, h⟩ (ix2 r (j 1)) _ rfl rfl

/-- The running sum of squares likewise. -/
theorem accSq_apply (c : Dev nD) : ∀ (n : ℕ) (h : n ≤ cfg2.N) (j : S1x256.Idx),
    accSq V c n h j = ∑ t : Fin n, ∑ r : Fin 2000,
      mat56 V c (ix2 (⟨t.val * 2000 + r.val, by have := t.isLt; have := r.isLt; have : cfg2.N = 50 := N_2; omega⟩ : Fin 100000) (j 1))
        * mat56 V c (ix2 (⟨t.val * 2000 + r.val, by have := t.isLt; have := r.isLt; have : cfg2.N = 50 := N_2; omega⟩ : Fin 100000) (j 1))
  | 0, _, j => by rw [accSq_at_zero V c 0 _ rfl, pay2_apply]; simp
  | n + 1, h, j => by
    rw [accSq_succ, pay5_apply, accSq_apply c n _ j, Fin.sum_univ_castSucc (n := n)]
    refine congrArg₂ (· + ·) rfl (Finset.sum_congr rfl fun r _ => ?_)
    have e := iblk2_apply V c ⟨n, h⟩ (ix2 r (j 1))
      (ix2 (⟨n * 2000 + r.val, by have := r.isLt; have : cfg2.N = 50 := N_2; omega⟩ : Fin 100000) (j 1)) rfl rfl
    rw [e]
    rfl

/-! ## The two arrays after the region -/

/-- The last point, the one that writes the two rows back. -/
abbrev tLast2 : Fin cfg2.N := ⟨49, by rw [show cfg2.N = 50 from N_2]; decide⟩

/-- The row of column sums over all fifty tiles, as contents of the first result array, -/
abbrev sumRow (c : Dev nD) : Buf (Elt Ideal) ((c : Thread nD τ).loc main_v57_0) := accSum V c (tLast2.val + 1) tLast2.isLt
/-- and the row of column sums of squares, as contents of the second. -/
abbrev sqRow (c : Dev nD) : Buf (Elt Ideal) ((c : Thread nD τ).loc main_v57_1) := accSq V c (tLast2.val + 1) tLast2.isLt

/-- The one write-back of the first result window writes the whole row of sums: its block is the whole array. -/
theorem flushed2_1 (c : Dev nD) (t : Fin cfg2.N) (hf : (cfg2.win 1).flush t = true) :
    (dat2 V c).flushed 1 t = ((cfg2.win 1).blk t).view.read (Elt Ideal) (sumRow V c) := by
  have hN : cfg2.N = 50 := N_2
  have h1 : t.val = 49 := by have := (flush2_1 t).mp hf; have := t.isLt; omega
  obtain rfl : t = tLast2 := Fin.ext h1
  show (cfg2.win 1).cut (grid2.coords tLast2) ((dat2 V c).after 1 tLast2) = _
  rw [after2_1]
  have hz' : (fun a => win2_1.index tLast2 a * main_v57_0.ty.shape.size a) = fun _ => 0 := funext fun a => by fin_cases a <;> decide +kernel
  exact (Memref.read_access_unit_zero (Elt Ideal) main_v57_0 hz' (fun a => by rw [congrFun hz' a]; simp) (sumRow V c)).symm

theorem flushed2_2 (c : Dev nD) (t : Fin cfg2.N) (hf : (cfg2.win 2).flush t = true) :
    (dat2 V c).flushed 2 t = ((cfg2.win 2).blk t).view.read (Elt Ideal) (sqRow V c) := by
  have hN : cfg2.N = 50 := N_2
  have h1 : t.val = 49 := by have := (flush2_2 t).mp hf; have := t.isLt; omega
  obtain rfl : t = tLast2 := Fin.ext h1
  show (cfg2.win 2).cut (grid2.coords tLast2) ((dat2 V c).after 2 tLast2) = _
  rw [after2_2]
  have hz' : (fun a => win2_2.index tLast2 a * main_v57_1.ty.shape.size a) = fun _ => 0 := funext fun a => by fin_cases a <;> decide +kernel
  exact (Memref.read_access_unit_zero (Elt Ideal) main_v57_1 hz' (fun a => by rw [congrFun hz' a]; simp) (sqRow V c)).symm

/-- So the first result array ends holding the row of sums, -/
theorem final2_row_sum (c : Dev nD) : (dat2 V c).arrAt 1 cfg2.N = sumRow V c :=
  (dat2 V c).arrAt_eq_of_cover 1 (sumRow V c) (flushed2_1 V c) fun i =>
    ⟨tLast2, (flush2_1 tLast2).mpr rfl, by
      show i ∈ ((View.whole main_v57_0).slice (win2_1.rect tLast2)).set
      rw [View.set_slice_whole, Rect.mem_set_unit]
      intro a
      have h0 : (i 0 : Nat) < 1 := (i 0).isLt
      have h1 : (i 1 : Nat) < 256 := (i 1).isLt
      match a with
      | ⟨0, _⟩ => show win2_1.index tLast2 0 * win2_1.size 0 ≤ (i 0 : Nat) ∧ (i 0 : Nat) < win2_1.index tLast2 0 * win2_1.size 0 + win2_1.xsize (grid2.coords tLast2) 0
                  rw [show win2_1.index tLast2 0 * win2_1.size 0 = 0 from by decide +kernel, show win2_1.xsize (grid2.coords tLast2) 0 = 1 from by decide +kernel]; omega
      | ⟨1, _⟩ => show win2_1.index tLast2 1 * win2_1.size 1 ≤ (i 1 : Nat) ∧ (i 1 : Nat) < win2_1.index tLast2 1 * win2_1.size 1 + win2_1.xsize (grid2.coords tLast2) 1
                  rw [show win2_1.index tLast2 1 * win2_1.size 1 = 0 from by decide +kernel, show win2_1.xsize (grid2.coords tLast2) 1 = 256 from by decide +kernel]; omega⟩

/-- and the second the row of sums of squares. -/
theorem final2_row_sumsq (c : Dev nD) : (dat2 V c).arrAt 2 cfg2.N = sqRow V c :=
  (dat2 V c).arrAt_eq_of_cover 2 (sqRow V c) (flushed2_2 V c) fun i =>
    ⟨tLast2, (flush2_2 tLast2).mpr rfl, by
      show i ∈ ((View.whole main_v57_1).slice (win2_2.rect tLast2)).set
      rw [View.set_slice_whole, Rect.mem_set_unit]
      intro a
      have h0 : (i 0 : Nat) < 1 := (i 0).isLt
      have h1 : (i 1 : Nat) < 256 := (i 1).isLt
      match a with
      | ⟨0, _⟩ => show win2_2.index tLast2 0 * win2_2.size 0 ≤ (i 0 : Nat) ∧ (i 0 : Nat) < win2_2.index tLast2 0 * win2_2.size 0 + win2_2.xsize (grid2.coords tLast2) 0
                  rw [show win2_2.index tLast2 0 * win2_2.size 0 = 0 from by decide +kernel, show win2_2.xsize (grid2.coords tLast2) 0 = 1 from by decide +kernel]; omega
      | ⟨1, _⟩ => show win2_2.index tLast2 1 * win2_2.size 1 ≤ (i 1 : Nat) ∧ (i 1 : Nat) < win2_2.index tLast2 1 * win2_2.size 1 + win2_2.xsize (grid2.coords tLast2) 1
                  rw [show win2_2.index tLast2 1 * win2_2.size 1 = 0 from by decide +kernel, show win2_2.xsize (grid2.coords tLast2) 1 = 256 from by decide +kernel]; omega⟩

/-- Column q of the first result array is the sum of column q of the matrix over all its 100000 rows: the fifty tile
    sums of 2000 rows regrouped into one sum (the zero the first point stores is absorbed: addition of extended reals
    is a commutative monoid, and nothing needs to be finite). -/
theorem sumRow_apply (c : Dev nD) (j : S1x256.Idx) :
    (sumRow V c : Vec Ideal S1x256 .f32) j = ∑ r : Fin 100000, mat56 V c (ix2 r (j 1)) := by
  show accSum V c (49 + 1) _ j = _
  rw [accSum_apply]
  exact Cert.Hand.BlockSum50.sum_tiles (fun k => mat56 V c (ix2 k (j 1)))

/-- Column q of the second is the sum of the squares of column q over all the rows. -/
theorem sqRow_apply (c : Dev nD) (j : S1x256.Idx) :
    (sqRow V c : Vec Ideal S1x256 .f32) j = ∑ r : Fin 100000, mat56 V c (ix2 r (j 1)) * mat56 V c (ix2 r (j 1)) := by
  show accSq V c (49 + 1) _ j = _
  rw [accSq_apply]
  exact Cert.Hand.BlockSum50.sum_tiles (fun k => mat56 V c (ix2 k (j 1)) * mat56 V c (ix2 k (j 1)))

/-- The same read off the proof data's final arrays. -/
theorem final2_sum (c : Dev nD) (j : S1x256.Idx) :
    ((dat2 V c).arrAt 1 cfg2.N : Vec Ideal S1x256 .f32) j = ∑ r : Fin 100000, mat56 V c (ix2 r (j 1)) := by
  rw [final2_row_sum]; exact sumRow_apply V c j
theorem final2_sumsq (c : Dev nD) (j : S1x256.Idx) :
    ((dat2 V c).arrAt 2 cfg2.N : Vec Ideal S1x256 .f32) j = ∑ r : Fin 100000, mat56 V c (ix2 r (j 1)) * mat56 V c (ix2 r (j 1)) := by
  rw [final2_row_sumsq]; exact sqRow_apply V c j

end Cert.KernelIdeal.Hand
end
-- ==== Proof.KI.Value3.lean ====
import proofs.«143867_j79774722555996_1_alg».proof.Proof.KI.Region3
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # The normalisation region on the extended reals: the result array as one function of the five arrays it reads

The region writes, at every index (r, q) of the result, `(h(r, q) − mean(q)) · rsqrt(var(q) + ε) · scale(q) + shift(q)`,
where ε is the float word 0x3727C5AC read as an extended real and never evaluated. The tile of point `t` is rows
`2000 t … 2000 t + 1999`; the four statistics rows are whole at every point. -/

/-- Both offsets of a whole-buffer access are zero. -/
theorem zeroOffsets3 : (![0, 0] : Fin 2 → Nat) = fun _ => 0 := funext fun a => by fin_cases a <;> rfl

/-- The normalisation of an array `h` of 100000 rows by four rows of statistics, index by index. -/
def bnormOf (h : S100000x256.Idx → EReal) (mu vr ga be : S1x256.Idx → EReal) : S100000x256.Idx → EReal := fun i =>
  ((h i - mu (ix2 (0 : Fin 1) (i 1))) * Ideal.rsqrt (vr (ix2 (0 : Fin 1) (i 1)) + Ideal.ofBits .f32 0x3727C5AC#32))
    * ga (ix2 (0 : Fin 1) (i 1)) + be (ix2 (0 : Fin 1) (i 1))

/-- The same at row `r`, column `q`. -/
theorem bnormOf_at (h : S100000x256.Idx → EReal) (mu vr ga be : S1x256.Idx → EReal) (r : Fin 100000) (q : Fin 256) :
    bnormOf h mu vr ga be (ix2 r q)
      = ((h (ix2 r q) - mu (ix2 (0 : Fin 1) q)) * Ideal.rsqrt (vr (ix2 (0 : Fin 1) q) + Ideal.ofBits .f32 0x3727C5AC#32))
          * ga (ix2 (0 : Fin 1) q) + be (ix2 (0 : Fin 1) q) := rfl

/-! ## The body's payload at an index -/

/-- The stored tile at row `p`, column `q`: the identity reshapes drop out, each statistics row repeated over the
    2000 rows reads its entry `q`, the splat ε reads ε, and the arithmetic is the extended reals'. -/
theorem pay3_at (x0 : FVec Ideal S2000x256 .f32) (x1 x2 x3 x4 : FVec Ideal S1x256 .f32) (p : Fin 2000) (q : Fin 256) :
    k3_pay1 (F := Ideal) x0 x1 x2 x3 x4 (ix2 p q)
      = ((x0 (ix2 p q) - x1 (ix2 (0 : Fin 1) q)) * Ideal.rsqrt (x2 (ix2 (0 : Fin 1) q) + Ideal.ofBits .f32 0x3727C5AC#32))
          * x3 (ix2 (0 : Fin 1) q) + x4 (ix2 (0 : Fin 1) q) := by
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

/-! ## Where each window's block sits in its array -/

/-- The printed index maps, decided over the 50 points: the tile windows (the input `h` and the result) are at block
    row `t`, block column 0; every statistics window is at block (0, 0). -/
theorem idx3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `p` of tile `t` is a row of the array. -/
theorem tileRow_lt (t : Fin cfg3.N) (p : Fin 2000) : 2000 * t.val + p.val < 100000 := by
  have ht : t.val < 50 := t.isLt
  have hp := p.isLt
  omega

/-- Entry (p, q) of the result window's block at point `t` is entry (2000 t + p, q) of the result array. -/
theorem emb3_5 (t : Fin cfg3.N) (p : Fin 2000) (q : Fin 256) :
    ((cfg3.win 5).blk t).view.emb (ix2 p q) = ix2 (⟨2000 * t.val + p.val, tileRow_lt t p⟩ : Fin 100000) q := by
  obtain ⟨-, -, e0, e1, -⟩ := idx3 t
  funext a; apply Fin.ext
  match a with
  | ⟨0, _⟩ => show win3_5.index t (0 : Fin 2) * 2000 + 1 * p.val = 2000 * t.val + p.val; rw [e0]; omega
  | ⟨1, _⟩ => show win3_5.index t (1 : Fin 2) * 256 + 1 * q.val = q.val; rw [e1]; omega

/-- Entry (p, q) of the input tile's block at point `t` is entry (2000 t + p, q) of `h`. -/
theorem emb3_0 (t : Fin cfg3.N) (p : Fin 2000) (q : Fin 256) :
    ((cfg3.win 0).blk t).view.emb (ix2 p q) = ix2 (⟨2000 * t.val + p.val, tileRow_lt t p⟩ : Fin 100000) q := by
  obtain ⟨e0, e1, -⟩ := idx3 t
  funext a; apply Fin.ext
  match a with
  | ⟨0, _⟩ => show win3_0.index t (0 : Fin 2) * 2000 + 1 * p.val = 2000 * t.val + p.val; rw [e0]; omega
  | ⟨1, _⟩ => show win3_0.index t (1 : Fin 2) * 256 + 1 * q.val = q.val; rw [e1]; omega

/-- Entry (0, q) of a statistics window's block is entry (0, q) of its array, at every point. -/
theorem emb3_1 (t : Fin cfg3.N) (q : Fin 256) : ((cfg3.win 1).blk t).view.emb (ix2 (0 : Fin 1) q) = ix2 (0 : Fin 1) q := by
  obtain ⟨-, -, -, -, e0, e1, -⟩ := idx3 t
  funext a; apply Fin.ext
  match a with
  | ⟨0, _⟩ => show win3_1.index t (0 : Fin 2) * 1 + 1 * 0 = 0; rw [e0]
  | ⟨1, _⟩ => show win3_1.index t (1 : Fin 2) * 256 + 1 * q.val = q.val; rw [e1]; omega
theorem emb3_2 (t : Fin cfg3.N) (q : Fin 256) : ((cfg3.win 2).blk t).view.emb (ix2 (0 : Fin 1) q) = ix2 (0 : Fin 1) q := by
  obtain ⟨-, -, -, -, -, -, e0, e1, -⟩ := idx3 t
  funext a; apply Fin.ext
  match a with
  | ⟨0, _⟩ => show win3_2.index t (0 : Fin 2) * 1 + 1 * 0 = 0; rw [e0]
  | ⟨1, _⟩ => show win3_2.index t (1 : Fin 2) * 256 + 1 * q.val = q.val; rw [e1]; omega
theorem emb3_3 (t : Fin cfg3.N) (q : Fin 256) : ((cfg3.win 3).blk t).view.emb (ix2 (0 : Fin 1) q) = ix2 (0 : Fin 1) q := by
  obtain ⟨-, -, -, -, -, -, -, -, e0, e1, -⟩ := idx3 t
  funext a; apply Fin.ext
  match a with
  | ⟨0, _⟩ => show win3_3.index t (0 : Fin 2) * 1 + 1 * 0 = 0; rw [e0]
  | ⟨1, _⟩ => show win3_3.index t (1 : Fin 2) * 256 + 1 * q.val = q.val; rw [e1]; omega
theorem emb3_4 (t : Fin cfg3.N) (q : Fin 256) : ((cfg3.win 4).blk t).view.emb (ix2 (0 : Fin 1) q) = ix2 (0 : Fin 1) q := by
  obtain ⟨-, -, -, -, -, -, -, -, -, -, e0, e1⟩ := idx3 t
  funext a; apply Fin.ext
  match a with
  | ⟨0, _⟩ => show win3_4.index t (0 : Fin 2) * 1 + 1 * 0 = 0; rw [e0]
  | ⟨1, _⟩ => show win3_4.index t (1 : Fin 2) * 256 + 1 * q.val = q.val; rw [e1]; omega

/-! ## What a point writes back -/

/-- The five arrays the region reads as it finds them, each as a function on the extended reals: the activations,
    and the rows of means, variances, scales and shifts. -/
abbrev tile3 (c : Dev nD) : S100000x256.Idx → EReal := V c main_v56
abbrev mean3 (c : Dev nD) : S1x256.Idx → EReal := V c main_v59
abbrev var3 (c : Dev nD) : S1x256.Idx → EReal := V c main_v63
abbrev scale3 (c : Dev nD) : S1x256.Idx → EReal := V c main_v64
abbrev shift3 (c : Dev nD) : S1x256.Idx → EReal := V c main_v65

/-- Point `t` writes back block `t` of the normalisation of the arrays as the region finds them. -/
theorem flushed3_eq (c : Dev nD) (t : Fin cfg3.N) :
    (dat3 V c).flushed 5 t = ((cfg3.win 5).blk t).view.read (Elt Ideal)
      (bnormOf (tile3 V c) (mean3 V c) (var3 V c) (scale3 V c) (shift3 V c)) := by
  show (cfg3.win 5).cut (grid3.coords t) ((dat3 V c).after 5 t) = _
  rw [after3_5]
  unfold normOut3
  rw [View.canon_unit_zero zeroOffsets3]
  simp only [View.ld_unit_zero (S := S2000x256) zeroOffsets3, View.ld_unit_zero (S := S1x256) zeroOffsets3]
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = bnormOf (tile3 V c) (mean3 V c) (var3 V c) (scale3 V c) (shift3 V c) (((cfg3.win 5).blk t).view.emb (ix2 p q))
  rw [emb3_5 t p q, bnormOf_at]
  refine (pay3_at _ _ _ _ _ p q).trans ?_
  show ((tile3 V c (((cfg3.win 0).blk t).view.emb (ix2 p q)) - mean3 V c (((cfg3.win 1).blk t).view.emb (ix2 (0 : Fin 1) q)))
        * Ideal.rsqrt (var3 V c (((cfg3.win 2).blk t).view.emb (ix2 (0 : Fin 1) q)) + Ideal.ofBits .f32 0x3727C5AC#32))
        * scale3 V c (((cfg3.win 3).blk t).view.emb (ix2 (0 : Fin 1) q))
      + shift3 V c (((cfg3.win 4).blk t).view.emb (ix2 (0 : Fin 1) q)) = _
  rw [emb3_0 t p q, emb3_1 t q, emb3_2 t q, emb3_3 t q, emb3_4 t q]

/-! ## The tiles cover the array -/

/-- An index is in point `t`'s result block iff each coordinate is in the block's range on its axis. -/
theorem mem_blk3_5 (t : Fin cfg3.N) (i : S100000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v66).slice (win3_5.rect t)).set ↔ _
  rw [View.set_slice_whole, Rect.mem_set_unit]
  exact Iff.rfl

/-- Row `r` of the result is in the block of point `r / 2000`, and every point writes its block back. -/
theorem covered3_5 (i : S100000x256.Idx) :
    ∃ t : Fin cfg3.N, (cfg3.win 5).flush t = true ∧ i ∈ ((cfg3.win 5).blk t).view.set := by
  have hi0 : (i 0).val < 100000 := (i 0).isLt
  have hi1 : (i 1).val < 256 := (i 1).isLt
  have ht : (i 0).val / 2000 < 50 := by omega
  obtain ⟨-, -, e0, e1, -⟩ := idx3 (⟨(i 0).val / 2000, ht⟩ : Fin cfg3.N)
  refine ⟨⟨(i 0).val / 2000, ht⟩, flush3_5 _, ?_⟩
  rw [mem_blk3_5]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ (1 : Fin 2) * 256 ≤ (i 1).val
      ∧ (i 1).val < win3_5.index ⟨(i 0).val / 2000, ht⟩ (1 : Fin 2) * 256 + 256
    rw [e1]; omega

/-! ## The result array after the region -/

/-- After the region the result array is the normalisation of the arrays the region found. -/
theorem final3_fun (c : Dev nD) : (dat3 V c).arrAt 5 cfg3.N
    = bnormOf (tile3 V c) (mean3 V c) (var3 V c) (scale3 V c) (shift3 V c) :=
  (dat3 V c).arrAt_eq_of_cover 5 _ (fun t _ => flushed3_eq V c t) covered3_5

/-- The same, index by index. -/
theorem final3 (c : Dev nD) (i : S100000x256.Idx) : (dat3 V c).arrAt 5 cfg3.N i
    = ((tile3 V c i - mean3 V c (ix2 (0 : Fin 1) (i 1)))
        * Ideal.rsqrt (var3 V c (ix2 (0 : Fin 1) (i 1)) + Ideal.ofBits .f32 0x3727C5AC#32))
      * scale3 V c (ix2 (0 : Fin 1) (i 1)) + shift3 V c (ix2 (0 : Fin 1) (i 1)) :=
  congrFun (final3_fun V c) i

end Cert.KernelIdeal.Hand

end
-- ==== Proof.KI.Kept3.lean ====
import proofs.«143867_j79774722555996_1_alg».proof.Proof.KI.Region3
import proofs.«143867_j79774722555996_1_alg».proof.Proof.Gen.KernelIdeal.Launch
import proofs.«143867_j79774722555996_1_alg».proof.Proof.Gen.KernelIdeal.Skeleton
import proofs.«143867_j79774722555996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalisation region leaves the five arrays it reads as it found them

An input window stages its array and never writes it back, so after all 50 points the array still holds the contents
the region was entered with. -/

theorem kept3_0 (c : Dev nD) : (dat3 V c).arrAt 0 cfg3.N = V c (Pipeline.arrRef spec3 0) :=
  ((dat3 V c).arrAt_in 0 rfl _).trans (A_eq3 V c 0)
theorem kept3_1 (c : Dev nD) : (dat3 V c).arrAt 1 cfg3.N = V c (Pipeline.arrRef spec3 1) :=
  ((dat3 V c).arrAt_in 1 rfl _).trans (A_eq3 V c 1)
theorem kept3_2 (c : Dev nD) : (dat3 V c).arrAt 2 cfg3.N = V c (Pipeline.arrRef spec3 2) :=
  ((dat3 V c).arrAt_in 2 rfl _).trans (A_eq3 V c 2)
theorem kept3_3 (c : Dev nD) : (dat3 V c).arrAt 3 cfg3.N = V c (Pipeline.arrRef spec3 3) :=
  ((dat3 V c).arrAt_in 3 rfl _).trans (A_eq3 V c 3)
theorem kept3_4 (c : Dev nD) : (dat3 V c).arrAt 4 cfg3.N = V c (Pipeline.arrRef spec3 4) :=
  ((dat3 V c).arrAt_in 4 rfl _).trans (A_eq3 V c 4)

end Cert.KernelIdeal.Hand

end
-- ==== Proof.KI.BnTail.lean ====
import proofs.«143867_j79774722555996_1_alg».proof.Proof.KI.Value3
import proofs.«143867_j79774722555996_1_alg».proof.Proof.Spec
import Idealize.ShloMosaic.Lib.IdealHost
import Idealize.ShloMosaic.Lib.ValueLayout

/-!
  The normalisation region's value joined to the specification.

  Between the statistics region and the normalisation region the host turns the column sums S and the column sums of
  squares Q of the activations into a row of means S / 100000 and a row of variances Q / 100000 − mean · mean, and
  re-lays the scale and shift vectors as rows. Read at an index, the region's result on these four rows is the
  specification's kernel-side normalisation: the two sides are the same expression of the same extended reals, so no
  finiteness is needed.
-/

set_option maxRecDepth 16384

noncomputable section

open scoped BigOperators

namespace Cert.KernelIdeal.Hand

open Cert.KernelIdeal Cert.KernelIdeal.Gen
open Idealize.ShloMosaic Idealize.ShloMosaic.ValueIdx

/-- The region's result, on the host's mean and variance rows and on the re-laid scale and shift, is the
    specification's normalisation of the activations `H`, whenever `S` and `Q` are `H`'s column sums and column sums
    of squares. -/
theorem bn_tail (H : S100000x256.Idx → EReal) (S Q : S1x256.Idx → EReal) (g b : S256.Idx → EReal)
    (hS : ∀ j : S1x256.Idx, S j = ∑ r : Fin 100000, H (ix2 r (j 1)))
    (hQ : ∀ j : S1x256.Idx, Q j = ∑ r : Fin 100000, H (ix2 r (j 1)) * H (ix2 r (j 1))) :
    bnormOf H
      (Host.divf S (broadcastInDim S1x256 ![] bcast_S_S1x256 (constant (F := Ideal) S_ .f32 0x47C35000#32)))
      (subf (Host.divf Q (broadcastInDim S1x256 ![] bcast_S_S1x256 (constant (F := Ideal) S_ .f32 0x47C35000#32)))
        (mulf (Host.divf S (broadcastInDim S1x256 ![] bcast_S_S1x256 (constant (F := Ideal) S_ .f32 0x47C35000#32)))
              (Host.divf S (broadcastInDim S1x256 ![] bcast_S_S1x256 (constant (F := Ideal) S_ .f32 0x47C35000#32)))))
      (shapeCast S1x256 g shapeCasts_S256_S1x256) (shapeCast S1x256 b shapeCasts_S256_S1x256)
    = Cert.Bridge.bnKer H g b := by
  funext i
  obtain ⟨n, c, rfl⟩ : ∃ (n : Fin 100000) (c : Fin 256), i = ix2 n c := ⟨i 0, i 1, eq_ix2 i⟩
  have eS : S (ix2 (0 : Fin 1) c) = ∑ r : Fin 100000, H (ix2 r c) := hS _
  have eQ : Q (ix2 (0 : Fin 1) c) = ∑ r : Fin 100000, H (ix2 r c) * H (ix2 r c) := hQ _
  rw [bnormOf_at, subf_apply, mulf_apply, hostDivf_apply, hostDivf_apply, broadcastInDim_scalar_apply,
    shapeCast_a_1a_apply, shapeCast_a_1a_apply, eS, eQ]
  rfl

end Cert.KernelIdeal.Hand

end
-- ==== Proof.KI.KernelTail.lean ====
import proofs.«143867_j79774722555996_1_alg».proof.Proof.KI.Assembly
import proofs.«143867_j79774722555996_1_alg».proof.Proof.KI.Kept
import proofs.«143867_j79774722555996_1_alg».proof.Proof.KI.HostRead2
import proofs.«143867_j79774722555996_1_alg».proof.Proof.KI.Value2
import proofs.«143867_j79774722555996_1_alg».proof.Proof.KI.Value3
import proofs.«143867_j79774722555996_1_alg».proof.Proof.KI.Kept3
import proofs.«143867_j79774722555996_1_alg».proof.Proof.KI.BnTail
import proofs.«143867_j79774722555996_1_alg».proof.Proof.Spec

/-!
  The back half of the kernel program's result: from the activations `H` that the statistics region is entered with
  to the result array.

  After the statistics region the two sum rows hold `H`'s column sums and column sums of squares, and `H` itself is
  handed back as entered. The host stretch that follows turns the sums into the mean and variance rows and re-lays the
  scale and shift arguments (unchanged since launch) as rows, and does not write `H`. The normalisation region then
  leaves, in the result array, its function of these five arrays — which is the specification's normalisation of `H`.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-! ## The activations reach the normalisation region as the statistics region found them -/

/-- The host stretch before the normalisation region does not write the activations, and the statistics region only
    reads them (through its input window). -/
theorem W9_acts : W9 m c (Proc.devRef .tc main_v56) = W7 m c (Proc.devRef .tc main_v56) :=
  calc W9 m c (Proc.devRef .tc main_v56)
    _ = W8 m c (Proc.devRef .tc main_v56) := StableHlo.after_of_writes_sub hostOps3 _ hostOps3_writes (r := main_v56) (by decide)
    _ = W7 m c (Proc.devRef .tc main_v56) := (W8_arr m c 0).trans (((dat2 (V7 m) c).arrAt_in 0 rfl _).trans (A_eq2 (V7 m) c 0))

/-! ## The scale and shift arguments are still as launched after the statistics region -/

/-- Neither the last host stretch nor the normalisation region writes the scale argument, which ends as launched. -/
theorem W8_scale : W8 m c (Proc.devRef .tc main_arg6) = m ((c : Thread nD τ).loc main_arg6) :=
  calc W8 m c (Proc.devRef .tc main_arg6)
    _ = W9 m c (Proc.devRef .tc main_arg6) := (StableHlo.after_of_writes_sub hostOps3 _ hostOps3_writes (r := main_arg6) (by decide)).symm
    _ = W10 m c (Proc.devRef .tc main_arg6) := (W10_of_ne m c main_arg6 (by decide)).symm
    _ = m ((c : Thread nD τ).loc main_arg6) := W10_main_arg6 m c

/-- The same for the shift argument. -/
theorem W8_shift : W8 m c (Proc.devRef .tc main_arg7) = m ((c : Thread nD τ).loc main_arg7) :=
  calc W8 m c (Proc.devRef .tc main_arg7)
    _ = W9 m c (Proc.devRef .tc main_arg7) := (StableHlo.after_of_writes_sub hostOps3 _ hostOps3_writes (r := main_arg7) (by decide)).symm
    _ = W10 m c (Proc.devRef .tc main_arg7) := (W10_of_ne m c main_arg7 (by decide)).symm
    _ = m ((c : Thread nD τ).loc main_arg7) := W10_main_arg7 m c

/-! ## The four statistics rows the normalisation region is entered with -/

/-- The mean row: the statistics region's first result over 100000. -/
theorem W9_mean : mean3 (V9 m) c
    = Host.divf ((dat2 (V7 m) c).arrAt 1 cfg2.N) (broadcastInDim S1x256 ![] bcast_S_S1x256 (constant (F := Ideal) S_ .f32 0x47C35000#32)) := by
  show StableHlo.after hostOps3 (W8 m c) (Proc.devRef .tc main_v59) = _
  rw [read_mean (W8 m c), show W8 m c (Proc.devRef .tc main_v57_0) = (dat2 (V7 m) c).arrAt 1 cfg2.N from W8_arr m c 1]

/-- The variance row: the second result over 100000, minus the squared mean. -/
theorem W9_var : var3 (V9 m) c
    = subf (Host.divf ((dat2 (V7 m) c).arrAt 2 cfg2.N) (broadcastInDim S1x256 ![] bcast_S_S1x256 (constant (F := Ideal) S_ .f32 0x47C35000#32)))
        (mulf (Host.divf ((dat2 (V7 m) c).arrAt 1 cfg2.N) (broadcastInDim S1x256 ![] bcast_S_S1x256 (constant (F := Ideal) S_ .f32 0x47C35000#32)))
              (Host.divf ((dat2 (V7 m) c).arrAt 1 cfg2.N) (broadcastInDim S1x256 ![] bcast_S_S1x256 (constant (F := Ideal) S_ .f32 0x47C35000#32)))) := by
  show StableHlo.after hostOps3 (W8 m c) (Proc.devRef .tc main_v63) = _
  rw [read_var (W8 m c), show W8 m c (Proc.devRef .tc main_v57_0) = (dat2 (V7 m) c).arrAt 1 cfg2.N from W8_arr m c 1,
    show W8 m c (Proc.devRef .tc main_v57_1) = (dat2 (V7 m) c).arrAt 2 cfg2.N from W8_arr m c 2]

/-- The scale row: the scale argument as launched, re-laid as a row. -/
theorem W9_scale : scale3 (V9 m) c = shapeCast S1x256 (m ((c : Thread nD τ).loc main_arg6)) shapeCasts_S256_S1x256 := by
  show StableHlo.after hostOps3 (W8 m c) (Proc.devRef .tc main_v64) = _
  rw [read_gamma (W8 m c), W8_scale m c]

/-- The shift row: the shift argument as launched, re-laid as a row. -/
theorem W9_shift : shift3 (V9 m) c = shapeCast S1x256 (m ((c : Thread nD τ).loc main_arg7)) shapeCasts_S256_S1x256 := by
  show StableHlo.after hostOps3 (W8 m c) (Proc.devRef .tc main_v65) = _
  rw [read_beta (W8 m c), W8_shift m c]

/-! ## The result array -/

/-- The result array at the end of the run is the specification's normalisation of `H`, given that the statistics
    region's two results are `H`'s column sums and column sums of squares. -/
theorem tail_value_of (H : S100000x256.Idx → EReal) (hH : W7 m c (Proc.devRef .tc main_v56) = H)
    (S Q : S1x256.Idx → EReal) (eS : (dat2 (V7 m) c).arrAt 1 cfg2.N = S) (eQ : (dat2 (V7 m) c).arrAt 2 cfg2.N = Q)
    (hS : ∀ j : S1x256.Idx, S j = ∑ r : Fin 100000, H (ix2 r (j 1)))
    (hQ : ∀ j : S1x256.Idx, Q j = ∑ r : Fin 100000, H (ix2 r (j 1)) * H (ix2 r (j 1))) :
    W10 m c (Proc.devRef .tc main_v66)
      = Cert.Bridge.bnKer H (m ((c.tc : Thread nD τ).loc main_arg6)) (m ((c.tc : Thread nD τ).loc main_arg7)) := by
  refine (W10_arr m c 5).trans ((final3_fun (V9 m) c).trans ?_)
  rw [show tile3 (V9 m) c = H from (W9_acts m c).trans hH, W9_mean m c, W9_var m c, W9_scale m c, W9_shift m c, eS, eQ]
  exact bn_tail H S Q _ _ hS hQ

/-- The result array at the end of the run is the specification's normalisation of the activations `H` that the
    statistics region is entered with, on the scale and shift arguments as launched. -/
theorem tail_value (H : S100000x256.Idx → EReal) (hH : W7 m c (Proc.devRef .tc main_v56) = H) :
    W10 m c (Proc.devRef .tc main_v66)
      = Cert.Bridge.bnKer H (m ((c.tc : Thread nD τ).loc main_arg6)) (m ((c.tc : Thread nD τ).loc main_arg7)) := by
  subst hH
  exact tail_value_of m c _ rfl _ _ rfl rfl (fun j => final2_sum (V7 m) c j) (fun j => final2_sumsq (V7 m) c j)

end Cert.KernelIdeal.Hand

end
-- ==== Proof.KI.KernelValue.lean ====
import proofs.«143867_j79774722555996_1_alg».proof.Proof.KI.KernelProj
import proofs.«143867_j79774722555996_1_alg».proof.Proof.KI.HostRead
import proofs.«143867_j79774722555996_1_alg».proof.Proof.KI.KernelTail
import proofs.«143867_j79774722555996_1_alg».proof.Proof.Spec

/-!
  What the kernel program's result array holds at the end, as a function of the argument arrays: the normalisation
  (in the kernel program's spelling of the variance) of the attention stage applied to the input, the three node
  projections and the edge projection. Composed from the three stretches of the run: up to the end of the second
  region the buffers hold the projections; the host operations before the third region are the attention stage; the
  last two regions and the operations between them are the normalisation.
-/

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The attention stage's output on core `c`, from the argument arrays. -/
def attnOut : FVec Ideal Cert.Bridge.SNode .f32 :=
  Cert.Bridge.chain (m ((c.tc : Thread nD τ).loc main_arg0))
    (Cert.Bridge.proj (m ((c.tc : Thread nD τ).loc main_arg0)) (m ((c.tc : Thread nD τ).loc main_arg2)))
    (Cert.Bridge.proj (m ((c.tc : Thread nD τ).loc main_arg0)) (m ((c.tc : Thread nD τ).loc main_arg3)))
    (Cert.Bridge.proj (m ((c.tc : Thread nD τ).loc main_arg0)) (m ((c.tc : Thread nD τ).loc main_arg5)))
    (Cert.Bridge.projE (m ((c.tc : Thread nD τ).loc main_arg1)) (m ((c.tc : Thread nD τ).loc main_arg4)))
    (m ((c.tc : Thread nD τ).loc main_arg8))

/-- What the result array holds at the end. -/
def kernelOut : Buf (Elt Ideal) ((c.tc : Thread nD τ).loc main_v66) :=
  Cert.Bridge.bnKer (attnOut m c) (m ((c.tc : Thread nD τ).loc main_arg6)) (m ((c.tc : Thread nD τ).loc main_arg7))

/-- Before the third region the buffer it reads holds the attention stage's output. -/
theorem W7_attn : W7 m c (Proc.devRef .tc main_v56) = attnOut m c :=
  read_attention (W4 m c) _ _ _ _ _ _ (W4_x m c) (W4_src m c) (W4_dst m c) (W4_Q m c) (W4_K m c) (W4_V m c) (W4_E m c)

/-- The result array at the end. -/
theorem kernel_value : W10 m c (Proc.devRef .tc main_v66) = kernelOut m c :=
  tail_value m c (attnOut m c) (W7_attn m c)

end Cert.KernelIdeal.Hand

end
-- ==== Proof.RefIsSpec.lean ====
/-
  The reference program computes the specification.

  Its four `dot_general`s are the four projections (each entry the sum over the contracted coordinate of the
  products), the operations between them and the residual sum are the shared stage applied to those projections, and
  its last operations are the batch normalisation with the variance as the mean squared deviation.
-/
import proofs.«143867_j79774722555996_1_alg».proof.Proof.Gen.ReferenceIdeal.Read
import proofs.«143867_j79774722555996_1_alg».proof.Proof.Spec

noncomputable section

open scoped BigOperators

namespace Cert.ReferenceIdeal.RefValue

open Cert.ReferenceIdeal Cert.ReferenceIdeal.Gen Cert.ReferenceIdeal.Read Cert.Bridge
open Idealize.ShloMosaic Idealize.ShloMosaic.TcCoe Idealize.SL.Sem Idealize.ShloMosaic.ValueIdx

/-- x · WQ: the product's entry (n, c) is ∑ k, x (n, k) · WQ (k, c). -/
theorem query_eq (x0 : FVec Ideal S100000x256 .f32) (x2 : FVec Ideal S256x256 .f32) :
    val_main_v4 (F := Ideal) x0 x2 = proj x0 x2 := by
  funext i
  rw [val_main_v4_apply]
  show _ = ∑ k : Fin 256, x0 (ix2 (i 0) k) * x2 (ix2 k (i 1))
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

/-- x · WK likewise. -/
theorem key_eq (x0 : FVec Ideal S100000x256 .f32) (x3 : FVec Ideal S256x256 .f32) :
    val_main_v6 (F := Ideal) x0 x3 = proj x0 x3 := by
  funext i
  rw [val_main_v6_apply]
  show _ = ∑ k : Fin 256, x0 (ix2 (i 0) k) * x3 (ix2 k (i 1))
  refine Finset.sum_congr rfl fun k _ => ?_
  have el : lidx_main_v6 i k = ix2 (i 0) k := funext fun a => by match a with | ⟨0, _⟩ => rfl | ⟨1, _⟩ => rfl
  have er : ridx_main_v6 i k = ix2 k (i 1) := funext fun a => by match a with | ⟨0, _⟩ => rfl | ⟨1, _⟩ => rfl
  rw [el, er]
  rfl

/-- x · WV likewise. -/
theorem value_eq (x0 : FVec Ideal S100000x256 .f32) (x5 : FVec Ideal S256x256 .f32) :
    val_main_v8 (F := Ideal) x0 x5 = proj x0 x5 := by
  funext i
  rw [val_main_v8_apply]
  show _ = ∑ k : Fin 256, x0 (ix2 (i 0) k) * x5 (ix2 k (i 1))
  refine Finset.sum_congr rfl fun k _ => ?_
  have el : lidx_main_v8 i k = ix2 (i 0) k := funext fun a => by match a with | ⟨0, _⟩ => rfl | ⟨1, _⟩ => rfl
  have er : ridx_main_v8 i k = ix2 k (i 1) := funext fun a => by match a with | ⟨0, _⟩ => rfl | ⟨1, _⟩ => rfl
  rw [el, er]
  rfl

/-- edge_attr · WE likewise, over the 500000 edges. -/
theorem edge_eq (x1 : FVec Ideal S500000x256 .f32) (x4 : FVec Ideal S256x256 .f32) :
    val_main_v10 (F := Ideal) x1 x4 = projE x1 x4 := by
  funext i
  rw [val_main_v10_apply]
  show _ = ∑ k : Fin 256, x1 (ix2 (i 0) k) * x4 (ix2 k (i 1))
  refine Finset.sum_congr rfl fun k _ => ?_
  have el : lidx_main_v10 i k = ix2 (i 0) k := funext fun a => by match a with | ⟨0, _⟩ => rfl | ⟨1, _⟩ => rfl
  have er : ridx_main_v10 i k = ix2 k (i 1) := funext fun a => by match a with | ⟨0, _⟩ => rfl | ⟨1, _⟩ => rfl
  rw [el, er]
  rfl

set_option maxRecDepth 8192 in
/-- From the four products to the residual sum, the reference applies the shared stage's operations, one for one. -/
theorem stage_eq (x0 : FVec Ideal S100000x256 .f32) (x1 : FVec Ideal S500000x256 .f32) (x2 x3 x4 x5 : FVec Ideal S256x256 .f32)
    (x8 : IVec S2x500000 32) :
    val_main_v54 (F := Ideal) x0 x1 x2 x3 x4 x5 x8
      = chain x0 (val_main_v4 (F := Ideal) x0 x2) (val_main_v6 (F := Ideal) x0 x3) (val_main_v8 (F := Ideal) x0 x5)
          (val_main_v10 (F := Ideal) x1 x4) x8 := rfl

set_option maxRecDepth 8192 in
/-- After the residual sum, the reference applies the batch normalisation's operations, one for one. -/
theorem norm_eq (x0 : FVec Ideal S100000x256 .f32) (x1 : FVec Ideal S500000x256 .f32) (x2 x3 x4 x5 : FVec Ideal S256x256 .f32)
    (x6 x7 : FVec Ideal S256 .f32) (x8 : IVec S2x500000 32) :
    val_main_v79 (F := Ideal) x0 x1 x2 x3 x4 x5 x6 x7 x8
      = bnRef (val_main_v54 (F := Ideal) x0 x1 x2 x3 x4 x5 x8) x6 x7 := rfl

/-- The reference's result, as a function of its nine arguments, is the specification. -/
theorem result_eq (x0 : FVec Ideal S100000x256 .f32) (x1 : FVec Ideal S500000x256 .f32) (x2 x3 x4 x5 : FVec Ideal S256x256 .f32)
    (x6 x7 : FVec Ideal S256 .f32) (x8 : IVec S2x500000 32) :
    val_main_v79 (F := Ideal) x0 x1 x2 x3 x4 x5 x6 x7 x8
      = bnRef (chain x0 (proj x0 x2) (proj x0 x3) (proj x0 x5) (projE x1 x4) x8) x6 x7 := by
  rw [norm_eq, stage_eq, query_eq, key_eq, value_eq, edge_eq]

/-- What the reference's run leaves in its result buffer is the specification of the launch contents of its arguments. -/
theorem ref_is_spec (m : (ℓ : Loc nD τ sig) → Buf (Elt Ideal) ℓ) (c : Dev nD) :
    Cert.ReferenceIdeal.Value.res_main_v79 (F := Ideal) m c
      = bnRef
          (chain (m ((c.tc : Thread nD τ).loc main_arg0))
            (proj (m ((c.tc : Thread nD τ).loc main_arg0)) (m ((c.tc : Thread nD τ).loc main_arg2)))
            (proj (m ((c.tc : Thread nD τ).loc main_arg0)) (m ((c.tc : Thread nD τ).loc main_arg3)))
            (proj (m ((c.tc : Thread nD τ).loc main_arg0)) (m ((c.tc : Thread nD τ).loc main_arg5)))
            (projE (m ((c.tc : Thread nD τ).loc main_arg1)) (m ((c.tc : Thread nD τ).loc main_arg4)))
            (m ((c.tc : Thread nD τ).loc main_arg8)))
          (m ((c.tc : Thread nD τ).loc main_arg6)) (m ((c.tc : Thread nD τ).loc main_arg7)) :=
  (val_main_v79_eq (F := Ideal) m c).trans (result_eq _ _ _ _ _ _ _ _ _)

end Cert.ReferenceIdeal.RefValue

end
-- ==== Proof.ChainFinite.lean ====
/-
  The shared stage produces real values from real inputs.

  Whatever the logits are, a score exp(min(5, max(−5, ·))) is a positive real: clipping between two reals lands on a
  real, and the exponential of a real is positive. A row taken from an array is one of its entries, so a message
  V[src] · score is real when V is; the sums over the edges into a node are finite sums of reals; the normaliser is
  a sum of positive reals plus a positive constant, hence a real that is not zero, and the quotient by it is real; so
  is the input plus that quotient. Nothing is needed of the queries, the keys or the edge features.
-/
import proofs.«143867_j79774722555996_1_alg».proof.Proof.Spec

noncomputable section

open scoped BigOperators

namespace Cert.Bridge

open Idealize.ShloMosaic Idealize.ShloMosaic.ValueIdx

/-! ## Real values are closed under the operations met here -/

/-- The sum of two reals, taken in the extended reals, is a real. -/
theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

/-- The product of two reals, taken in the extended reals, is a real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A finite sum of reals, taken in the extended reals, is a real. -/
theorem real_sum {ι : Type*} (s : Finset ι) (f : ι → EReal) (hf : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- A finite sum of reals that are not negative is a real that is not negative. -/
theorem nonneg_sum {ι : Type*} (s : Finset ι) (f : ι → EReal) (hf : ∀ i ∈ s, ∃ r : ℝ, 0 ≤ r ∧ f i = r) :
    ∃ r : ℝ, 0 ≤ r ∧ ∑ i ∈ s, f i = r := by
  classical
  induction s using Finset.induction_on with
  | empty => exact ⟨0, le_rfl, by simp⟩
  | insert a s ha ih =>
    rw [Finset.sum_insert ha]
    obtain ⟨r, hr, er⟩ := hf a (Finset.mem_insert_self a s)
    obtain ⟨t, ht, et⟩ := ih fun i hi => hf i (Finset.mem_insert_of_mem hi)
    exact ⟨r + t, add_nonneg hr ht, by rw [er, et, EReal.coe_add]⟩

/-- A real over a real that is not zero is a real. -/
theorem real_div {a b : EReal} (ha : ∃ r : ℝ, a = r) (hb : ∃ r : ℝ, r ≠ 0 ∧ b = r) : ∃ r : ℝ, Ideal.div a b = r := by
  obtain ⟨r, rfl⟩ := ha
  obtain ⟨s, hs, rfl⟩ := hb
  exact ⟨r * (1 / s), by rw [Ideal.div_coe hs, EReal.coe_mul]⟩

/-- Clipping any extended real between two reals gives a real. -/
theorem clip_real (a b : ℝ) (y : EReal) : ∃ t : ℝ, min (b : EReal) (max (a : EReal) y) = t := by
  have hmax : ∀ u v : ℝ, max (u : EReal) (v : EReal) = ((max u v : ℝ) : EReal) := fun u v =>
    (EReal.coe_strictMono.monotone.map_max).symm
  have hmin : ∀ u v : ℝ, min (u : EReal) (v : EReal) = ((min u v : ℝ) : EReal) := fun u v =>
    (EReal.coe_strictMono.monotone.map_min).symm
  induction y using EReal.rec with
  | bot => exact ⟨min b a, by rw [max_bot_right, hmin]⟩
  | top => exact ⟨b, by rw [max_top_right, min_top_right]⟩
  | coe r => exact ⟨min b (max a r), by rw [hmax, hmin]⟩

/-- The exponential of a value clipped between two reals is a positive real. -/
theorem exp_clip_pos {lo hi : EReal} (hlo : ∃ r : ℝ, lo = r) (hhi : ∃ r : ℝ, hi = r) (y : EReal) :
    ∃ r : ℝ, 0 < r ∧ Ideal.exp (min hi (max lo y)) = r := by
  obtain ⟨a, rfl⟩ := hlo
  obtain ⟨b, rfl⟩ := hhi
  obtain ⟨t, ht⟩ := clip_real a b y
  exact ⟨Real.exp t, Real.exp_pos t, by rw [ht, Ideal.exp_coe]⟩

/-! ## The constants -/

/-- An f32 pattern whose exponent field is not all ones denotes a real. -/
theorem ofBits_f32_real (b : BitVec 32) (h : (b.extractLsb' 23 8).toNat ≠ 255) : ∃ r : ℝ, Ideal.ofBits .f32 b = r := by
  unfold Ideal.ofBits Ideal.ieee
  simp only []
  rw [if_neg (by simpa using h)]
  split_ifs <;> exact ⟨_, rfl⟩

/-- The constant added to the normaliser is a positive real. -/
theorem normaliser_shift_pos : ∃ r : ℝ, 0 < r ∧ Ideal.ofBits .f32 0x358637BD#32 = r := by
  refine ⟨_, ?_, by simp [Ideal.ofBits, Ideal.ieee, -EReal.coe_mul]; rfl⟩
  positivity

/-! ## Array operations keep real values -/

section Arrays
variable {s si su : Shape} {w : Nat}

/-- An accumulation of real updates into a real array is real. -/
theorem scatterAdd_real (d : ScatterDims s si su) (x : FVec Ideal s .f32) (idx : IVec si w) (u : FVec Ideal su .f32)
    (hx : ∀ k, ∃ r : ℝ, x k = r) (hu : ∀ j, ∃ r : ℝ, u j = r) (k : s.Idx) :
    ∃ r : ℝ, Host.scatterAdd d x idx u k = r := by
  unfold Host.scatterAdd
  rw [Ideal.hostScatterAdd_def]
  unfold Ideal.hostScatterAdd
  exact real_add (hx k) (real_sum _ _ fun j _ => hu j)

/-- An accumulation of updates that are not negative into an array that is not negative is not negative. -/
theorem scatterAdd_nonneg (d : ScatterDims s si su) (x : FVec Ideal s .f32) (idx : IVec si w) (u : FVec Ideal su .f32)
    (hx : ∀ k, ∃ r : ℝ, 0 ≤ r ∧ x k = r) (hu : ∀ j, ∃ r : ℝ, 0 ≤ r ∧ u j = r) (k : s.Idx) :
    ∃ r : ℝ, 0 ≤ r ∧ Host.scatterAdd d x idx u k = r := by
  unfold Host.scatterAdd
  rw [Ideal.hostScatterAdd_def]
  unfold Ideal.hostScatterAdd
  obtain ⟨r, hr, er⟩ := hx k
  obtain ⟨t, ht, et⟩ := nonneg_sum _ _ fun j (_ : j ∈ Finset.univ.filter fun j => d.resultIdx? j idx = some k) => hu j
  exact ⟨r + t, add_nonneg hr ht, by rw [er, et, EReal.coe_add]⟩

end Arrays

/-! ## The stage -/

section Stage
variable (x Qm Km Vm : FVec Ideal SNode .f32) (Ehm : FVec Ideal SEdge .f32) (ei : IVec SEnds 32)

/-- Every score is a positive real, whatever the logits. -/
theorem score_pos (j : SEdgeHead1.Idx) : ∃ r : ℝ, 0 < r ∧ score Qm Km Ehm ei j = r := by
  unfold score
  rw [show ∀ v : FVec Ideal SEdgeHead1 .f32, Host.exp v j = Ideal.exp (v j) from fun _ => rfl, minimumf_apply,
    maximumf_apply, broadcastInDim_scalar_apply, broadcastInDim_scalar_apply, id_eq, id_eq, constant_apply, constant_apply]
  exact exp_clip_pos (ofBits_f32_real _ (by decide +kernel)) (ofBits_f32_real _ (by decide +kernel)) _

/-- A row taken from a real array is real. -/
theorem rowsAt_real (M : FVec Ideal SNode .f32) (hM : ∀ i, ∃ r : ℝ, M i = r) (v : IVec SPerEdge 32) (j : SEdgeH.Idx) :
    ∃ r : ℝ, rowsAt M v j = r := by
  unfold rowsAt Host.gather heads shapeCast
  exact hM _

/-- The zero array the accumulations start from is real and not negative. -/
theorem zeros_nonneg {T : Shape} (hb : SScalar.BroadcastsInDim T (![] : Fin 0 → Fin T.rank)) (k : T.Idx) :
    ∃ r : ℝ, 0 ≤ r ∧ broadcastInDim T ![] hb (constant (F := Ideal) SScalar .f32 0x00000000#32) k = r :=
  ⟨0, le_rfl, by rw [broadcastInDim_scalar_apply, constant_apply, Ideal.ofBits_zero_f32]; rfl⟩

/-- The gathered messages are real when the values are. -/
theorem gathered_real (hV : ∀ i, ∃ r : ℝ, Vm i = r) (k : SNodeH.Idx) : ∃ r : ℝ, gathered Qm Km Vm Ehm ei k = r := by
  unfold gathered
  refine scatterAdd_real _ _ _ _ (fun k' => ?_) (fun j => ?_) k
  · obtain ⟨r, _, e⟩ := zeros_nonneg scalar_nodeH k'
    exact ⟨r, e⟩
  · have hs : ∀ j' : SEdgeH.Idx, ∃ r : ℝ,
        broadcastInDim SEdgeH ![0, 1, 2] edgeHead1_edgeH (score Qm Km Ehm ei) j' = r := fun j' => by
      unfold broadcastInDim
      obtain ⟨r, _, e⟩ := score_pos Qm Km Ehm ei _
      exact ⟨r, e⟩
    exact real_mul (rowsAt_real Vm hV _ j) (hs j)

/-- The normaliser is a real that is not negative. -/
theorem normaliser_nonneg (k : SNodeHead1.Idx) : ∃ r : ℝ, 0 ≤ r ∧ normaliser Qm Km Ehm ei k = r := by
  unfold normaliser
  refine scatterAdd_nonneg _ _ _ _ (fun k' => zeros_nonneg scalar_nodeHead1 k') (fun j => ?_) k
  obtain ⟨r, hr, e⟩ := score_pos Qm Km Ehm ei j
  exact ⟨r, hr.le, e⟩

/-- The shared stage of real inputs and real values is real at every node and channel. -/
theorem chain_finite (hx : ∀ i, ∃ r : ℝ, x i = r) (hV : ∀ i, ∃ r : ℝ, Vm i = r) :
    ∀ i, ∃ r : ℝ, chain x Qm Km Vm Ehm ei i = r := by
  intro i
  unfold chain
  rw [addf_apply]
  refine real_add (hx i) ?_
  unfold shapeCast
  rw [hostDivf_apply]
  refine real_div (gathered_real Qm Km Vm Ehm ei hV _) ?_
  unfold broadcastInDim
  obtain ⟨z, hz, ez⟩ := normaliser_nonneg Qm Km Ehm ei _
  obtain ⟨e, he, ee⟩ := normaliser_shift_pos
  refine ⟨z + e, (add_pos_of_nonneg_of_pos hz he).ne', ?_⟩
  rw [addf_apply, ez, constant_apply, ee, EReal.coe_add]

end Stage

/-! ## The projections -/

/-- A product of real matrices is real. -/
theorem proj_finite (x : FVec Ideal SNode .f32) (w : FVec Ideal SWeight .f32) (hx : ∀ i, ∃ r : ℝ, x i = r)
    (hw : ∀ i, ∃ r : ℝ, w i = r) : ∀ i, ∃ r : ℝ, proj x w i = r := fun i =>
  real_sum _ _ fun k _ => real_mul (hx _) (hw _)

/-- The same over the edges. -/
theorem projE_finite (a : FVec Ideal SEdge .f32) (w : FVec Ideal SWeight .f32) (ha : ∀ i, ∃ r : ℝ, a i = r)
    (hw : ∀ i, ∃ r : ℝ, w i = r) : ∀ i, ∃ r : ℝ, projE a w i = r := fun i =>
  real_sum _ _ fun k _ => real_mul (ha _) (hw _)

end Cert.Bridge

end
-- ==== Proof.FiniteInputs.lean ====
/-
  The precondition says every float argument is an array of reals.

  It is the conjunction, over the eight float arguments, of "every entry's absolute value is below +∞". On the
  extended reals the absolute value max(y, −y) of either infinity is +∞, which is not below itself; so an entry that
  passes is a real.
-/
import proofs.«143867_j79774722555996_1_alg».proof.Defs
import Idealize.ShloMosaic.Lib.ReduceAll
import Idealize.ShloMosaic.Lib.ValueIdx
import Idealize.ShloMosaic.PureOps.Ideal.Laws

noncomputable section

namespace Cert.Bridge

open Idealize.ShloMosaic Idealize.ShloMosaic.TcCoe Idealize.SL.Sem Idealize.ShloMosaic.ValueIdx

/-- The scalar shape has one index. -/
instance scalarIdx_subsingleton : Subsingleton (⟨0, ![]⟩ : Shape).Idx := ⟨fun _ _ => funext fun d => d.elim0⟩

/-- The pattern of +∞ denotes the top of the extended reals. -/
theorem ofBits_inf : Ideal.ofBits .f32 0x7F800000#32 = ⊤ := by simp [Ideal.ofBits, Ideal.ieee]

/-- An extended real whose absolute value is below +∞ is a real. -/
theorem real_of_abs_lt_top (y : EReal) (h : Ideal.cmp .olt (max y (-y)) ⊤ = 1#1) : ∃ r : ℝ, y = r := by
  induction y using EReal.rec with
  | bot => exact absurd h (by simp [Ideal.cmp])
  | top => exact absurd h (by simp [Ideal.cmp])
  | coe r => exact ⟨r, rfl⟩

/-- One conjunct of the precondition: if "all |x| < +∞" holds of an array, each of its entries is a real. -/
theorem all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) : ∃ r : ℝ, x i = r := by
  have h1 := Host.reduce_andi_all _ _ hr hu ix0 e i
  refine real_of_abs_lt_top (x i) ?_
  rw [← ofBits_inf]
  exact h1

/-- An array of the ideal values all of whose entries are reals. -/
@[reducible] def RealValued {s : Shape} (x : FVec Ideal s .f32) : Prop := ∀ i, ∃ r : ℝ, x i = r

/-- A conjunction of one-bit arrays at an index is the conjunction of the bits. -/
theorem andi_at {s : Shape} (a b : IVec s 1) (i : s.Idx) : andi a b i = IntOp.andi (a i) (b i) := rfl

variable [Cert.Pre_finite_inputs.Facts]

open Cert.KernelIdeal in
/-- Under the precondition, on every device, each of the eight float arguments of the kernel's program — the node
    features, the edge features, the four weight matrices, the scale and the shift — holds reals only. -/
theorem args_finite (m : (ℓ : Loc nD τ sig) → Buf (Elt Ideal) ℓ) (hpre : Cert.Pre_KernelIdeal m) (c : Dev nD) :
    RealValued (s := S100000x256) (m ((c.tc : Thread nD τ).loc main_arg0))
    ∧ RealValued (s := S500000x256) (m ((c.tc : Thread nD τ).loc main_arg1))
    ∧ RealValued (s := S256x256) (m ((c.tc : Thread nD τ).loc main_arg2))
    ∧ RealValued (s := S256x256) (m ((c.tc : Thread nD τ).loc main_arg3))
    ∧ RealValued (s := S256x256) (m ((c.tc : Thread nD τ).loc main_arg4))
    ∧ RealValued (s := S256x256) (m ((c.tc : Thread nD τ).loc main_arg5))
    ∧ RealValued (s := S256) (m ((c.tc : Thread nD τ).loc main_arg6))
    ∧ RealValued (s := S256) (m ((c.tc : Thread nD τ).loc main_arg7)) := by
  have h := congrFun (hpre c) ix0
  dsimp only [Cert.Pre_finite_inputs.fn, Cert.Pre_finite_inputs.fn_part1, Cert.Pre_finite_inputs.fn_part2] at h
  rw [andi_at, IntOp.andi_eq_one] at h
  obtain ⟨h, h7⟩ := h
  rw [andi_at, IntOp.andi_eq_one] at h
  obtain ⟨h, h6⟩ := h
  rw [andi_at, IntOp.andi_eq_one] at h
  obtain ⟨h, h5⟩ := h
  rw [andi_at, IntOp.andi_eq_one] at h
  obtain ⟨h, h4⟩ := h
  rw [andi_at, IntOp.andi_eq_one] at h
  obtain ⟨h, h3⟩ := h
  rw [andi_at, IntOp.andi_eq_one] at h
  obtain ⟨h, h2⟩ := h
  rw [andi_at, IntOp.andi_eq_one] at h
  obtain ⟨h0, h1⟩ := h
  exact ⟨all_finite _ _ _ _ h0, all_finite _ _ _ _ h1, all_finite _ _ _ _ h2, all_finite _ _ _ _ h3,
    all_finite _ _ _ _ h4, all_finite _ _ _ _ h5, all_finite _ _ _ _ h6, all_finite _ _ _ _ h7⟩

end Cert.Bridge

end
-- ==== Proof.Claims.lean ====
import proofs.«143867_j79774722555996_1_alg».proof.Defs
import proofs.«143867_j79774722555996_1_alg».proof.Proof.KB.Kept
import proofs.«143867_j79774722555996_1_alg».proof.Proof.KI.Kept
import proofs.«143867_j79774722555996_1_alg».proof.Proof.KI.KernelValue
import proofs.«143867_j79774722555996_1_alg».proof.Proof.RefIsSpec
import proofs.«143867_j79774722555996_1_alg».proof.Proof.ChainFinite
import proofs.«143867_j79774722555996_1_alg».proof.Proof.FiniteInputs
import proofs.«143867_j79774722555996_1_alg».proof.Proof.Gen.Kernel
import proofs.«143867_j79774722555996_1_alg».proof.Proof.Gen.KernelIdeal
import proofs.«143867_j79774722555996_1_alg».proof.Proof.Gen.ReferenceIdeal
import proofs.«143867_j79774722555996_1_alg».proof.Proof.Gen.ReferenceIdeal.Run
import proofs.«143867_j79774722555996_1_alg».proof.Proof.Gen.Pre_finite_inputs

/-!
  The five claims.

  Sparse graph attention with a residual connection, then a batch normalisation over the 100000 nodes. The kernel
  program computes the three node projections as ONE matrix product against the three weight matrices laid side by
  side, row tile by row tile, and the edge projection likewise; the reference computes four separate products: entry
  by entry these are the same sums. The attention stage between the projections and the normalisation is spelt by both
  programs with the same operations. The normalisation differs: the kernel program accumulates, tile by tile, the
  column sums of h and of h², and takes the variance as  mean(h²) − mean(h)²;  the reference takes
  mean((h − mean(h))²).  These agree on real numbers — expand the square and use  ∑ h = 100000 · mean(h)  — and the
  attention stage's output IS real-valued whenever the inputs are: every score is the exponential of a number clipped
  to [−5, 5], so the normaliser is a finite sum of positive reals, and the messages are finite sums of finite values.
  That is the one place the precondition is used.
-/

noncomputable section

namespace Cert.Proof.Claims

open Idealize.ShloMosaic Idealize.ShloMosaic.TcCoe Idealize.SL.Sem

/-- The word-level kernel program runs to the end, faults nowhere and leaves its arguments as launched. -/
theorem frame_k : Cert.frame_Kernel := fun m ρ _ => Cert.Kernel.Hand.frame_run (F := Bits) m ρ

/-- So does the kernel program read at the extended reals (the same run, at the other instance). -/
theorem frame_ki : Cert.frame_KernelIdeal := fun m ρ _ => Cert.KernelIdeal.Hand.frame_run (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both idealized programs end with the normalised attention output of the arguments: the kernel program's by the
    run of its ten segments read back (`kernel_value`), the reference's by its run (`ref_is_spec`); the two
    spellings of the variance agree because the attention stage's output is real-valued. -/
theorem algebraic : Cert.algebraic_KernelIdeal_ReferenceIdeal := by
  intro m ρ m' ρ' hpre hagree
  refine ⟨fun c => Cert.KernelIdeal.Hand.kernelOut m c, ?_, ?_⟩
  · exact (θ_run Cert.KernelIdeal.defs _ _).mono
      (fun r h c => ⟨(h c).1.trans (Cert.KernelIdeal.Hand.kernel_value m c), (h c).2⟩)
      (Cert.KernelIdeal.Hand.result_run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_is_spec m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    obtain ⟨hx, _, _, _, _, hwv, _, _⟩ := Cert.Bridge.args_finite m hpre c
    exact (Cert.Bridge.bn_eq _ _ _ (Cert.Bridge.chain_finite _ _ _ _ _ _ hx (Cert.Bridge.proj_finite _ _ hx hwv))).symm

end Cert.Proof.Claims

end
-- ==== Proof.lean ====
/-
  The certificate of a sparse graph attention layer with batch normalisation: the kernel program (four tiled
  regions — a fused query/key/value projection, an edge projection, the batch statistics accumulated over row tiles,
  the normalisation — among host operations) against a plain reference.

  The three frames: each program runs to the end, faults nowhere and leaves its arguments as launched — for the two
  kernel programs by running @main as ten segments (Proof/KI/Assembly.lean and its word-level twin under Proof/KB), for
  the reference by its run. The idealization rewrote nothing. At the extended reals the two idealized programs end with
  equal results (Proof/Claims.lean says why).
-/
import proofs.«143867_j79774722555996_1_alg».proof.Defs
import proofs.«143867_j79774722555996_1_alg».proof.Proof.Claims
import proofs.«143867_j79774722555996_1_alg».proof.Proof.Gen.Kernel
import proofs.«143867_j79774722555996_1_alg».proof.Proof.Gen.KernelIdeal
import proofs.«143867_j79774722555996_1_alg».proof.Proof.Gen.ReferenceIdeal
import proofs.«143867_j79774722555996_1_alg».proof.Proof.Gen.Pre_finite_inputs

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
